-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512x1x1 : Shape := ⟨4, ![1024, 512, 1, 1]⟩
abbrev S512x512x4x4 : Shape := ⟨4, ![512, 512, 4, 4]⟩
abbrev S512 : Shape := ⟨1, ![512]⟩
abbrev S512x512x3x3 : Shape := ⟨4, ![512, 512, 3, 3]⟩
abbrev S3x512x1x1 : Shape := ⟨4, ![3, 512, 1, 1]⟩
abbrev S3 : Shape := ⟨1, ![3]⟩
abbrev S_ : Shape := ⟨0, ![]⟩

class Facts : Prop where
  bcast_S_S1024x512x1x1 : S_.BroadcastsInDim S1024x512x1x1 (![] : Fin 0 → Fin S1024x512x1x1.rank)
  reducesTo_S1024x512x1x1_S_d0_1_2_3 : S1024x512x1x1.ReducesTo [0, 1, 2, 3] S_
  h_S_ : 0 < S_.numel
  bcast_S_S512x512x4x4 : S_.BroadcastsInDim S512x512x4x4 (![] : Fin 0 → Fin S512x512x4x4.rank)
  reducesTo_S512x512x4x4_S_d0_1_2_3 : S512x512x4x4.ReducesTo [0, 1, 2, 3] S_
  bcast_S_S512 : S_.BroadcastsInDim S512 (![] : Fin 0 → Fin S512.rank)
  reducesTo_S512_S_d0 : S512.ReducesTo [0] S_
  bcast_S_S512x512x3x3 : S_.BroadcastsInDim S512x512x3x3 (![] : Fin 0 → Fin S512x512x3x3.rank)
  reducesTo_S512x512x3x3_S_d0_1_2_3 : S512x512x3x3.ReducesTo [0, 1, 2, 3] S_
  bcast_S_S3x512x1x1 : S_.BroadcastsInDim S3x512x1x1 (![] : Fin 0 → Fin S3x512x1x1.rank)
  reducesTo_S3x512x1x1_S_d0_1_2_3 : S3x512x1x1.ReducesTo [0, 1, 2, 3] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S512 .f32) (main_arg5 : FVec F S3x512x1x1 .f32) (main_arg6 : FVec F S3 .f32) (main_v13 : IVec S_ 1) (main_v16 : IVec S512x512x3x3 1) : IVec S_ 1 :=
  let main_c_5 : IVec S_ 1 := constantI S_ 1 1#1
  let main_v17 : IVec S_ 1 := (fun x v => Host.reduce IntOp.andi x v reducesTo_S512x512x3x3_S_d0_1_2_3 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S3x512x1x1 .f32 := Host.absf main_arg5
  let main_cst_8 : FVec F S_ .f32 := constant S_ .f32 0x7F800000#32
  let main_v25 : FVec F S3x512x1x1 .f32 := broadcastInDim S3x512x1x1 ![] bcast_S_S3x512x1x1 main_cst_8
  let main_v26 : IVec S3x512x1x1 1 := cmpf .olt main_v24 main_v25
  let main_c_9 : IVec S_ 1 := constantI S_ 1 1#1
  let main_v27 : IVec S_ 1 := (fun x v => Host.reduce IntOp.andi x v reducesTo_S3x512x1x1_S_d0_1_2_3 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S1024x512x1x1 .f32) (main_arg1 : FVec F S512x512x4x4 .f32) (main_arg2 : FVec F S512 .f32) (main_arg3 : FVec F S512x512x3x3 .f32) (main_arg4 : FVec F S512 .f32) (main_arg5 : FVec F S3x512x1x1 .f32) (main_arg6 : FVec F S3 .f32) : IVec S_ 1 :=
  let main_v0 : FVec F S1024x512x1x1 .f32 := Host.absf main_arg0
  let main_cst : FVec F S_ .f32 := constant S_ .f32 0x7F800000#32
  let main_v1 : FVec F S1024x512x1x1 .f32 := broadcastInDim S1024x512x1x1 ![] bcast_S_S1024x512x1x1 main_cst
  let main_v2 : IVec S1024x512x1x1 1 := cmpf .olt main_v0 main_v1
  let main_c : IVec S_ 1 := constantI S_ 1 1#1
  let main_v3 : IVec S_ 1 := (fun x v => Host.reduce IntOp.andi x v reducesTo_S1024x512x1x1_S_d0_1_2_3 h_S_) main_v2 main_c
  let main_v4 : FVec F S512x512x4x4 .f32 := Host.absf main_arg1
  let main_cst_0 : FVec F S_ .f32 := constant S_ .f32 0x7F800000#32
  let main_v5 : FVec F S512x512x4x4 .f32 := broadcastInDim S512x512x4x4 ![] bcast_S_S512x512x4x4 main_cst_0
  let main_v6 : IVec S512x512x4x4 1 := cmpf .olt main_v4 main_v5
  let main_c_1 : IVec S_ 1 := constantI S_ 1 1#1
  let main_v7 : IVec S_ 1 := (fun x v => Host.reduce IntOp.andi x v reducesTo_S512x512x4x4_S_d0_1_2_3 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512x3x3 .f32 := Host.absf main_arg3
  let main_cst_4 : FVec F S_ .f32 := constant S_ .f32 0x7F800000#32
  let main_v15 : FVec F S512x512x3x3 .f32 := broadcastInDim S512x512x3x3 ![] bcast_S_S512x512x3x3 main_cst_4
  let main_v16 : IVec S512x512x3x3 1 := cmpf .olt main_v14 main_v15
  fn_part1 (F := F) main_arg4 main_arg5 main_arg6 main_v13 main_v16
-- ==== Kernel.lean ====
abbrev S1024x512x1x1 : Shape := ⟨4, ![1024, 512, 1, 1]⟩
abbrev S512x512x4x4 : Shape := ⟨4, ![512, 512, 4, 4]⟩
abbrev S512 : Shape := ⟨1, ![512]⟩
abbrev S512x512x3x3 : Shape := ⟨4, ![512, 512, 3, 3]⟩
abbrev S3x512x1x1 : Shape := ⟨4, ![3, 512, 1, 1]⟩
abbrev S3 : Shape := ⟨1, ![3]⟩
abbrev S_ : Shape := ⟨0, ![]⟩
abbrev S512x512x16 : Shape := ⟨3, ![512, 512, 16]⟩
abbrev S512x16x512 : Shape := ⟨3, ![512, 16, 512]⟩
abbrev S512x8192 : Shape := ⟨2, ![512, 8192]⟩
abbrev S1x512 : Shape := ⟨2, ![1, 512]⟩
abbrev S16x512 : Shape := ⟨2, ![16, 512]⟩
abbrev S8192 : Shape := ⟨1, ![8192]⟩
abbrev S1x8192 : Shape := ⟨2, ![1, 8192]⟩
abbrev S3x3x512x512 : Shape := ⟨4, ![3, 3, 512, 512]⟩
abbrev S9x512x512 : Shape := ⟨3, ![9, 512, 512]⟩
abbrev S3x512 : Shape := ⟨2, ![3, 512]⟩
abbrev S512x3 : Shape := ⟨2, ![512, 3]⟩
abbrev S1x3 : Shape := ⟨2, ![1, 3]⟩
abbrev S1024x512 : Shape := ⟨2, ![1024, 512]⟩
abbrev S16x1024x3 : Shape := ⟨3, ![16, 1024, 3]⟩
abbrev S256x512 : Shape := ⟨2, ![256, 512]⟩
abbrev S16x256x3 : Shape := ⟨3, ![16, 256, 3]⟩
abbrev S256x8192 : Shape := ⟨2, ![256, 8192]⟩
abbrev S256 : Shape := ⟨1, ![256]⟩
abbrev S256x1 : Shape := ⟨2, ![256, 1]⟩
abbrev S1x512x512 : Shape := ⟨3, ![1, 512, 512]⟩
abbrev S512x512 : Shape := ⟨2, ![512, 512]⟩
abbrev S256x3 : Shape := ⟨2, ![256, 3]⟩
abbrev S1x256x3 : Shape := ⟨3, ![1, 256, 3]⟩
abbrev S1024x3x16 : Shape := ⟨3, ![1024, 3, 16]⟩
abbrev S1024x3x4x4 : Shape := ⟨4, ![1024, 3, 4, 4]⟩

abbrev nBuf : Space → Nat
  | .hbm => 37
  | .vmem => 10
  | .smem => 0
  | _ => 0

abbrev bufTy : (tb : Table) → Fin (tcTables nBuf tb) → BufTy
  | .hbm, ⟨0, _⟩ => ⟨S1024x512x1x1, .f32⟩
  | .hbm, ⟨1, _⟩ => ⟨S512x512x4x4, .f32⟩
  | .hbm, ⟨2, _⟩ => ⟨S512, .f32⟩
  | .hbm, ⟨3, _⟩ => ⟨S512x512x3x3, .f32⟩
  | .hbm, ⟨4, _⟩ => ⟨S512, .f32⟩
  | .hbm, ⟨5, _⟩ => ⟨S3x512x1x1, .f32⟩
  | .hbm, ⟨6, _⟩ => ⟨S3, .f32⟩
  | .hbm, ⟨7, _⟩ => ⟨S512x512x4x4, .f32⟩
  | .hbm, ⟨8, _⟩ => ⟨S_, .f32⟩
  | .hbm, ⟨9, _⟩ => ⟨S512x512x4x4, .f32⟩
  | .hbm, ⟨10, _⟩ => ⟨S512x512x4x4, .f32⟩
  | .hbm, ⟨11, _⟩ => ⟨S512x512x16, .f32⟩
  | .hbm, ⟨12, _⟩ => ⟨S512x16x512, .f32⟩
  | .hbm, ⟨13, _⟩ => ⟨S512x8192, .f32⟩
  | .hbm, ⟨14, _⟩ => ⟨S512x8192, .bf16⟩
  | .hbm, ⟨15, _⟩ => ⟨S1x512, .f32⟩
  | .hbm, ⟨16, _⟩ => ⟨S16x512, .f32⟩
  | .hbm, ⟨17, _⟩ => ⟨S8192, .f32⟩
  | .hbm, ⟨18, _⟩ => ⟨S1x8192, .f32⟩
  | .hbm, ⟨19, _⟩ => ⟨S_, .f32⟩
  | .hbm, ⟨20, _⟩ => ⟨S512x512x3x3, .f32⟩
  | .hbm, ⟨21, _⟩ => ⟨S512x512x3x3, .f32⟩
  | .hbm, ⟨22, _⟩ => ⟨S3x3x512x512, .f32⟩
  | .hbm, ⟨23, _⟩ => ⟨S9x512x512, .f32⟩
  | .hbm, ⟨24, _⟩ => ⟨S9x512x512, .bf16⟩
  | .hbm, ⟨25, _⟩ => ⟨S1x512, .f32⟩
  | .hbm, ⟨26, _⟩ => ⟨S3x512, .f32⟩
  | .hbm, ⟨27, _⟩ => ⟨S_, .f32⟩
  | .hbm, ⟨28, _⟩ => ⟨S3x512, .f32⟩
  | .hbm, ⟨29, _⟩ => ⟨S3x512, .f32⟩
  | .hbm, ⟨30, _⟩ => ⟨S512x3, .f32⟩
  | .hbm, ⟨31, _⟩ => ⟨S1x3, .f32⟩
  | .hbm, ⟨32, _⟩ => ⟨S1024x512, .f32⟩
  | .hbm, ⟨33, _⟩ => ⟨S1024x512, .bf16⟩
  | .hbm, ⟨34, _⟩ => ⟨S16x1024x3, .f32⟩
  | .hbm, ⟨35, _⟩ => ⟨S1024x3x16, .f32⟩
  | .hbm, ⟨36, _⟩ => ⟨S1024x3x4x4, .f32⟩
  | .local _ .vmem, ⟨0, _⟩ => ⟨S256x512, .bf16⟩
  | .local _ .vmem, ⟨1, _⟩ => ⟨S256x512, .bf16⟩
  | .local _ .vmem, ⟨2, _⟩ => ⟨S512x8192, .bf16⟩
  | .local _ .vmem, ⟨3, _⟩ => ⟨S1x8192, .f32⟩
  | .local _ .vmem, ⟨4, _⟩ => ⟨S9x512x512, .bf16⟩
  | .local _ .vmem, ⟨5, _⟩ => ⟨S1x512, .f32⟩
  | .local _ .vmem, ⟨6, _⟩ => ⟨S512x3, .f32⟩
  | .local _ .vmem, ⟨7, _⟩ => ⟨S1x3, .f32⟩
  | .local _ .vmem, ⟨8, _⟩ => ⟨S16x256x3, .f32⟩
  | .local _ .vmem, ⟨9, _⟩ => ⟨S16x256x3, .f32⟩
  | _, _ => ⟨S1024x512x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x256x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S512x512x4x4 : S_.BroadcastsInDim S512x512x4x4 (![] : Fin 0 → Fin S512x512x4x4.rank)
  shapeCasts_S512x512x4x4_S512x512x16 : S512x512x4x4.ShapeCasts S512x512x16
  transposes_S512x512x16_S512x16x512_1_2_0 : S512x512x16.Transposes [1, 2, 0] S512x16x512
  shapeCasts_S512x16x512_S512x8192 : S512x16x512.ShapeCasts S512x8192
  bitsLt_bf16_f32 : FTy.bits .bf16 < FTy.bits .f32
  shapeCasts_S512_S1x512 : S512.ShapeCasts S1x512
  bcast_S1x512_S16x512_0_1 : S1x512.BroadcastsInDim S16x512 (![0, 1] : Fin 2 → Fin S16x512.rank)
  shapeCasts_S16x512_S8192 : S16x512.ShapeCasts S8192
  shapeCasts_S8192_S1x8192 : S8192.ShapeCasts S1x8192
  bcast_S_S512x512x3x3 : S_.BroadcastsInDim S512x512x3x3 (![] : Fin 0 → Fin S512x512x3x3.rank)
  transposes_S512x512x3x3_S3x3x512x512_2_3_1_0 : S512x512x3x3.Transposes [2, 3, 1, 0] S3x3x512x512
  shapeCasts_S3x3x512x512_S9x512x512 : S3x3x512x512.ShapeCasts S9x512x512
  shapeCasts_S3x512x1x1_S3x512 : S3x512x1x1.ShapeCasts S3x512
  bcast_S_S3x512 : S_.BroadcastsInDim S3x512 (![] : Fin 0 → Fin S3x512.rank)
  transposes_S3x512_S512x3_1_0 : S3x512.Transposes [1, 0] S512x3
  shapeCasts_S3_S1x3 : S3.ShapeCasts S1x3
  shapeCasts_S1024x512x1x1_S1024x512 : S1024x512x1x1.ShapeCasts S1024x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  slices_S256x8192_o0_0_S256x512 : S256x8192.Slices ![0, 0] S256x512
  reduces_S256x512_S256 : S256x512.Reduces [1] S256
  shapeCasts_S256_S256x1 : S256.ShapeCasts S256x1
  broadcasts_S256x1_S256x512 : S256x1.Broadcasts S256x512
  slices_S256x8192_o0_512_S256x512 : S256x8192.Slices ![0, 512] S256x512
  slices_S256x8192_o0_1024_S256x512 : S256x8192.Slices ![0, 1024] S256x512
  slices_S256x8192_o0_1536_S256x512 : S256x8192.Slices ![0, 1536] S256x512
  slices_S256x8192_o0_2048_S256x512 : S256x8192.Slices ![0, 2048] S256x512
  slices_S256x8192_o0_2560_S256x512 : S256x8192.Slices ![0, 2560] S256x512
  slices_S256x8192_o0_3072_S256x512 : S256x8192.Slices ![0, 3072] S256x512
  slices_S256x8192_o0_3584_S256x512 : S256x8192.Slices ![0, 3584] S256x512
  slices_S256x8192_o0_4096_S256x512 : S256x8192.Slices ![0, 4096] S256x512
  slices_S256x8192_o0_4608_S256x512 : S256x8192.Slices ![0, 4608] S256x512
  slices_S256x8192_o0_5120_S256x512 : S256x8192.Slices ![0, 5120] S256x512
  slices_S256x8192_o0_5632_S256x512 : S256x8192.Slices ![0, 5632] S256x512
  slices_S256x8192_o0_6144_S256x512 : S256x8192.Slices ![0, 6144] S256x512
  slices_S256x8192_o0_6656_S256x512 : S256x8192.Slices ![0, 6656] S256x512
  slices_S256x8192_o0_7168_S256x512 : S256x8192.Slices ![0, 7168] S256x512
  slices_S256x8192_o0_7680_S256x512 : S256x8192.Slices ![0, 7680] S256x512
  inb_S9x512x512_S1x512x512_4_0_0 : ∀ a, (![4, 0, 0] : Fin 3 → Nat) a + S1x512x512.size a ≤ S9x512x512.size a
  h_S1x512x512 : 0 < S1x512x512.numel
  shapeCasts_S1x512x512_S512x512 : S1x512x512.ShapeCasts S512x512
  inb_S9x512x512_S1x512x512_5_0_0 : ∀ a, (![5, 0, 0] : Fin 3 → Nat) a + S1x512x512.size a ≤ S9x512x512.size a
  inb_S9x512x512_S1x512x512_7_0_0 : ∀ a, (![7, 0, 0] : Fin 3 → Nat) a + S1x512x512.size a ≤ S9x512x512.size a
  inb_S9x512x512_S1x512x512_8_0_0 : ∀ a, (![8, 0, 0] : Fin 3 → Nat) a + S1x512x512.size a ≤ S9x512x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x3_S512x3_0_0 : ∀ a, (![0, 0] : Fin 2 → Nat) a + S512x3.size a ≤ S512x3.size a
  h_S512x3 : 0 < S512x3.numel
  shapeCasts_S512x3_S512x3 : S512x3.ShapeCasts S512x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S256x3 : S1x3.Broadcasts S256x3
  inb_S16x256x3_S1x256x3_0_0_0 : ∀ a, (![0, 0, 0] : Fin 3 → Nat) a + S1x256x3.size a ≤ S16x256x3.size a
  h_S1x256x3 : 0 < S1x256x3.numel
  shapeCasts_S1x256x3_S256x3 : S1x256x3.ShapeCasts S256x3
  shapeCasts_S256x3_S1x256x3 : S256x3.ShapeCasts S1x256x3
  inb_S9x512x512_S1x512x512_3_0_0 : ∀ a, (![3, 0, 0] : Fin 3 → Nat) a + S1x512x512.size a ≤ S9x512x512.size a
  inb_S9x512x512_S1x512x512_6_0_0 : ∀ a, (![6, 0, 0] : Fin 3 → Nat) a + S1x512x512.size a ≤ S9x512x512.size a
  inb_S16x256x3_S1x256x3_1_0_0 : ∀ a, (![1, 0, 0] : Fin 3 → Nat) a + S1x256x3.size a ≤ S16x256x3.size a
  inb_S16x256x3_S1x256x3_2_0_0 : ∀ a, (![2, 0, 0] : Fin 3 → Nat) a + S1x256x3.size a ≤ S16x256x3.size a
  inb_S16x256x3_S1x256x3_3_0_0 : ∀ a, (![3, 0, 0] : Fin 3 → Nat) a + S1x256x3.size a ≤ S16x256x3.size a
  inb_S9x512x512_S1x512x512_1_0_0 : ∀ a, (![1, 0, 0] : Fin 3 → Nat) a + S1x512x512.size a ≤ S9x512x512.size a
  inb_S9x512x512_S1x512x512_2_0_0 : ∀ a, (![2, 0, 0] : Fin 3 → Nat) a + S1x512x512.size a ≤ S9x512x512.size a
  inb_S16x256x3_S1x256x3_4_0_0 : ∀ a, (![4, 0, 0] : Fin 3 → Nat) a + S1x256x3.size a ≤ S16x256x3.size a
  inb_S9x512x512_S1x512x512_0_0_0 : ∀ a, (![0, 0, 0] : Fin 3 → Nat) a + S1x512x512.size a ≤ S9x512x512.size a
  inb_S16x256x3_S1x256x3_5_0_0 : ∀ a, (![5, 0, 0] : Fin 3 → Nat) a + S1x256x3.size a ≤ S16x256x3.size a
  inb_S16x256x3_S1x256x3_6_0_0 : ∀ a, (![6, 0, 0] : Fin 3 → Nat) a + S1x256x3.size a ≤ S16x256x3.size a
  inb_S16x256x3_S1x256x3_7_0_0 : ∀ a, (![7, 0, 0] : Fin 3 → Nat) a + S1x256x3.size a ≤ S16x256x3.size a
  inb_S16x256x3_S1x256x3_8_0_0 : ∀ a, (![8, 0, 0] : Fin 3 → Nat) a + S1x256x3.size a ≤ S16x256x3.size a
  inb_S16x256x3_S1x256x3_9_0_0 : ∀ a, (![9, 0, 0] : Fin 3 → Nat) a + S1x256x3.size a ≤ S16x256x3.size a
  inb_S16x256x3_S1x256x3_10_0_0 : ∀ a, (![10, 0, 0] : Fin 3 → Nat) a + S1x256x3.size a ≤ S16x256x3.size a
  inb_S16x256x3_S1x256x3_11_0_0 : ∀ a, (![11, 0, 0] : Fin 3 → Nat) a + S1x256x3.size a ≤ S16x256x3.size a
  inb_S16x256x3_S1x256x3_12_0_0 : ∀ a, (![12, 0, 0] : Fin 3 → Nat) a + S1x256x3.size a ≤ S16x256x3.size a
  inb_S16x256x3_S1x256x3_13_0_0 : ∀ a, (![13, 0, 0] : Fin 3 → Nat) a + S1x256x3.size a ≤ S16x256x3.size a
  inb_S16x256x3_S1x256x3_14_0_0 : ∀ a, (![14, 0, 0] : Fin 3 → Nat) a + S1x256x3.size a ≤ S16x256x3.size a
  inb_S16x256x3_S1x256x3_15_0_0 : ∀ a, (![15, 0, 0] : Fin 3 → Nat) a + S1x256x3.size a ≤ S16x256x3.size a
  transposes_S16x1024x3_S1024x3x16_1_2_0 : S16x1024x3.Transposes [1, 2, 0] S1024x3x16
  shapeCasts_S1024x3x16_S1024x3x4x4 : S1024x3x16.ShapeCasts S1024x3x4x4
  dot_S256x512_S512x8192_S256x8192_1_0_0_1_n_n_wf : DotDims.WF S256x512 S512x8192 S256x8192 [1] [0] [0] [1] [] []
  dot_S256x512_S512x512_S256x512_1_0_0_1_n_n_wf : DotDims.WF S256x512 S512x512 S256x512 [1] [0] [0] [1] [] []
  dot_S256x512_S512x3_S256x3_1_0_0_1_n_n_wf : DotDims.WF S256x512 S512x3 S256x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .bf16 = 32 ∨ (Rect.block (s := S1024x512) S256x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x8192.size a ≤ S512x8192.size a
  hwx0_1 : ∀ i : grid0.Coords, EltTy.bits .bf16 = 32 ∨ (Rect.block (s := S512x8192) S512x8192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x512x512.size a ≤ S9x512x512.size a
  hwx0_3 : ∀ i : grid0.Coords, EltTy.bits .bf16 = 32 ∨ (Rect.block (s := S9x512x512) S9x512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x3.size a ≤ S512x3.size a
  hwx0_5 : ∀ i : grid0.Coords, EltTy.bits .f32 = 32 ∨ (Rect.block (s := S512x3) S512x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3.size a ≤ S1x3.size a
  hwx0_6 : ∀ i : grid0.Coords, EltTy.bits .f32 = 32 ∨ (Rect.block (s := S1x3) S1x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x256x3.size a ≤ S16x1024x3.size a
  hwx0_7 : ∀ i : grid0.Coords, EltTy.bits .f32 = 32 ∨ (Rect.block (s := S16x1024x3) S16x256x3.size (cc0_transform_7 i) (hinb0_7 i)).WholeWords (EltTy.packing .f32)

variable [Facts₀]

def dot_S256x512_S512x8192_S256x8192_1_0_0_1_n_n : DotDims S256x512 S512x8192 S256x8192 where
  lhsContracting := [1]
  rhsContracting := [0]
  lhsNonContracting := [0]
  rhsNonContracting := [1]
  lhsBatch := []
  rhsBatch := []
  wf := dot_S256x512_S512x8192_S256x8192_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x3_S256x3_1_0_0_1_n_n : DotDims S256x512 S512x3 S256x3 where
  lhsContracting := [1]
  rhsContracting := [0]
  lhsNonContracting := [0]
  rhsNonContracting := [1]
  lhsBatch := []
  rhsBatch := []
  wf := dot_S256x512_S512x3_S256x3_1_0_0_1_n_n_wf

abbrev win0_0 : Pipeline.Window sig grid0 :=
  Pipeline.Window.ofSpec (Memref.whole main_v23) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S9x512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S512x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S16x256x3.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x512x1x1 : Shape := ⟨4, ![1024, 512, 1, 1]⟩
abbrev S512x512x4x4 : Shape := ⟨4, ![512, 512, 4, 4]⟩
abbrev S512 : Shape := ⟨1, ![512]⟩
abbrev S512x512x3x3 : Shape := ⟨4, ![512, 512, 3, 3]⟩
abbrev S3x512x1x1 : Shape := ⟨4, ![3, 512, 1, 1]⟩
abbrev S3 : Shape := ⟨1, ![3]⟩
abbrev S9x16x16 : Shape := ⟨3, ![9, 16, 16]⟩
abbrev S_ : Shape := ⟨0, ![]⟩
abbrev S512x512x16 : Shape := ⟨3, ![512, 512, 16]⟩
abbrev S512x8192 : Shape := ⟨2, ![512, 8192]⟩
abbrev S512x16 : Shape := ⟨2, ![512, 16]⟩
abbrev S8192 : Shape := ⟨1, ![8192]⟩
abbrev S1x8192 : Shape := ⟨2, ![1, 8192]⟩
abbrev S512x512x9 : Shape := ⟨3, ![512, 512, 9]⟩
abbrev S9x512x512 : Shape := ⟨3, ![9, 512, 512]⟩
abbrev S512x1 : Shape := ⟨2, ![512, 1]⟩
abbrev S3x512 : Shape := ⟨2, ![3, 512]⟩
abbrev S3x1 : Shape := ⟨2, ![3, 1]⟩
abbrev S1024x1x512 : Shape := ⟨3, ![1024, 1, 512]⟩
abbrev S1024x1x8192 : Shape := ⟨3, ![1024, 1, 8192]⟩
abbrev S1024x512x16 : Shape := ⟨3, ![1024, 512, 16]⟩
abbrev S1024x3x16 : Shape := ⟨3, ![1024, 3, 16]⟩
abbrev S1024x3x4x4 : Shape := ⟨4, ![1024, 3, 4, 4]⟩
abbrev S1x1x512 : Shape := ⟨3, ![1, 1, 512]⟩
abbrev S1x1x8192 : Shape := ⟨3, ![1, 1, 8192]⟩
abbrev S1x512 : Shape := ⟨2, ![1, 512]⟩
abbrev S1x512x16 : Shape := ⟨3, ![1, 512, 16]⟩
abbrev S1x3x16 : Shape := ⟨3, ![1, 3, 16]⟩
abbrev S16 : Shape := ⟨1, ![16]⟩
abbrev S1x16 : Shape := ⟨2, ![1, 16]⟩
abbrev S1x16x16 : Shape := ⟨3, ![1, 16, 16]⟩
abbrev S16x16 : Shape := ⟨2, ![16, 16]⟩
abbrev S1x512x512 : Shape := ⟨3, ![1, 512, 512]⟩
abbrev S512x512 : Shape := ⟨2, ![512, 512]⟩
abbrev S3x16 : Shape := ⟨2, ![3, 16]⟩

abbrev nBuf : Space → Nat
  | .hbm => 34
  | .vmem => 15
  | .smem => 0
  | _ => 0

abbrev bufTy : (tb : Table) → Fin (tcTables nBuf tb) → BufTy
  | .hbm, ⟨0, _⟩ => ⟨S1024x512x1x1, .f32⟩
  | .hbm, ⟨1, _⟩ => ⟨S512x512x4x4, .f32⟩
  | .hbm, ⟨2, _⟩ => ⟨S512, .f32⟩
  | .hbm, ⟨3, _⟩ => ⟨S512x512x3x3, .f32⟩
  | .hbm, ⟨4, _⟩ => ⟨S512, .f32⟩
  | .hbm, ⟨5, _⟩ => ⟨S3x512x1x1, .f32⟩
  | .hbm, ⟨6, _⟩ => ⟨S3, .f32⟩
  | .hbm, ⟨7, _⟩ => ⟨S9x16x16, .f32⟩
  | .hbm, ⟨8, _⟩ => ⟨S512x512x4x4, .f32⟩
  | .hbm, ⟨9, _⟩ => ⟨S_, .f32⟩
  | .hbm, ⟨10, _⟩ => ⟨S512x512x4x4, .f32⟩
  | .hbm, ⟨11, _⟩ => ⟨S512x512x4x4, .f32⟩
  | .hbm, ⟨12, _⟩ => ⟨S512x512x16, .f32⟩
  | .hbm, ⟨13, _⟩ => ⟨S512x512x16, .f32⟩
  | .hbm, ⟨14, _⟩ => ⟨S512x8192, .f32⟩
  | .hbm, ⟨15, _⟩ => ⟨S512x16, .f32⟩
  | .hbm, ⟨16, _⟩ => ⟨S8192, .f32⟩
  | .hbm, ⟨17, _⟩ => ⟨S1x8192, .f32⟩
  | .hbm, ⟨18, _⟩ => ⟨S_, .f32⟩
  | .hbm, ⟨19, _⟩ => ⟨S512x512x3x3, .f32⟩
  | .hbm, ⟨20, _⟩ => ⟨S512x512x3x3, .f32⟩
  | .hbm, ⟨21, _⟩ => ⟨S512x512x9, .f32⟩
  | .hbm, ⟨22, _⟩ => ⟨S9x512x512, .f32⟩
  | .hbm, ⟨23, _⟩ => ⟨S512x1, .f32⟩
  | .hbm, ⟨24, _⟩ => ⟨S3x512, .f32⟩
  | .hbm, ⟨25, _⟩ => ⟨S_, .f32⟩
  | .hbm, ⟨26, _⟩ => ⟨S3x512, .f32⟩
  | .hbm, ⟨27, _⟩ => ⟨S3x512, .f32⟩
  | .hbm, ⟨28, _⟩ => ⟨S3x1, .f32⟩
  | .hbm, ⟨29, _⟩ => ⟨S1024x1x512, .f32⟩
  | .hbm, ⟨30, _⟩ => ⟨S1024x1x8192, .f32⟩
  | .hbm, ⟨31, _⟩ => ⟨S1024x512x16, .f32⟩
  | .hbm, ⟨32, _⟩ => ⟨S1024x3x16, .f32⟩
  | .hbm, ⟨33, _⟩ => ⟨S1024x3x4x4, .f32⟩
  | .local _ .vmem, ⟨0, _⟩ => ⟨S1x1x512, .f32⟩
  | .local _ .vmem, ⟨1, _⟩ => ⟨S1x1x512, .f32⟩
  | .local _ .vmem, ⟨2, _⟩ => ⟨S512x8192, .f32⟩
  | .local _ .vmem, ⟨3, _⟩ => ⟨S1x8192, .f32⟩
  | .local _ .vmem, ⟨4, _⟩ => ⟨S1x1x8192, .f32⟩
  | .local _ .vmem, ⟨5, _⟩ => ⟨S1x1x8192, .f32⟩
  | .local _ .vmem, ⟨6, _⟩ => ⟨S1x512x16, .f32⟩
  | .local _ .vmem, ⟨7, _⟩ => ⟨S1x512x16, .f32⟩
  | .local _ .vmem, ⟨8, _⟩ => ⟨S9x512x512, .f32⟩
  | .local _ .vmem, ⟨9, _⟩ => ⟨S512x1, .f32⟩
  | .local _ .vmem, ⟨10, _⟩ => ⟨S9x16x16, .f32⟩
  | .local _ .vmem, ⟨11, _⟩ => ⟨S3x512, .f32⟩
  | .local _ .vmem, ⟨12, _⟩ => ⟨S3x1, .f32⟩
  | .local _ .vmem, ⟨13, _⟩ => ⟨S1x3x16, .f32⟩
  | .local _ .vmem, ⟨14, _⟩ => ⟨S1x3x16, .f32⟩
  | _, _ => ⟨S1024x512x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_cst_1 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst_2 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_v0 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![1024], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1024], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S9x512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S9x16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x3x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S512x512x4x4 : S_.BroadcastsInDim S512x512x4x4 (![] : Fin 0 → Fin S512x512x4x4.rank)
  shapeCasts_S512x512x4x4_S512x512x16 : S512x512x4x4.ShapeCasts S512x512x16
  transposes_S512x512x16_S512x512x16_1_0_2 : S512x512x16.Transposes [1, 0, 2] S512x512x16
  shapeCasts_S512x512x16_S512x8192 : S512x512x16.ShapeCasts S512x8192
  bcast_S512_S512x16_0 : S512.BroadcastsInDim S512x16 (![0] : Fin 1 → Fin S512x16.rank)
  shapeCasts_S512x16_S8192 : S512x16.ShapeCasts S8192
  shapeCasts_S8192_S1x8192 : S8192.ShapeCasts S1x8192
  bcast_S_S512x512x3x3 : S_.BroadcastsInDim S512x512x3x3 (![] : Fin 0 → Fin S512x512x3x3.rank)
  shapeCasts_S512x512x3x3_S512x512x9 : S512x512x3x3.ShapeCasts S512x512x9
  transposes_S512x512x9_S9x512x512_2_0_1 : S512x512x9.Transposes [2, 0, 1] S9x512x512
  shapeCasts_S512_S512x1 : S512.ShapeCasts S512x1
  shapeCasts_S3x512x1x1_S3x512 : S3x512x1x1.ShapeCasts S3x512
  bcast_S_S3x512 : S_.BroadcastsInDim S3x512 (![] : Fin 0 → Fin S3x512.rank)
  shapeCasts_S3_S3x1 : S3.ShapeCasts S3x1
  shapeCasts_S1024x512x1x1_S1024x1x512 : S1024x512x1x1.ShapeCasts S1024x1x512
  shapeCasts_S1024x1x8192_S1024x512x16 : S1024x1x8192.ShapeCasts S1024x512x16
  shapeCasts_S1024x3x16_S1024x3x4x4 : S1024x3x16.ShapeCasts S1024x3x4x4
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  inb_S1x512x16_S1x512x16_0_0_0 : ∀ a, (![0, 0, 0] : Fin 3 → Nat) a + S1x512x16.size a ≤ S1x512x16.size a
  h_S1x512x16 : 0 < S1x512x16.numel
  shapeCasts_S1x512x16_S512x16 : S1x512x16.ShapeCasts S512x16
  reduces_S512x16_S16 : S512x16.Reduces [0] S16
  shapeCasts_S16_S1x16 : S16.ShapeCasts S1x16
  broadcasts_S1x16_S512x16 : S1x16.Broadcasts S512x16
  inb_S9x16x16_S1x16x16_0_0_0 : ∀ a, (![0, 0, 0] : Fin 3 → Nat) a + S1x16x16.size a ≤ S9x16x16.size a
  h_S1x16x16 : 0 < S1x16x16.numel
  shapeCasts_S1x16x16_S16x16 : S1x16x16.ShapeCasts S16x16
  inb_S9x512x512_S1x512x512_0_0_0 : ∀ a, (![0, 0, 0] : Fin 3 → Nat) a + S1x512x512.size a ≤ S9x512x512.size a
  h_S1x512x512 : 0 < S1x512x512.numel
  shapeCasts_S1x512x512_S512x512 : S1x512x512.ShapeCasts S512x512
  inb_S9x16x16_S1x16x16_1_0_0 : ∀ a, (![1, 0, 0] : Fin 3 → Nat) a + S1x16x16.size a ≤ S9x16x16.size a
  inb_S9x512x512_S1x512x512_1_0_0 : ∀ a, (![1, 0, 0] : Fin 3 → Nat) a + S1x512x512.size a ≤ S9x512x512.size a
  inb_S9x16x16_S1x16x16_2_0_0 : ∀ a, (![2, 0, 0] : Fin 3 → Nat) a + S1x16x16.size a ≤ S9x16x16.size a
  inb_S9x512x512_S1x512x512_2_0_0 : ∀ a, (![2, 0, 0] : Fin 3 → Nat) a + S1x512x512.size a ≤ S9x512x512.size a
  inb_S9x16x16_S1x16x16_3_0_0 : ∀ a, (![3, 0, 0] : Fin 3 → Nat) a + S1x16x16.size a ≤ S9x16x16.size a
  inb_S9x512x512_S1x512x512_3_0_0 : ∀ a, (![3, 0, 0] : Fin 3 → Nat) a + S1x512x512.size a ≤ S9x512x512.size a
  inb_S9x16x16_S1x16x16_4_0_0 : ∀ a, (![4, 0, 0] : Fin 3 → Nat) a + S1x16x16.size a ≤ S9x16x16.size a
  inb_S9x512x512_S1x512x512_4_0_0 : ∀ a, (![4, 0, 0] : Fin 3 → Nat) a + S1x512x512.size a ≤ S9x512x512.size a
  inb_S9x16x16_S1x16x16_5_0_0 : ∀ a, (![5, 0, 0] : Fin 3 → Nat) a + S1x16x16.size a ≤ S9x16x16.size a
  inb_S9x512x512_S1x512x512_5_0_0 : ∀ a, (![5, 0, 0] : Fin 3 → Nat) a + S1x512x512.size a ≤ S9x512x512.size a
  inb_S9x16x16_S1x16x16_6_0_0 : ∀ a, (![6, 0, 0] : Fin 3 → Nat) a + S1x16x16.size a ≤ S9x16x16.size a
  inb_S9x512x512_S1x512x512_6_0_0 : ∀ a, (![6, 0, 0] : Fin 3 → Nat) a + S1x512x512.size a ≤ S9x512x512.size a
  inb_S9x16x16_S1x16x16_7_0_0 : ∀ a, (![7, 0, 0] : Fin 3 → Nat) a + S1x16x16.size a ≤ S9x16x16.size a
  inb_S9x512x512_S1x512x512_7_0_0 : ∀ a, (![7, 0, 0] : Fin 3 → Nat) a + S1x512x512.size a ≤ S9x512x512.size a
  inb_S9x16x16_S1x16x16_8_0_0 : ∀ a, (![8, 0, 0] : Fin 3 → Nat) a + S1x16x16.size a ≤ S9x16x16.size a
  inb_S9x512x512_S1x512x512_8_0_0 : ∀ a, (![8, 0, 0] : Fin 3 → Nat) a + S1x512x512.size a ≤ S9x512x512.size a
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x16 : S512x1.Broadcasts S512x16
  inb_S3x512_S3x512_0_0 : ∀ a, (![0, 0] : Fin 2 → Nat) a + S3x512.size a ≤ S3x512.size a
  h_S3x512 : 0 < S3x512.numel
  shapeCasts_S3x512_S3x512 : S3x512.ShapeCasts S3x512
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x16 : S3x1.Broadcasts S3x16
  inb_S1x3x16_S1x3x16_0_0_0 : ∀ a, (![0, 0, 0] : Fin 3 → Nat) a + S1x3x16.size a ≤ S1x3x16.size a
  h_S1x3x16 : 0 < S1x3x16.numel
  shapeCasts_S1x3x16_S3x16 : S1x3x16.ShapeCasts S3x16
  shapeCasts_S3x16_S1x3x16 : S3x16.ShapeCasts S1x3x16
  dot_S1x512_S512x8192_S1x8192_1_0_0_1_n_n_wf : DotDims.WF S1x512 S512x8192 S1x8192 [1] [0] [0] [1] [] []
  dot_S512x16_S16x16_S512x16_1_0_0_1_n_n_wf : DotDims.WF S512x16 S16x16 S512x16 [1] [0] [0] [1] [] []
  dot_S512x512_S512x16_S512x16_1_0_0_1_n_n_wf : DotDims.WF S512x512 S512x16 S512x16 [1] [0] [0] [1] [] []
  dot_S3x512_S512x16_S3x16_1_0_0_1_n_n_wf : DotDims.WF S3x512 S512x16 S3x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S1024x1x512.size a
  hwx0_0 : ∀ i : grid0.Coords, EltTy.bits .f32 = 32 ∨ (Rect.block (s := S1024x1x512) S1x1x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x8192.size a ≤ S512x8192.size a
  hwx0_1 : ∀ i : grid0.Coords, EltTy.bits .f32 = 32 ∨ (Rect.block (s := S512x8192) S512x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S1024x1x8192.size a
  hwx0_3 : ∀ i : grid0.Coords, EltTy.bits .f32 = 32 ∨ (Rect.block (s := S1024x1x8192) S1x1x8192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x16.size a ≤ S1024x512x16.size a
  hwx1_0 : ∀ i : grid1.Coords, EltTy.bits .f32 = 32 ∨ (Rect.block (s := S1024x512x16) S1x512x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S9x512x512.size a ≤ S9x512x512.size a
  hwx1_1 : ∀ i : grid1.Coords, EltTy.bits .f32 = 32 ∨ (Rect.block (s := S9x512x512) S9x512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S512x1.size a
  hwx1_2 : ∀ i : grid1.Coords, EltTy.bits .f32 = 32 ∨ (Rect.block (s := S512x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x16x16.size a ≤ S9x16x16.size a
  hwx1_3 : ∀ i : grid1.Coords, EltTy.bits .f32 = 32 ∨ (Rect.block (s := S9x16x16) S9x16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x512.size a ≤ S3x512.size a
  hwx1_4 : ∀ i : grid1.Coords, EltTy.bits .f32 = 32 ∨ (Rect.block (s := S3x512) S3x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x1.size a ≤ S3x1.size a
  hwx1_5 : ∀ i : grid1.Coords, EltTy.bits .f32 = 32 ∨ (Rect.block (s := S3x1) S3x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x3x16.size a ≤ S1024x3x16.size a
  hwx1_6 : ∀ i : grid1.Coords, EltTy.bits .f32 = 32 ∨ (Rect.block (s := S1024x3x16) S1x3x16.size (cc1_transform_6 i) (hinb1_6 i)).WholeWords (EltTy.packing .f32)

variable [Facts₀]

def dot_S1x512_S512x8192_S1x8192_1_0_0_1_n_n : DotDims S1x512 S512x8192 S1x8192 where
  lhsContracting := [1]
  rhsContracting := [0]
  lhsNonContracting := [0]
  rhsNonContracting := [1]
  lhsBatch := []
  rhsBatch := []
  wf := dot_S1x512_S512x8192_S1x8192_1_0_0_1_n_n_wf
def dot_S512x16_S16x16_S512x16_1_0_0_1_n_n : DotDims S512x16 S16x16 S512x16 where
  lhsContracting := [1]
  rhsContracting := [0]
  lhsNonContracting := [0]
  rhsNonContracting := [1]
  lhsBatch := []
  rhsBatch := []
  wf := dot_S512x16_S16x16_S512x16_1_0_0_1_n_n_wf
def dot_S512x512_S512x16_S512x16_1_0_0_1_n_n : DotDims S512x512 S512x16 S512x16 where
  lhsContracting := [1]
  rhsContracting := [0]
  lhsNonContracting := [0]
  rhsNonContracting := [1]
  lhsBatch := []
  rhsBatch := []
  wf := dot_S512x512_S512x16_S512x16_1_0_0_1_n_n_wf
def dot_S3x512_S512x16_S3x16_1_0_0_1_n_n : DotDims S3x512 S512x16 S3x16 where
  lhsContracting := [1]
  rhsContracting := [0]
  lhsNonContracting := [0]
  rhsNonContracting := [1]
  lhsBatch := []
  rhsBatch := []
  wf := dot_S3x512_S512x16_S3x16_1_0_0_1_n_n_wf

abbrev win0_0 : Pipeline.Window sig grid0 :=
  Pipeline.Window.ofSpec (Memref.whole main_call0_v18) S1x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S512x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v8) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v19) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v20) S1x512x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v12) S9x512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v13) S512x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_cst) S9x16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v16) S3x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v17) S3x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v21) S1x3x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== Proof.KBodyDefs.lean ====
/-
  The body of the fused generator kernel as a composition of a few named array functions.

  One block holds 256 latent rows. Stage one is a single product of the block with the position-major 4×4 weight
  matrix, plus bias, through the leaky rectifier max(v, 0.2·v): a 256 × 8192 matrix whose column p·512 + o is channel
  o of pixel p. The activation of pixel q is the q-th slice of 512 columns, normalised along its 512 channels
  (v · rsqrt(mean v² + ε)). Output pixel p of the 3×3 convolution adds, over the taps that stay inside the 4×4 image, the
  product of a neighbour's activation with that tap's 512 × 512 weight matrix, in the order of the taps; then bias,
  rectifier, normalisation, the 512 × 3 colour matrix and the colour bias. The sixteen pixel results tile the block of
  the output.
-/
import proofs.«156209_g2000106920163945_pallasbulk_552_2_alg».proof.Proof.Gen.KernelIdeal.Frame

set_option maxRecDepth 16384

noncomputable section

namespace Cert.KernelIdeal.Body

open Idealize.ShloMosaic Idealize.ShloMosaic.TcCoe Cert.KernelIdeal Cert.KernelIdeal.Gen

variable {F : FTy → Type} [FloatOps F]

/-- Stage one: the block times the weight matrix, plus the bias row, through the leaky rectifier. -/
def stage1 (x0 : Vec F S256x512 .bf16) (x1 : Vec F S512x8192 .bf16) (x2 : Vec F S1x8192 .f32) : FVec F S256x8192 .f32 :=
  k0_pay2 (View.ld x0 r0_0) (View.ld x1 r0_1) (View.ld x2 r0_2)

/-- Normalisation along the 512 channels of each row: v · rsqrt((∑ v²) / 512 + ε). -/
def pnorm (v : FVec F S256x512 .f32) : FVec F S256x512 .f32 :=
  mulf v (broadcastTo S256x512 (rsqrt (addf (divf (shapeCast S256x1 (multiReduction .add [1] S256 (mulf v v) 0x00000000#32 reduces_S256x512_S256 (.inl rfl) rfl) shapeCasts_S256_S256x1) (broadcast S256x1 (Scalar.ofBits .f32 0x44000000#32))) (broadcast S256x1 (Scalar.ofBits .f32 0x322BCC77#32)))) broadcasts_S256x1_S256x512)

/-- The normalised activation of the pixel whose channels start at column `off`. -/
def actAt (off : Nat) (hs : S256x8192.Slices ![0, off] S256x512) (H : FVec F S256x8192 .f32) : FVec F S256x512 .bf16 :=
  truncf .bf16 (pnorm (extractStridedSlice S256x512 ![0, off] H hs)) bitsLt_bf16_f32

/-- Tap k's 512 × 512 weight matrix. -/
def wtap (k : Nat) (inb : ∀ a, (![k, 0, 0] : Fin 3 → Nat) a + S1x512x512.size a ≤ S9x512x512.size a) (x3 : Vec F S9x512x512 .bf16) : FVec F S512x512 .bf16 :=
  shapeCast S512x512 (View.ld x3 (Rect.unit (s := S9x512x512) ![k, 0, 0] S1x512x512.size inb)) shapeCasts_S1x512x512_S512x512

/-- One tap's product, from a zero accumulator. -/
def dotT (h : FVec F S256x512 .bf16) (w : FVec F S512x512 .bf16) : FVec F S256x512 .f32 :=
  matmul dot_S256x512_S512x512_S256x512_1_0_0_1_n_n none h w (constant S256x512 .f32 0x00000000#32)

/-- The convolution sum plus bias through the rectifier. -/
def convAct (d1 : FVec F S256x512 .f32) (ds : List (FVec F S256x512 .f32)) (x4 : Vec F S1x512 .f32) : FVec F S256x512 .f32 :=
  maximumf (addf (ds.foldl addf d1) (broadcastTo S256x512 (shapeCast S1x512 (View.ld x4 r0_7) shapeCasts_S1x512_S1x512) broadcasts_S1x512_S256x512))
    (mulf (broadcast S256x512 (Scalar.ofBits .f32 0x3E4CCCCD#32)) (addf (ds.foldl addf d1) (broadcastTo S256x512 (shapeCast S1x512 (View.ld x4 r0_7) shapeCasts_S1x512_S1x512) broadcasts_S1x512_S256x512)))

/-- The colour values of one pixel from its rectified convolution. -/
def toRgb (y : FVec F S256x512 .f32) (x5 : Vec F S512x3 .f32) (x6 : Vec F S1x3 .f32) : FVec F S1x256x3 .f32 :=
  shapeCast S1x256x3 (addf (matmul dot_S256x512_S512x3_S256x3_1_0_0_1_n_n none (pnorm y) (shapeCast S512x3 (View.ld x5 r0_8) shapeCasts_S512x3_S512x3) (constant S256x3 .f32 0x00000000#32)) (broadcastTo S256x3 (shapeCast S1x3 (View.ld x6 r0_9) shapeCasts_S1x3_S1x3) broadcasts_S1x3_S256x3)) shapeCasts_S256x3_S1x256x3

/-- One output pixel: the taps' products added in order, then bias, rectifier, normalisation and colours. -/
def pixOut (d1 : FVec F S256x512 .f32) (ds : List (FVec F S256x512 .f32)) (x4 : Vec F S1x512 .f32) (x5 : Vec F S512x3 .f32) (x6 : Vec F S1x3 .f32) : FVec F S1x256x3 .f32 :=
  toRgb (convAct d1 ds x4) x5 x6

/-- Output pixel 0 = (0, 0): 4 taps stay inside the image. -/
def piece0 (x0 : Vec F S256x512 .bf16) (x1 : Vec F S512x8192 .bf16) (x2 : Vec F S1x8192 .f32) (x3 : Vec F S9x512x512 .bf16) (x4 : Vec F S1x512 .f32) (x5 : Vec F S512x3 .f32) (x6 : Vec F S1x3 .f32) : FVec F S1x256x3 .f32 :=
  pixOut (dotT (actAt 0 slices_S256x8192_o0_0_S256x512 (stage1 x0 x1 x2)) (wtap 4 inb_S9x512x512_S1x512x512_4_0_0 x3))
    [(dotT (actAt 512 slices_S256x8192_o0_512_S256x512 (stage1 x0 x1 x2)) (wtap 5 inb_S9x512x512_S1x512x512_5_0_0 x3)),
     (dotT (actAt 2048 slices_S256x8192_o0_2048_S256x512 (stage1 x0 x1 x2)) (wtap 7 inb_S9x512x512_S1x512x512_7_0_0 x3)),
     (dotT (actAt 2560 slices_S256x8192_o0_2560_S256x512 (stage1 x0 x1 x2)) (wtap 8 inb_S9x512x512_S1x512x512_8_0_0 x3))] x4 x5 x6

/-- Output pixel 1 = (0, 1): 6 taps stay inside the image. -/
def piece1 (x0 : Vec F S256x512 .bf16) (x1 : Vec F S512x8192 .bf16) (x2 : Vec F S1x8192 .f32) (x3 : Vec F S9x512x512 .bf16) (x4 : Vec F S1x512 .f32) (x5 : Vec F S512x3 .f32) (x6 : Vec F S1x3 .f32) : FVec F S1x256x3 .f32 :=
  pixOut (dotT (actAt 0 slices_S256x8192_o0_0_S256x512 (stage1 x0 x1 x2)) (wtap 3 inb_S9x512x512_S1x512x512_3_0_0 x3))
    [(dotT (actAt 512 slices_S256x8192_o0_512_S256x512 (stage1 x0 x1 x2)) (wtap 4 inb_S9x512x512_S1x512x512_4_0_0 x3)),
     (dotT (actAt 1024 slices_S256x8192_o0_1024_S256x512 (stage1 x0 x1 x2)) (wtap 5 inb_S9x512x512_S1x512x512_5_0_0 x3)),
     (dotT (actAt 2048 slices_S256x8192_o0_2048_S256x512 (stage1 x0 x1 x2)) (wtap 6 inb_S9x512x512_S1x512x512_6_0_0 x3)),
     (dotT (actAt 2560 slices_S256x8192_o0_2560_S256x512 (stage1 x0 x1 x2)) (wtap 7 inb_S9x512x512_S1x512x512_7_0_0 x3)),
     (dotT (actAt 3072 slices_S256x8192_o0_3072_S256x512 (stage1 x0 x1 x2)) (wtap 8 inb_S9x512x512_S1x512x512_8_0_0 x3))] x4 x5 x6

/-- Output pixel 2 = (0, 2): 6 taps stay inside the image. -/
def piece2 (x0 : Vec F S256x512 .bf16) (x1 : Vec F S512x8192 .bf16) (x2 : Vec F S1x8192 .f32) (x3 : Vec F S9x512x512 .bf16) (x4 : Vec F S1x512 .f32) (x5 : Vec F S512x3 .f32) (x6 : Vec F S1x3 .f32) : FVec F S1x256x3 .f32 :=
  pixOut (dotT (actAt 512 slices_S256x8192_o0_512_S256x512 (stage1 x0 x1 x2)) (wtap 3 inb_S9x512x512_S1x512x512_3_0_0 x3))
    [(dotT (actAt 1024 slices_S256x8192_o0_1024_S256x512 (stage1 x0 x1 x2)) (wtap 4 inb_S9x512x512_S1x512x512_4_0_0 x3)),
     (dotT (actAt 1536 slices_S256x8192_o0_1536_S256x512 (stage1 x0 x1 x2)) (wtap 5 inb_S9x512x512_S1x512x512_5_0_0 x3)),
     (dotT (actAt 2560 slices_S256x8192_o0_2560_S256x512 (stage1 x0 x1 x2)) (wtap 6 inb_S9x512x512_S1x512x512_6_0_0 x3)),
     (dotT (actAt 3072 slices_S256x8192_o0_3072_S256x512 (stage1 x0 x1 x2)) (wtap 7 inb_S9x512x512_S1x512x512_7_0_0 x3)),
     (dotT (actAt 3584 slices_S256x8192_o0_3584_S256x512 (stage1 x0 x1 x2)) (wtap 8 inb_S9x512x512_S1x512x512_8_0_0 x3))] x4 x5 x6

/-- Output pixel 3 = (0, 3): 4 taps stay inside the image. -/
def piece3 (x0 : Vec F S256x512 .bf16) (x1 : Vec F S512x8192 .bf16) (x2 : Vec F S1x8192 .f32) (x3 : Vec F S9x512x512 .bf16) (x4 : Vec F S1x512 .f32) (x5 : Vec F S512x3 .f32) (x6 : Vec F S1x3 .f32) : FVec F S1x256x3 .f32 :=
  pixOut (dotT (actAt 1024 slices_S256x8192_o0_1024_S256x512 (stage1 x0 x1 x2)) (wtap 3 inb_S9x512x512_S1x512x512_3_0_0 x3))
    [(dotT (actAt 1536 slices_S256x8192_o0_1536_S256x512 (stage1 x0 x1 x2)) (wtap 4 inb_S9x512x512_S1x512x512_4_0_0 x3)),
     (dotT (actAt 3072 slices_S256x8192_o0_3072_S256x512 (stage1 x0 x1 x2)) (wtap 6 inb_S9x512x512_S1x512x512_6_0_0 x3)),
     (dotT (actAt 3584 slices_S256x8192_o0_3584_S256x512 (stage1 x0 x1 x2)) (wtap 7 inb_S9x512x512_S1x512x512_7_0_0 x3))] x4 x5 x6

/-- Output pixel 4 = (1, 0): 6 taps stay inside the image. -/
def piece4 (x0 : Vec F S256x512 .bf16) (x1 : Vec F S512x8192 .bf16) (x2 : Vec F S1x8192 .f32) (x3 : Vec F S9x512x512 .bf16) (x4 : Vec F S1x512 .f32) (x5 : Vec F S512x3 .f32) (x6 : Vec F S1x3 .f32) : FVec F S1x256x3 .f32 :=
  pixOut (dotT (actAt 0 slices_S256x8192_o0_0_S256x512 (stage1 x0 x1 x2)) (wtap 1 inb_S9x512x512_S1x512x512_1_0_0 x3))
    [(dotT (actAt 512 slices_S256x8192_o0_512_S256x512 (stage1 x0 x1 x2)) (wtap 2 inb_S9x512x512_S1x512x512_2_0_0 x3)),
     (dotT (actAt 2048 slices_S256x8192_o0_2048_S256x512 (stage1 x0 x1 x2)) (wtap 4 inb_S9x512x512_S1x512x512_4_0_0 x3)),
     (dotT (actAt 2560 slices_S256x8192_o0_2560_S256x512 (stage1 x0 x1 x2)) (wtap 5 inb_S9x512x512_S1x512x512_5_0_0 x3)),
     (dotT (actAt 4096 slices_S256x8192_o0_4096_S256x512 (stage1 x0 x1 x2)) (wtap 7 inb_S9x512x512_S1x512x512_7_0_0 x3)),
     (dotT (actAt 4608 slices_S256x8192_o0_4608_S256x512 (stage1 x0 x1 x2)) (wtap 8 inb_S9x512x512_S1x512x512_8_0_0 x3))] x4 x5 x6

/-- Output pixel 5 = (1, 1): 9 taps stay inside the image. -/
def piece5 (x0 : Vec F S256x512 .bf16) (x1 : Vec F S512x8192 .bf16) (x2 : Vec F S1x8192 .f32) (x3 : Vec F S9x512x512 .bf16) (x4 : Vec F S1x512 .f32) (x5 : Vec F S512x3 .f32) (x6 : Vec F S1x3 .f32) : FVec F S1x256x3 .f32 :=
  pixOut (dotT (actAt 0 slices_S256x8192_o0_0_S256x512 (stage1 x0 x1 x2)) (wtap 0 inb_S9x512x512_S1x512x512_0_0_0 x3))
    [(dotT (actAt 512 slices_S256x8192_o0_512_S256x512 (stage1 x0 x1 x2)) (wtap 1 inb_S9x512x512_S1x512x512_1_0_0 x3)),
     (dotT (actAt 1024 slices_S256x8192_o0_1024_S256x512 (stage1 x0 x1 x2)) (wtap 2 inb_S9x512x512_S1x512x512_2_0_0 x3)),
     (dotT (actAt 2048 slices_S256x8192_o0_2048_S256x512 (stage1 x0 x1 x2)) (wtap 3 inb_S9x512x512_S1x512x512_3_0_0 x3)),
     (dotT (actAt 2560 slices_S256x8192_o0_2560_S256x512 (stage1 x0 x1 x2)) (wtap 4 inb_S9x512x512_S1x512x512_4_0_0 x3)),
     (dotT (actAt 3072 slices_S256x8192_o0_3072_S256x512 (stage1 x0 x1 x2)) (wtap 5 inb_S9x512x512_S1x512x512_5_0_0 x3)),
     (dotT (actAt 4096 slices_S256x8192_o0_4096_S256x512 (stage1 x0 x1 x2)) (wtap 6 inb_S9x512x512_S1x512x512_6_0_0 x3)),
     (dotT (actAt 4608 slices_S256x8192_o0_4608_S256x512 (stage1 x0 x1 x2)) (wtap 7 inb_S9x512x512_S1x512x512_7_0_0 x3)),
     (dotT (actAt 5120 slices_S256x8192_o0_5120_S256x512 (stage1 x0 x1 x2)) (wtap 8 inb_S9x512x512_S1x512x512_8_0_0 x3))] x4 x5 x6

/-- Output pixel 6 = (1, 2): 9 taps stay inside the image. -/
def piece6 (x0 : Vec F S256x512 .bf16) (x1 : Vec F S512x8192 .bf16) (x2 : Vec F S1x8192 .f32) (x3 : Vec F S9x512x512 .bf16) (x4 : Vec F S1x512 .f32) (x5 : Vec F S512x3 .f32) (x6 : Vec F S1x3 .f32) : FVec F S1x256x3 .f32 :=
  pixOut (dotT (actAt 512 slices_S256x8192_o0_512_S256x512 (stage1 x0 x1 x2)) (wtap 0 inb_S9x512x512_S1x512x512_0_0_0 x3))
    [(dotT (actAt 1024 slices_S256x8192_o0_1024_S256x512 (stage1 x0 x1 x2)) (wtap 1 inb_S9x512x512_S1x512x512_1_0_0 x3)),
     (dotT (actAt 1536 slices_S256x8192_o0_1536_S256x512 (stage1 x0 x1 x2)) (wtap 2 inb_S9x512x512_S1x512x512_2_0_0 x3)),
     (dotT (actAt 2560 slices_S256x8192_o0_2560_S256x512 (stage1 x0 x1 x2)) (wtap 3 inb_S9x512x512_S1x512x512_3_0_0 x3)),
     (dotT (actAt 3072 slices_S256x8192_o0_3072_S256x512 (stage1 x0 x1 x2)) (wtap 4 inb_S9x512x512_S1x512x512_4_0_0 x3)),
     (dotT (actAt 3584 slices_S256x8192_o0_3584_S256x512 (stage1 x0 x1 x2)) (wtap 5 inb_S9x512x512_S1x512x512_5_0_0 x3)),
     (dotT (actAt 4608 slices_S256x8192_o0_4608_S256x512 (stage1 x0 x1 x2)) (wtap 6 inb_S9x512x512_S1x512x512_6_0_0 x3)),
     (dotT (actAt 5120 slices_S256x8192_o0_5120_S256x512 (stage1 x0 x1 x2)) (wtap 7 inb_S9x512x512_S1x512x512_7_0_0 x3)),
     (dotT (actAt 5632 slices_S256x8192_o0_5632_S256x512 (stage1 x0 x1 x2)) (wtap 8 inb_S9x512x512_S1x512x512_8_0_0 x3))] x4 x5 x6

/-- Output pixel 7 = (1, 3): 6 taps stay inside the image. -/
def piece7 (x0 : Vec F S256x512 .bf16) (x1 : Vec F S512x8192 .bf16) (x2 : Vec F S1x8192 .f32) (x3 : Vec F S9x512x512 .bf16) (x4 : Vec F S1x512 .f32) (x5 : Vec F S512x3 .f32) (x6 : Vec F S1x3 .f32) : FVec F S1x256x3 .f32 :=
  pixOut (dotT (actAt 1024 slices_S256x8192_o0_1024_S256x512 (stage1 x0 x1 x2)) (wtap 0 inb_S9x512x512_S1x512x512_0_0_0 x3))
    [(dotT (actAt 1536 slices_S256x8192_o0_1536_S256x512 (stage1 x0 x1 x2)) (wtap 1 inb_S9x512x512_S1x512x512_1_0_0 x3)),
     (dotT (actAt 3072 slices_S256x8192_o0_3072_S256x512 (stage1 x0 x1 x2)) (wtap 3 inb_S9x512x512_S1x512x512_3_0_0 x3)),
     (dotT (actAt 3584 slices_S256x8192_o0_3584_S256x512 (stage1 x0 x1 x2)) (wtap 4 inb_S9x512x512_S1x512x512_4_0_0 x3)),
     (dotT (actAt 5120 slices_S256x8192_o0_5120_S256x512 (stage1 x0 x1 x2)) (wtap 6 inb_S9x512x512_S1x512x512_6_0_0 x3)),
     (dotT (actAt 5632 slices_S256x8192_o0_5632_S256x512 (stage1 x0 x1 x2)) (wtap 7 inb_S9x512x512_S1x512x512_7_0_0 x3))] x4 x5 x6

/-- Output pixel 8 = (2, 0): 6 taps stay inside the image. -/
def piece8 (x0 : Vec F S256x512 .bf16) (x1 : Vec F S512x8192 .bf16) (x2 : Vec F S1x8192 .f32) (x3 : Vec F S9x512x512 .bf16) (x4 : Vec F S1x512 .f32) (x5 : Vec F S512x3 .f32) (x6 : Vec F S1x3 .f32) : FVec F S1x256x3 .f32 :=
  pixOut (dotT (actAt 2048 slices_S256x8192_o0_2048_S256x512 (stage1 x0 x1 x2)) (wtap 1 inb_S9x512x512_S1x512x512_1_0_0 x3))
    [(dotT (actAt 2560 slices_S256x8192_o0_2560_S256x512 (stage1 x0 x1 x2)) (wtap 2 inb_S9x512x512_S1x512x512_2_0_0 x3)),
     (dotT (actAt 4096 slices_S256x8192_o0_4096_S256x512 (stage1 x0 x1 x2)) (wtap 4 inb_S9x512x512_S1x512x512_4_0_0 x3)),
     (dotT (actAt 4608 slices_S256x8192_o0_4608_S256x512 (stage1 x0 x1 x2)) (wtap 5 inb_S9x512x512_S1x512x512_5_0_0 x3)),
     (dotT (actAt 6144 slices_S256x8192_o0_6144_S256x512 (stage1 x0 x1 x2)) (wtap 7 inb_S9x512x512_S1x512x512_7_0_0 x3)),
     (dotT (actAt 6656 slices_S256x8192_o0_6656_S256x512 (stage1 x0 x1 x2)) (wtap 8 inb_S9x512x512_S1x512x512_8_0_0 x3))] x4 x5 x6

/-- Output pixel 9 = (2, 1): 9 taps stay inside the image. -/
def piece9 (x0 : Vec F S256x512 .bf16) (x1 : Vec F S512x8192 .bf16) (x2 : Vec F S1x8192 .f32) (x3 : Vec F S9x512x512 .bf16) (x4 : Vec F S1x512 .f32) (x5 : Vec F S512x3 .f32) (x6 : Vec F S1x3 .f32) : FVec F S1x256x3 .f32 :=
  pixOut (dotT (actAt 2048 slices_S256x8192_o0_2048_S256x512 (stage1 x0 x1 x2)) (wtap 0 inb_S9x512x512_S1x512x512_0_0_0 x3))
    [(dotT (actAt 2560 slices_S256x8192_o0_2560_S256x512 (stage1 x0 x1 x2)) (wtap 1 inb_S9x512x512_S1x512x512_1_0_0 x3)),
     (dotT (actAt 3072 slices_S256x8192_o0_3072_S256x512 (stage1 x0 x1 x2)) (wtap 2 inb_S9x512x512_S1x512x512_2_0_0 x3)),
     (dotT (actAt 4096 slices_S256x8192_o0_4096_S256x512 (stage1 x0 x1 x2)) (wtap 3 inb_S9x512x512_S1x512x512_3_0_0 x3)),
     (dotT (actAt 4608 slices_S256x8192_o0_4608_S256x512 (stage1 x0 x1 x2)) (wtap 4 inb_S9x512x512_S1x512x512_4_0_0 x3)),
     (dotT (actAt 5120 slices_S256x8192_o0_5120_S256x512 (stage1 x0 x1 x2)) (wtap 5 inb_S9x512x512_S1x512x512_5_0_0 x3)),
     (dotT (actAt 6144 slices_S256x8192_o0_6144_S256x512 (stage1 x0 x1 x2)) (wtap 6 inb_S9x512x512_S1x512x512_6_0_0 x3)),
     (dotT (actAt 6656 slices_S256x8192_o0_6656_S256x512 (stage1 x0 x1 x2)) (wtap 7 inb_S9x512x512_S1x512x512_7_0_0 x3)),
     (dotT (actAt 7168 slices_S256x8192_o0_7168_S256x512 (stage1 x0 x1 x2)) (wtap 8 inb_S9x512x512_S1x512x512_8_0_0 x3))] x4 x5 x6

/-- Output pixel 10 = (2, 2): 9 taps stay inside the image. -/
def piece10 (x0 : Vec F S256x512 .bf16) (x1 : Vec F S512x8192 .bf16) (x2 : Vec F S1x8192 .f32) (x3 : Vec F S9x512x512 .bf16) (x4 : Vec F S1x512 .f32) (x5 : Vec F S512x3 .f32) (x6 : Vec F S1x3 .f32) : FVec F S1x256x3 .f32 :=
  pixOut (dotT (actAt 2560 slices_S256x8192_o0_2560_S256x512 (stage1 x0 x1 x2)) (wtap 0 inb_S9x512x512_S1x512x512_0_0_0 x3))
    [(dotT (actAt 3072 slices_S256x8192_o0_3072_S256x512 (stage1 x0 x1 x2)) (wtap 1 inb_S9x512x512_S1x512x512_1_0_0 x3)),
     (dotT (actAt 3584 slices_S256x8192_o0_3584_S256x512 (stage1 x0 x1 x2)) (wtap 2 inb_S9x512x512_S1x512x512_2_0_0 x3)),
     (dotT (actAt 4608 slices_S256x8192_o0_4608_S256x512 (stage1 x0 x1 x2)) (wtap 3 inb_S9x512x512_S1x512x512_3_0_0 x3)),
     (dotT (actAt 5120 slices_S256x8192_o0_5120_S256x512 (stage1 x0 x1 x2)) (wtap 4 inb_S9x512x512_S1x512x512_4_0_0 x3)),
     (dotT (actAt 5632 slices_S256x8192_o0_5632_S256x512 (stage1 x0 x1 x2)) (wtap 5 inb_S9x512x512_S1x512x512_5_0_0 x3)),
     (dotT (actAt 6656 slices_S256x8192_o0_6656_S256x512 (stage1 x0 x1 x2)) (wtap 6 inb_S9x512x512_S1x512x512_6_0_0 x3)),
     (dotT (actAt 7168 slices_S256x8192_o0_7168_S256x512 (stage1 x0 x1 x2)) (wtap 7 inb_S9x512x512_S1x512x512_7_0_0 x3)),
     (dotT (actAt 7680 slices_S256x8192_o0_7680_S256x512 (stage1 x0 x1 x2)) (wtap 8 inb_S9x512x512_S1x512x512_8_0_0 x3))] x4 x5 x6

/-- Output pixel 11 = (2, 3): 6 taps stay inside the image. -/
def piece11 (x0 : Vec F S256x512 .bf16) (x1 : Vec F S512x8192 .bf16) (x2 : Vec F S1x8192 .f32) (x3 : Vec F S9x512x512 .bf16) (x4 : Vec F S1x512 .f32) (x5 : Vec F S512x3 .f32) (x6 : Vec F S1x3 .f32) : FVec F S1x256x3 .f32 :=
  pixOut (dotT (actAt 3072 slices_S256x8192_o0_3072_S256x512 (stage1 x0 x1 x2)) (wtap 0 inb_S9x512x512_S1x512x512_0_0_0 x3))
    [(dotT (actAt 3584 slices_S256x8192_o0_3584_S256x512 (stage1 x0 x1 x2)) (wtap 1 inb_S9x512x512_S1x512x512_1_0_0 x3)),
     (dotT (actAt 5120 slices_S256x8192_o0_5120_S256x512 (stage1 x0 x1 x2)) (wtap 3 inb_S9x512x512_S1x512x512_3_0_0 x3)),
     (dotT (actAt 5632 slices_S256x8192_o0_5632_S256x512 (stage1 x0 x1 x2)) (wtap 4 inb_S9x512x512_S1x512x512_4_0_0 x3)),
     (dotT (actAt 7168 slices_S256x8192_o0_7168_S256x512 (stage1 x0 x1 x2)) (wtap 6 inb_S9x512x512_S1x512x512_6_0_0 x3)),
     (dotT (actAt 7680 slices_S256x8192_o0_7680_S256x512 (stage1 x0 x1 x2)) (wtap 7 inb_S9x512x512_S1x512x512_7_0_0 x3))] x4 x5 x6

/-- Output pixel 12 = (3, 0): 4 taps stay inside the image. -/
def piece12 (x0 : Vec F S256x512 .bf16) (x1 : Vec F S512x8192 .bf16) (x2 : Vec F S1x8192 .f32) (x3 : Vec F S9x512x512 .bf16) (x4 : Vec F S1x512 .f32) (x5 : Vec F S512x3 .f32) (x6 : Vec F S1x3 .f32) : FVec F S1x256x3 .f32 :=
  pixOut (dotT (actAt 4096 slices_S256x8192_o0_4096_S256x512 (stage1 x0 x1 x2)) (wtap 1 inb_S9x512x512_S1x512x512_1_0_0 x3))
    [(dotT (actAt 4608 slices_S256x8192_o0_4608_S256x512 (stage1 x0 x1 x2)) (wtap 2 inb_S9x512x512_S1x512x512_2_0_0 x3)),
     (dotT (actAt 6144 slices_S256x8192_o0_6144_S256x512 (stage1 x0 x1 x2)) (wtap 4 inb_S9x512x512_S1x512x512_4_0_0 x3)),
     (dotT (actAt 6656 slices_S256x8192_o0_6656_S256x512 (stage1 x0 x1 x2)) (wtap 5 inb_S9x512x512_S1x512x512_5_0_0 x3))] x4 x5 x6

/-- Output pixel 13 = (3, 1): 6 taps stay inside the image. -/
def piece13 (x0 : Vec F S256x512 .bf16) (x1 : Vec F S512x8192 .bf16) (x2 : Vec F S1x8192 .f32) (x3 : Vec F S9x512x512 .bf16) (x4 : Vec F S1x512 .f32) (x5 : Vec F S512x3 .f32) (x6 : Vec F S1x3 .f32) : FVec F S1x256x3 .f32 :=
  pixOut (dotT (actAt 4096 slices_S256x8192_o0_4096_S256x512 (stage1 x0 x1 x2)) (wtap 0 inb_S9x512x512_S1x512x512_0_0_0 x3))
    [(dotT (actAt 4608 slices_S256x8192_o0_4608_S256x512 (stage1 x0 x1 x2)) (wtap 1 inb_S9x512x512_S1x512x512_1_0_0 x3)),
     (dotT (actAt 5120 slices_S256x8192_o0_5120_S256x512 (stage1 x0 x1 x2)) (wtap 2 inb_S9x512x512_S1x512x512_2_0_0 x3)),
     (dotT (actAt 6144 slices_S256x8192_o0_6144_S256x512 (stage1 x0 x1 x2)) (wtap 3 inb_S9x512x512_S1x512x512_3_0_0 x3)),
     (dotT (actAt 6656 slices_S256x8192_o0_6656_S256x512 (stage1 x0 x1 x2)) (wtap 4 inb_S9x512x512_S1x512x512_4_0_0 x3)),
     (dotT (actAt 7168 slices_S256x8192_o0_7168_S256x512 (stage1 x0 x1 x2)) (wtap 5 inb_S9x512x512_S1x512x512_5_0_0 x3))] x4 x5 x6

/-- Output pixel 14 = (3, 2): 6 taps stay inside the image. -/
def piece14 (x0 : Vec F S256x512 .bf16) (x1 : Vec F S512x8192 .bf16) (x2 : Vec F S1x8192 .f32) (x3 : Vec F S9x512x512 .bf16) (x4 : Vec F S1x512 .f32) (x5 : Vec F S512x3 .f32) (x6 : Vec F S1x3 .f32) : FVec F S1x256x3 .f32 :=
  pixOut (dotT (actAt 4608 slices_S256x8192_o0_4608_S256x512 (stage1 x0 x1 x2)) (wtap 0 inb_S9x512x512_S1x512x512_0_0_0 x3))
    [(dotT (actAt 5120 slices_S256x8192_o0_5120_S256x512 (stage1 x0 x1 x2)) (wtap 1 inb_S9x512x512_S1x512x512_1_0_0 x3)),
     (dotT (actAt 5632 slices_S256x8192_o0_5632_S256x512 (stage1 x0 x1 x2)) (wtap 2 inb_S9x512x512_S1x512x512_2_0_0 x3)),
     (dotT (actAt 6656 slices_S256x8192_o0_6656_S256x512 (stage1 x0 x1 x2)) (wtap 3 inb_S9x512x512_S1x512x512_3_0_0 x3)),
     (dotT (actAt 7168 slices_S256x8192_o0_7168_S256x512 (stage1 x0 x1 x2)) (wtap 4 inb_S9x512x512_S1x512x512_4_0_0 x3)),
     (dotT (actAt 7680 slices_S256x8192_o0_7680_S256x512 (stage1 x0 x1 x2)) (wtap 5 inb_S9x512x512_S1x512x512_5_0_0 x3))] x4 x5 x6

/-- Output pixel 15 = (3, 3): 4 taps stay inside the image. -/
def piece15 (x0 : Vec F S256x512 .bf16) (x1 : Vec F S512x8192 .bf16) (x2 : Vec F S1x8192 .f32) (x3 : Vec F S9x512x512 .bf16) (x4 : Vec F S1x512 .f32) (x5 : Vec F S512x3 .f32) (x6 : Vec F S1x3 .f32) : FVec F S1x256x3 .f32 :=
  pixOut (dotT (actAt 5120 slices_S256x8192_o0_5120_S256x512 (stage1 x0 x1 x2)) (wtap 0 inb_S9x512x512_S1x512x512_0_0_0 x3))
    [(dotT (actAt 5632 slices_S256x8192_o0_5632_S256x512 (stage1 x0 x1 x2)) (wtap 1 inb_S9x512x512_S1x512x512_1_0_0 x3)),
     (dotT (actAt 7168 slices_S256x8192_o0_7168_S256x512 (stage1 x0 x1 x2)) (wtap 3 inb_S9x512x512_S1x512x512_3_0_0 x3)),
     (dotT (actAt 7680 slices_S256x8192_o0_7680_S256x512 (stage1 x0 x1 x2)) (wtap 4 inb_S9x512x512_S1x512x512_4_0_0 x3))] x4 x5 x6

end Cert.KernelIdeal.Body

end
-- ==== Proof.Spec.lean ====
/-
  The generator head as one function on the extended reals, row by row.

  For one latent row x (512 numbers) stage one gives, for pixel p of the 4 × 4 image and channel o,
  lk (∑ ci, x ci · w1 ci p o + b1 p o), where lk v = max v (0.2 · v). Each pixel's 512 channels are normalised:
  nrm v o = v o · rsqrt ((∑ o', v o'²) / 512 + ε). The 3 × 3 convolution with zero padding at output pixel p and channel
  co adds, over the nine taps t = 3·ki + kj, the term ∑ ci, nrm (h (nbr p t)) ci · w2 t ci co whenever the neighbour
  (p / 4 + ki − 1, p % 4 + kj − 1) lies inside the image, and nothing otherwise. Then bias, lk, normalisation over the 512
  channels, and the 512 → 3 colour map with its bias.
-/
import Idealize.ShloMosaic.Lib.ValueIdx
import Idealize.ShloMosaic.PureOps.Ideal.Laws

noncomputable section

open scoped BigOperators

namespace Cert.Spec

open Idealize.ShloMosaic Idealize.ShloMosaic.ValueIdx

/-- The rectifier's slope, the channel count and the normalisation's ε, as the programs' words denote them. -/
def c02 : EReal := (Scalar.ofBits .f32 0x3E4CCCCD#32 : Ideal .f32)
def c512 : EReal := (Scalar.ofBits .f32 0x44000000#32 : Ideal .f32)
def ceps : EReal := (Scalar.ofBits .f32 0x322BCC77#32 : Ideal .f32)

/-- The leaky rectifier max(v, 0.2·v). -/
def lk (v : EReal) : EReal := max v (c02 * v)

/-- Normalisation of a family of n numbers by the root of their mean square: v o · rsqrt ((∑ v²) / 512 + ε). -/
def nrm {n : Nat} (row : Fin n → EReal) (o : Fin n) : EReal :=
  row o * Ideal.rsqrt (Ideal.div (∑ o' : Fin n, row o' * row o') c512 + ceps)

/-- Tap t = 3·ki + kj of output pixel p = 4·i + j reads the neighbour (i + ki − 1, j + kj − 1) when it is inside the image. -/
def valid (p : Fin 16) (t : Fin 9) : Prop :=
  1 ≤ p.val / 4 + t.val / 3 ∧ p.val / 4 + t.val / 3 ≤ 4 ∧ 1 ≤ p.val % 4 + t.val % 3 ∧ p.val % 4 + t.val % 3 ≤ 4

instance (p : Fin 16) (t : Fin 9) : Decidable (valid p t) := by unfold valid; infer_instance

/-- That neighbour's pixel number (any pixel when the tap is not valid). -/
def nbr (p : Fin 16) (t : Fin 9) : Fin 16 :=
  ⟨((p.val / 4 + t.val / 3 - 1) * 4 + (p.val % 4 + t.val % 3 - 1)) % 16, Nat.mod_lt _ (by decide)⟩

/-- Stage one at pixel p, channel o. -/
def stage (xr : Fin 512 → EReal) (w1 : Fin 512 → Fin 16 → Fin 512 → EReal) (b1 : Fin 16 → Fin 512 → EReal)
    (p : Fin 16) (o : Fin 512) : EReal :=
  lk ((∑ ci : Fin 512, xr ci * w1 ci p o) + b1 p o)

/-- One neighbour's contribution through one tap's weights. -/
def tapSum (h1 : Fin 16 → Fin 512 → EReal) (w2 : Fin 9 → Fin 512 → Fin 512 → EReal) (co : Fin 512) (q : Fin 16) (t : Fin 9) : EReal :=
  ∑ ci : Fin 512, nrm (h1 q) ci * w2 t ci co

/-- Tap t's term at output pixel p: the neighbour's contribution when the tap stays inside the image, nothing otherwise. -/
def tapT (h1 : Fin 16 → Fin 512 → EReal) (w2 : Fin 9 → Fin 512 → Fin 512 → EReal) (p : Fin 16) (co : Fin 512) (t : Fin 9) : EReal :=
  if valid p t then tapSum h1 w2 co (nbr p t) t else 0

/-- The convolution sum at output pixel p, channel co: the nine taps' terms added in the order of the taps. -/
def conv (h1 : Fin 16 → Fin 512 → EReal) (w2 : Fin 9 → Fin 512 → Fin 512 → EReal) (p : Fin 16) (co : Fin 512) : EReal :=
  tapT h1 w2 p co 0 + tapT h1 w2 p co 1 + tapT h1 w2 p co 2 + tapT h1 w2 p co 3 + tapT h1 w2 p co 4 + tapT h1 w2 p co 5
    + tapT h1 w2 p co 6 + tapT h1 w2 p co 7 + tapT h1 w2 p co 8

/-- The head: convolution, bias, rectifier, normalisation, colours. -/
def head (h1 : Fin 16 → Fin 512 → EReal) (w2 : Fin 9 → Fin 512 → Fin 512 → EReal) (b2 : Fin 512 → EReal)
    (wr : Fin 512 → Fin 3 → EReal) (br : Fin 3 → EReal) (p : Fin 16) (r : Fin 3) : EReal :=
  (∑ c : Fin 512, nrm (fun co => lk (conv h1 w2 p co + b2 co)) c * wr c r) + br r

/-- One row's colours at pixel p. -/
def rowOut (xr : Fin 512 → EReal) (w1 : Fin 512 → Fin 16 → Fin 512 → EReal) (b1 : Fin 16 → Fin 512 → EReal)
    (w2 : Fin 9 → Fin 512 → Fin 512 → EReal) (b2 : Fin 512 → EReal) (wr : Fin 512 → Fin 3 → EReal) (br : Fin 3 → EReal)
    (p : Fin 16) (r : Fin 3) : EReal :=
  head (stage xr w1 b1) w2 b2 wr br p r

end Cert.Spec

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibRowNorm.lean ====
/-
  General lemmas: a row reduction kept as a column, and a column spread over the columns of a matrix, read at an entry.

  A row-wise normalisation of an N × C matrix sums along each row, keeps the N sums as an N × 1 column — by a reshape
  or by a broadcast along a new trailing unit axis —, and spreads that column back over the C columns. Entry (p, z) of
  the column is entry p of the vector of sums, and entry (p, q) of the spread is entry (p, 0) of the column, whatever
  the column q. The sum along the rows of a matrix, read at row p, is the sum over k of the entries (p, k): for the
  vector unit's one-axis reduction and for the host's alike (the host's adds its initial value). A scalar broadcast to
  any shape reads the scalar everywhere.
-/
import Idealize.ShloMosaic.Lib.ValueIdx
import Idealize.ShloMosaic.Lib.Pipeline.Value
import Idealize.ShloMosaic.PureOps.Ideal.Laws

noncomputable section

open scoped BigOperators

namespace Idealize.ShloMosaic.RowNorm

open Idealize.ShloMosaic Idealize.ShloMosaic.ValueIdx

variable {α : Type}

/-! ## A vector kept as a column, and a column spread over the columns -/

/-- A VECTOR LAID OUT AS A COLUMN BY A RESHAPE, READ AT (p, 0): entry p of the vector. -/
theorem shapeCast_vec_col_apply {N : Nat} (h : (⟨1, ![N]⟩ : Shape).ShapeCasts ⟨2, ![N, 1]⟩)
    (v : (⟨1, ![N]⟩ : Shape).Idx → α) (p : Fin N) (z : Fin 1) :
    shapeCast ⟨2, ![N, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- A VECTOR LAID OUT AS A COLUMN BY A BROADCAST ALONG A NEW TRAILING UNIT AXIS, READ AT (p, 0): entry p of the
    vector. -/
theorem broadcast_vec_col_apply {N : Nat} (h : (⟨1, ![N]⟩ : Shape).BroadcastsInDim ⟨2, ![N, 1]⟩ ![0])
    (v : (⟨1, ![N]⟩ : Shape).Idx → α) (p : Fin N) (z : Fin 1) :
    broadcastInDim ⟨2, ![N, 1]⟩ ![0] h v (ix2 p z) = v (ix1 p) := by
  refine broadcastInDim_apply _ h v _ (ix1 p) ?_
  intro d
  match d with
  | ⟨0, _⟩ =>
    show p.val = if N = 1 then 0 else p.val
    split
    · next h1 => have := p.isLt; omega
    · rfl

/-- A COLUMN SPREAD OVER C COLUMNS BY A VECTOR BROADCAST, READ AT (p, q): the column's entry p. -/
theorem broadcastTo_col_apply {N C : Nat} (v : (⟨2, ![N, 1]⟩ : Shape).Idx → α)
    (h : (⟨2, ![N, 1]⟩ : Shape).Broadcasts ⟨2, ![N, C]⟩) (p : Fin N) (q : Fin C) :
    broadcastTo ⟨2, ![N, C]⟩ v h (ix2 p q) = v (ix2 p (0 : Fin 1)) := by
  refine broadcastTo_apply v h (ix2 p q) (ix2 p (0 : Fin 1)) fun ax => ?_
  match ax with
  | ⟨0, _⟩ =>
    show p.val = if N = 1 then 0 else p.val
    split
    · next h1 => have := p.isLt; omega
    · rfl
  | ⟨1, _⟩ => rfl

/-- A COLUMN SPREAD OVER C COLUMNS BY A `broadcast_in_dim`, READ AT (p, q): the column's entry p. -/
theorem broadcast_col_apply {N C : Nat} (h : (⟨2, ![N, 1]⟩ : Shape).BroadcastsInDim ⟨2, ![N, C]⟩ ![0, 1])
    (v : (⟨2, ![N, 1]⟩ : Shape).Idx → α) (p : Fin N) (q : Fin C) :
    broadcastInDim ⟨2, ![N, C]⟩ ![0, 1] h v (ix2 p q) = v (ix2 p (0 : Fin 1)) := by
  refine broadcastInDim_apply _ h v _ (ix2 p (0 : Fin 1)) ?_
  intro d
  match d with
  | ⟨0, _⟩ =>
    show p.val = if N = 1 then 0 else p.val
    split
    · next h1 => have := p.isLt; omega
    · rfl
  | ⟨1, _⟩ =>
    show 0 = if (1 : Nat) = 1 then 0 else q.val
    rw [if_pos rfl]

/-- A SCALAR BROADCAST TO ANY SHAPE, READ ANYWHERE: the scalar. -/
theorem broadcast_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun a => a.elim0

/-! ## The sum along the rows of a matrix, read at a row -/

/-- The source entry over row p with column k inserted is (p, k). -/
theorem lift_row {N C : Nat} (h : (⟨2, ![N, C]⟩ : Shape).Reduces [1] ⟨1, ![N]⟩) (p : Fin N) (k : Fin C) :
    h.lift (ix1 p) k = ix2 p k := by
  funext a
  match a with
  | ⟨0, _⟩ => exact Fin.ext rfl
  | ⟨1, _⟩ => exact Fin.ext rfl

/-- THE VECTOR UNIT'S SUM ALONG THE ROWS, READ AT ROW p: the sum over k of the entries (p, k). -/
theorem multiReduction_row_apply {N C : Nat} {φ : FTy} (src : FVec Ideal (⟨2, ![N, C]⟩ : Shape) φ) (acc : BitVec φ.bits)
    (h : (⟨2, ![N, C]⟩ : Shape).Reduces [1] ⟨1, ![N]⟩) (hφ : FKind.Formats φ) (hacc : acc = FKind.add.neutral φ hφ)
    (p : Fin N) :
    multiReduction .add [1] ⟨1, ![N]⟩ src acc h hφ hacc (ix1 p) = ∑ k : Fin C, (src (ix2 p k) : EReal) := by
  refine (Ideal.multiReduction_add_single src acc h hφ hacc (ix1 p)).trans ?_
  exact Finset.sum_congr rfl fun k _ => congrArg src (lift_row h p k)

/-- THE HOST'S SUM ALONG THE ROWS, READ AT ROW p: its initial value plus the sum over k of the entries (p, k). -/
theorem hostReduceAdd_row_apply {N C : Nat} {φ : FTy} (x : FVec Ideal (⟨2, ![N, C]⟩ : Shape) φ)
    (init : (⟨0, ![]⟩ : Shape).Idx → Ideal φ)
    (h' : (⟨2, ![N, C]⟩ : Shape).ReducesTo [1] ⟨1, ![N]⟩) (h : (⟨2, ![N, C]⟩ : Shape).Reduces [1] ⟨1, ![N]⟩)
    (hu : 0 < (⟨0, ![]⟩ : Shape).numel) (p : Fin N) :
    Host.reduceAdd (F := Ideal) x init h' hu (ix1 p) = (init ix0 : EReal) + ∑ k : Fin C, (x (ix2 p k) : EReal) := by
  unfold Host.reduceAdd
  rw [Ideal.hostReduceAdd_def]
  refine (Ideal.hostReduceAdd_single h' h x _ (ix1 p)).trans ?_
  rw [eq_ix0 (Shape.Idx.first hu)]
  exact congrArg (init ix0 + ·) (Finset.sum_congr rfl fun k _ => congrArg x (lift_row h p k))

end Idealize.ShloMosaic.RowNorm

end
-- ==== Proof.KBodyAt.lean ====
/-
  The body's named array functions read at an entry, on the extended reals.

  A product of a 256 × 512 matrix with a 512 × M matrix from a zero accumulator is, at entry (b, c), the sum over the 512
  contracted positions; a row sum kept as a column and spread back reads the row's sum at every column; a slice of 512
  columns starting at `off` reads the source 'off' columns further right; a tap's weight matrix is that slab of the stack.
  Put together, one output pixel's colours at row b are the head of the specification applied to row b.
-/
import proofs.«156209_g2000106920163945_pallasbulk_552_2_alg».proof.Proof.KBodyDefs
import proofs.«156209_g2000106920163945_pallasbulk_552_2_alg».proof.Proof.Spec
import proofs.«156209_g2000106920163945_pallasbulk_552_2_alg».proof.Proof.LibPlainDot
import proofs.«156209_g2000106920163945_pallasbulk_552_2_alg».proof.Proof.LibRowNorm
import Idealize.ShloMosaic.Lib.ValueLayout
import Idealize.ShloMosaic.Lib.Pipeline.Value

set_option maxRecDepth 16384

noncomputable section

open scoped BigOperators

namespace Cert.KernelIdeal.Body

open Idealize.ShloMosaic Idealize.ShloMosaic.TcCoe Idealize.ShloMosaic.ValueIdx Cert.KernelIdeal Cert.KernelIdeal.Gen Cert.Spec

theorem zero2 : (![0, 0] : Fin 2 → Nat) = fun _ => 0 := by
  funext a; match a with | ⟨0, _⟩ => rfl | ⟨1, _⟩ => rfl

/-- One tap's product at entry (b, co). -/
theorem dotT_apply (h : FVec Ideal S256x512 .bf16) (w : FVec Ideal S512x512 .bf16) (b : Fin 256) (co : Fin 512) :
    dotT h w (ix2 b co) = ∑ ci : Fin 512, (h (ix2 b ci) : EReal) * (w (ix2 ci co) : EReal) :=
  Cert.PlainDot.matmul_zero_apply dot_S256x512_S512x512_S256x512_1_0_0_1_n_n rfl rfl
    (fun _ _ => rfl) (fun i q => dot_S256x512_S512x512_S256x512_1_0_0_1_n_n.lhsIdx_val_of_single rfl i q)
    (fun i q => dot_S256x512_S512x512_S256x512_1_0_0_1_n_n.rhsIdx_val_of_single rfl i q) (fun _ _ => rfl) none h w b co

/-- The colour product at entry (b, r). -/
theorem dotRgb_apply (y : FVec Ideal S256x512 .f32) (w : FVec Ideal S512x3 .f32) (b : Fin 256) (r : Fin 3) :
    matmul dot_S256x512_S512x3_S256x3_1_0_0_1_n_n none y w (constant S256x3 .f32 0x00000000#32) (ix2 b r)
      = ∑ c : Fin 512, (y (ix2 b c) : EReal) * (w (ix2 c r) : EReal) :=
  Cert.PlainDot.matmul_zero_apply dot_S256x512_S512x3_S256x3_1_0_0_1_n_n rfl rfl
    (fun _ _ => rfl) (fun i q => dot_S256x512_S512x3_S256x3_1_0_0_1_n_n.lhsIdx_val_of_single rfl i q)
    (fun i q => dot_S256x512_S512x3_S256x3_1_0_0_1_n_n.rhsIdx_val_of_single rfl i q) (fun _ _ => rfl) none y w b r

/-- The stage-one product at entry (b, k). -/
theorem dotS1_apply (x : FVec Ideal S256x512 .bf16) (w : FVec Ideal S512x8192 .bf16) (b : Fin 256) (k : Fin 8192) :
    matmul dot_S256x512_S512x8192_S256x8192_1_0_0_1_n_n none x w (constant S256x8192 .f32 0x00000000#32) (ix2 b k)
      = ∑ ci : Fin 512, (x (ix2 b ci) : EReal) * (w (ix2 ci k) : EReal) :=
  Cert.PlainDot.matmul_zero_apply dot_S256x512_S512x8192_S256x8192_1_0_0_1_n_n rfl rfl
    (fun _ _ => rfl) (fun i q => dot_S256x512_S512x8192_S256x8192_1_0_0_1_n_n.lhsIdx_val_of_single rfl i q)
    (fun i q => dot_S256x512_S512x8192_S256x8192_1_0_0_1_n_n.rhsIdx_val_of_single rfl i q) (fun _ _ => rfl) none x w b k

/-- Normalisation along the channels at entry (b, o). -/
theorem pnorm_apply (v : FVec Ideal S256x512 .f32) (b : Fin 256) (o : Fin 512) :
    pnorm v (ix2 b o) = nrm (fun o' : Fin 512 => (v (ix2 b o') : EReal)) o := by
  unfold pnorm nrm
  rw [mulf_apply, RowNorm.broadcastTo_col_apply]
  show (v (ix2 b o) : EReal) * Ideal.rsqrt (Ideal.div (shapeCast S256x1 _ shapeCasts_S256_S256x1 (ix2 b (0 : Fin 1))) c512 + ceps) = _
  rw [RowNorm.shapeCast_vec_col_apply]
  exact congrArg (fun s : EReal => (v (ix2 b o) : EReal) * Ideal.rsqrt (Ideal.div s c512 + ceps))
    (RowNorm.multiReduction_row_apply (mulf v v) _ reduces_S256x512_S256 _ _ b)

/-- Stage one at entry (b, k). -/
theorem stage1_apply (x0 : Vec Ideal S256x512 .bf16) (x1 : Vec Ideal S512x8192 .bf16) (x2 : Vec Ideal S1x8192 .f32)
    (b : Fin 256) (k : Fin 8192) :
    stage1 x0 x1 x2 (ix2 b k)
      = lk ((∑ ci : Fin 512, (x0 (ix2 b ci) : EReal) * (x1 (ix2 ci k) : EReal)) + (x2 (ix2 (0 : Fin 1) k) : EReal)) := by
  unfold stage1 k0_pay2 lk
  rw [View.ld_unit_zero zero2, View.ld_unit_zero zero2, View.ld_unit_zero zero2,
    show shapeCast S256x512 x0 shapeCasts_S256x512_S256x512 = x0 from shapeCast_self _ _,
    show shapeCast S512x8192 x1 shapeCasts_S512x8192_S512x8192 = x1 from shapeCast_self _ _,
    show shapeCast S1x8192 x2 shapeCasts_S1x8192_S1x8192 = x2 from shapeCast_self _ _,
    maximumf_apply, mulf_apply, addf_apply, broadcast_apply, dotS1_apply, broadcastTo_1b_ab_apply]
  rfl

/-- A pixel's normalised activation at entry (b, o): the normalisation of that pixel's 512 stage-one columns of row b. -/
theorem actAt_apply (off : Nat) (hs : S256x8192.Slices ![0, off] S256x512) (hoff : off + 512 ≤ 8192)
    (H : FVec Ideal S256x8192 .f32) (b : Fin 256) (o : Fin 512) :
    actAt off hs H (ix2 b o)
      = nrm (fun o' : Fin 512 => (H (ix2 b (⟨off + o'.val, by have := o'.isLt; omega⟩ : Fin 8192)) : EReal)) o := by
  unfold actAt
  rw [truncf_apply, pnorm_apply]
  refine congrArg (fun f => nrm f o) (funext fun o' => ?_)
  exact slice2_axis1_apply off H hs b o' ⟨off + o'.val, by have := o'.isLt; omega⟩ rfl

/-- Tap k's weight matrix at entry (ci, co): the stack's entry (k, ci, co). -/
theorem wtap_apply (k : Nat) (hk : k < 9) (inb : ∀ a, (![k, 0, 0] : Fin 3 → Nat) a + S1x512x512.size a ≤ S9x512x512.size a)
    (x3 : Vec Ideal S9x512x512 .bf16) (ci co : Fin 512) :
    wtap k inb x3 (ix2 ci co) = x3 (ix3 (⟨k, hk⟩ : Fin 9) ci co) := by
  unfold wtap
  rw [shapeCast_1ab_ab_apply]
  show x3 ((Rect.unit (s := S9x512x512) ![k, 0, 0] S1x512x512.size inb).idx (ix3 (0 : Fin 1) ci co)) = _
  refine congrArg x3 (funext fun a => Fin.ext ?_)
  match a with
  | ⟨0, _⟩ => show k + 1 * 0 = k; omega
  | ⟨1, _⟩ => show 0 + 1 * ci.val = ci.val; omega
  | ⟨2, _⟩ => show 0 + 1 * co.val = co.val; omega

/-- A left-nested sum of arrays read at an entry. -/
theorem foldl_addf_apply {S : Shape} (ds : List (FVec Ideal S .f32)) (d1 : FVec Ideal S .f32) (i : S.Idx) :
    (ds.foldl addf d1) i = ds.foldl (fun (a : EReal) d => a + (d i : EReal)) (d1 i : EReal) := by
  induction ds generalizing d1 with
  | nil => rfl
  | cons d ds ih => simp only [List.foldl_cons]; rw [ih]; rfl

/-- The rectified convolution at entry (b, co). -/
theorem convAct_apply (d1 : FVec Ideal S256x512 .f32) (ds : List (FVec Ideal S256x512 .f32)) (x4 : Vec Ideal S1x512 .f32)
    (b : Fin 256) (co : Fin 512) :
    convAct d1 ds x4 (ix2 b co)
      = lk (ds.foldl (fun (a : EReal) d => a + (d (ix2 b co) : EReal)) (d1 (ix2 b co) : EReal) + (x4 (ix2 (0 : Fin 1) co) : EReal)) := by
  unfold convAct lk
  rw [View.ld_unit_zero zero2, show shapeCast S1x512 x4 shapeCasts_S1x512_S1x512 = x4 from shapeCast_self _ _,
    maximumf_apply, mulf_apply, addf_apply, broadcast_apply, foldl_addf_apply, broadcastTo_1b_ab_apply]
  rfl

/-- The colours at entry (0, b, r). -/
theorem toRgb_apply (y : FVec Ideal S256x512 .f32) (x5 : Vec Ideal S512x3 .f32) (x6 : Vec Ideal S1x3 .f32) (b : Fin 256) (r : Fin 3) :
    toRgb y x5 x6 (ix3 (0 : Fin 1) b r)
      = (∑ c : Fin 512, nrm (fun co : Fin 512 => (y (ix2 b co) : EReal)) c * (x5 (ix2 c r) : EReal)) + (x6 (ix2 (0 : Fin 1) r) : EReal) := by
  unfold toRgb
  rw [View.ld_unit_zero zero2, View.ld_unit_zero zero2,
    show shapeCast S512x3 x5 shapeCasts_S512x3_S512x3 = x5 from shapeCast_self _ _,
    show shapeCast S1x3 x6 shapeCasts_S1x3_S1x3 = x6 from shapeCast_self _ _,
    shapeCast_ab_1ab_apply, addf_apply, dotRgb_apply, broadcastTo_1b_ab_apply]
  refine congrArg (· + _) (Finset.sum_congr rfl fun c _ => ?_)
  rw [pnorm_apply]

/-- One output pixel at entry (0, b, r). -/
theorem pixOut_apply (d1 : FVec Ideal S256x512 .f32) (ds : List (FVec Ideal S256x512 .f32)) (x4 : Vec Ideal S1x512 .f32)
    (x5 : Vec Ideal S512x3 .f32) (x6 : Vec Ideal S1x3 .f32) (b : Fin 256) (r : Fin 3) :
    pixOut d1 ds x4 x5 x6 (ix3 (0 : Fin 1) b r)
      = (∑ c : Fin 512, nrm (fun co : Fin 512 =>
          lk (ds.foldl (fun (a : EReal) d => a + (d (ix2 b co) : EReal)) (d1 (ix2 b co) : EReal) + (x4 (ix2 (0 : Fin 1) co) : EReal))) c
            * (x5 (ix2 c r) : EReal)) + (x6 (ix2 (0 : Fin 1) r) : EReal) := by
  unfold pixOut
  rw [toRgb_apply]
  refine congrArg (· + _) (Finset.sum_congr rfl fun c _ => ?_)
  refine congrArg (· * _) (congrArg (fun f => nrm f c) (funext fun co => ?_))
  exact convAct_apply d1 ds x4 b co

end Cert.KernelIdeal.Body

end
-- ==== Proof.KBodyEq.lean ====
/-
  The generated description of what the body leaves in the output block is the sixteen named pixel results.
-/
import proofs.«156209_g2000106920163945_pallasbulk_552_2_alg».proof.Proof.KBodyDefs

set_option maxRecDepth 16384

noncomputable section

namespace Cert.KernelIdeal.Body

open Idealize.ShloMosaic Idealize.ShloMosaic.TcCoe Cert.KernelIdeal Cert.KernelIdeal.Gen

variable {F : FTy → Type} [FloatOps F]

/-- The block of the output after the body: pixel p's colours in its p-th 256 × 3 slab. -/
theorem out_eq (x0 : Vec F S256x512 .bf16) (x1 : Vec F S512x8192 .bf16) (x2 : Vec F S1x8192 .f32) (x3 : Vec F S9x512x512 .bf16) (x4 : Vec F S1x512 .f32) (x5 : Vec F S512x3 .f32) (x6 : Vec F S1x3 .f32) :
    out0_7 x0 x1 x2 x3 x4 x5 x6 = View.canon [⟨r0_30, piece15 x0 x1 x2 x3 x4 x5 x6⟩,
      ⟨r0_29, piece14 x0 x1 x2 x3 x4 x5 x6⟩,
      ⟨r0_28, piece13 x0 x1 x2 x3 x4 x5 x6⟩,
      ⟨r0_27, piece12 x0 x1 x2 x3 x4 x5 x6⟩,
      ⟨r0_26, piece11 x0 x1 x2 x3 x4 x5 x6⟩,
      ⟨r0_25, piece10 x0 x1 x2 x3 x4 x5 x6⟩,
      ⟨r0_24, piece9 x0 x1 x2 x3 x4 x5 x6⟩,
      ⟨r0_23, piece8 x0 x1 x2 x3 x4 x5 x6⟩,
      ⟨r0_22, piece7 x0 x1 x2 x3 x4 x5 x6⟩,
      ⟨r0_21, piece6 x0 x1 x2 x3 x4 x5 x6⟩,
      ⟨r0_20, piece5 x0 x1 x2 x3 x4 x5 x6⟩,
      ⟨r0_18, piece4 x0 x1 x2 x3 x4 x5 x6⟩,
      ⟨r0_15, piece3 x0 x1 x2 x3 x4 x5 x6⟩,
      ⟨r0_14, piece2 x0 x1 x2 x3 x4 x5 x6⟩,
      ⟨r0_13, piece1 x0 x1 x2 x3 x4 x5 x6⟩,
      ⟨r0_10, piece0 x0 x1 x2 x3 x4 x5 x6⟩] := rfl

end Cert.KernelIdeal.Body

end
-- ==== Proof.SpecConv.lean ====
/-
  The convolution sum of each output pixel, with the taps that leave the image dropped.

  For a corner pixel four taps stay inside the 4 × 4 image, for an edge pixel six, for an inner pixel all nine. Dropping
  the zero terms of the nine-term sum leaves the neighbours' contributions added in the order of the taps.
-/
import proofs.«156209_g2000106920163945_pallasbulk_552_2_alg».proof.Proof.Spec

noncomputable section

namespace Cert.Spec

theorem conv_px0 (h1 : Fin 16 → Fin 512 → EReal) (w2 : Fin 9 → Fin 512 → Fin 512 → EReal) (co : Fin 512) :
    conv h1 w2 (0 : Fin 16) co = tapSum h1 w2 co (0 : Fin 16) (4 : Fin 9) + tapSum h1 w2 co (1 : Fin 16) (5 : Fin 9) + tapSum h1 w2 co (4 : Fin 16) (7 : Fin 9) + tapSum h1 w2 co (5 : Fin 16) (8 : Fin 9) := by
  unfold conv tapT
  simp only [if_neg (show ¬ valid (0 : Fin 16) (0 : Fin 9) from by decide),
    if_neg (show ¬ valid (0 : Fin 16) (1 : Fin 9) from by decide),
    if_neg (show ¬ valid (0 : Fin 16) (2 : Fin 9) from by decide),
    if_neg (show ¬ valid (0 : Fin 16) (3 : Fin 9) from by decide),
    if_pos (show valid (0 : Fin 16) (4 : Fin 9) from by decide),
    show nbr (0 : Fin 16) (4 : Fin 9) = (0 : Fin 16) from by decide,
    if_pos (show valid (0 : Fin 16) (5 : Fin 9) from by decide),
    show nbr (0 : Fin 16) (5 : Fin 9) = (1 : Fin 16) from by decide,
    if_neg (show ¬ valid (0 : Fin 16) (6 : Fin 9) from by decide),
    if_pos (show valid (0 : Fin 16) (7 : Fin 9) from by decide),
    show nbr (0 : Fin 16) (7 : Fin 9) = (4 : Fin 16) from by decide,
    if_pos (show valid (0 : Fin 16) (8 : Fin 9) from by decide),
    show nbr (0 : Fin 16) (8 : Fin 9) = (5 : Fin 16) from by decide,
    add_zero, zero_add]

theorem conv_px1 (h1 : Fin 16 → Fin 512 → EReal) (w2 : Fin 9 → Fin 512 → Fin 512 → EReal) (co : Fin 512) :
    conv h1 w2 (1 : Fin 16) co = tapSum h1 w2 co (0 : Fin 16) (3 : Fin 9) + tapSum h1 w2 co (1 : Fin 16) (4 : Fin 9) + tapSum h1 w2 co (2 : Fin 16) (5 : Fin 9) + tapSum h1 w2 co (4 : Fin 16) (6 : Fin 9) + tapSum h1 w2 co (5 : Fin 16) (7 : Fin 9) + tapSum h1 w2 co (6 : Fin 16) (8 : Fin 9) := by
  unfold conv tapT
  simp only [if_neg (show ¬ valid (1 : Fin 16) (0 : Fin 9) from by decide),
    if_neg (show ¬ valid (1 : Fin 16) (1 : Fin 9) from by decide),
    if_neg (show ¬ valid (1 : Fin 16) (2 : Fin 9) from by decide),
    if_pos (show valid (1 : Fin 16) (3 : Fin 9) from by decide),
    show nbr (1 : Fin 16) (3 : Fin 9) = (0 : Fin 16) from by decide,
    if_pos (show valid (1 : Fin 16) (4 : Fin 9) from by decide),
    show nbr (1 : Fin 16) (4 : Fin 9) = (1 : Fin 16) from by decide,
    if_pos (show valid (1 : Fin 16) (5 : Fin 9) from by decide),
    show nbr (1 : Fin 16) (5 : Fin 9) = (2 : Fin 16) from by decide,
    if_pos (show valid (1 : Fin 16) (6 : Fin 9) from by decide),
    show nbr (1 : Fin 16) (6 : Fin 9) = (4 : Fin 16) from by decide,
    if_pos (show valid (1 : Fin 16) (7 : Fin 9) from by decide),
    show nbr (1 : Fin 16) (7 : Fin 9) = (5 : Fin 16) from by decide,
    if_pos (show valid (1 : Fin 16) (8 : Fin 9) from by decide),
    show nbr (1 : Fin 16) (8 : Fin 9) = (6 : Fin 16) from by decide,
    add_zero, zero_add]

theorem conv_px2 (h1 : Fin 16 → Fin 512 → EReal) (w2 : Fin 9 → Fin 512 → Fin 512 → EReal) (co : Fin 512) :
    conv h1 w2 (2 : Fin 16) co = tapSum h1 w2 co (1 : Fin 16) (3 : Fin 9) + tapSum h1 w2 co (2 : Fin 16) (4 : Fin 9) + tapSum h1 w2 co (3 : Fin 16) (5 : Fin 9) + tapSum h1 w2 co (5 : Fin 16) (6 : Fin 9) + tapSum h1 w2 co (6 : Fin 16) (7 : Fin 9) + tapSum h1 w2 co (7 : Fin 16) (8 : Fin 9) := by
  unfold conv tapT
  simp only [if_neg (show ¬ valid (2 : Fin 16) (0 : Fin 9) from by decide),
    if_neg (show ¬ valid (2 : Fin 16) (1 : Fin 9) from by decide),
    if_neg (show ¬ valid (2 : Fin 16) (2 : Fin 9) from by decide),
    if_pos (show valid (2 : Fin 16) (3 : Fin 9) from by decide),
    show nbr (2 : Fin 16) (3 : Fin 9) = (1 : Fin 16) from by decide,
    if_pos (show valid (2 : Fin 16) (4 : Fin 9) from by decide),
    show nbr (2 : Fin 16) (4 : Fin 9) = (2 : Fin 16) from by decide,
    if_pos (show valid (2 : Fin 16) (5 : Fin 9) from by decide),
    show nbr (2 : Fin 16) (5 : Fin 9) = (3 : Fin 16) from by decide,
    if_pos (show valid (2 : Fin 16) (6 : Fin 9) from by decide),
    show nbr (2 : Fin 16) (6 : Fin 9) = (5 : Fin 16) from by decide,
    if_pos (show valid (2 : Fin 16) (7 : Fin 9) from by decide),
    show nbr (2 : Fin 16) (7 : Fin 9) = (6 : Fin 16) from by decide,
    if_pos (show valid (2 : Fin 16) (8 : Fin 9) from by decide),
    show nbr (2 : Fin 16) (8 : Fin 9) = (7 : Fin 16) from by decide,
    add_zero, zero_add]

theorem conv_px3 (h1 : Fin 16 → Fin 512 → EReal) (w2 : Fin 9 → Fin 512 → Fin 512 → EReal) (co : Fin 512) :
    conv h1 w2 (3 : Fin 16) co = tapSum h1 w2 co (2 : Fin 16) (3 : Fin 9) + tapSum h1 w2 co (3 : Fin 16) (4 : Fin 9) + tapSum h1 w2 co (6 : Fin 16) (6 : Fin 9) + tapSum h1 w2 co (7 : Fin 16) (7 : Fin 9) := by
  unfold conv tapT
  simp only [if_neg (show ¬ valid (3 : Fin 16) (0 : Fin 9) from by decide),
    if_neg (show ¬ valid (3 : Fin 16) (1 : Fin 9) from by decide),
    if_neg (show ¬ valid (3 : Fin 16) (2 : Fin 9) from by decide),
    if_pos (show valid (3 : Fin 16) (3 : Fin 9) from by decide),
    show nbr (3 : Fin 16) (3 : Fin 9) = (2 : Fin 16) from by decide,
    if_pos (show valid (3 : Fin 16) (4 : Fin 9) from by decide),
    show nbr (3 : Fin 16) (4 : Fin 9) = (3 : Fin 16) from by decide,
    if_neg (show ¬ valid (3 : Fin 16) (5 : Fin 9) from by decide),
    if_pos (show valid (3 : Fin 16) (6 : Fin 9) from by decide),
    show nbr (3 : Fin 16) (6 : Fin 9) = (6 : Fin 16) from by decide,
    if_pos (show valid (3 : Fin 16) (7 : Fin 9) from by decide),
    show nbr (3 : Fin 16) (7 : Fin 9) = (7 : Fin 16) from by decide,
    if_neg (show ¬ valid (3 : Fin 16) (8 : Fin 9) from by decide),
    add_zero, zero_add]

theorem conv_px4 (h1 : Fin 16 → Fin 512 → EReal) (w2 : Fin 9 → Fin 512 → Fin 512 → EReal) (co : Fin 512) :
    conv h1 w2 (4 : Fin 16) co = tapSum h1 w2 co (0 : Fin 16) (1 : Fin 9) + tapSum h1 w2 co (1 : Fin 16) (2 : Fin 9) + tapSum h1 w2 co (4 : Fin 16) (4 : Fin 9) + tapSum h1 w2 co (5 : Fin 16) (5 : Fin 9) + tapSum h1 w2 co (8 : Fin 16) (7 : Fin 9) + tapSum h1 w2 co (9 : Fin 16) (8 : Fin 9) := by
  unfold conv tapT
  simp only [if_neg (show ¬ valid (4 : Fin 16) (0 : Fin 9) from by decide),
    if_pos (show valid (4 : Fin 16) (1 : Fin 9) from by decide),
    show nbr (4 : Fin 16) (1 : Fin 9) = (0 : Fin 16) from by decide,
    if_pos (show valid (4 : Fin 16) (2 : Fin 9) from by decide),
    show nbr (4 : Fin 16) (2 : Fin 9) = (1 : Fin 16) from by decide,
    if_neg (show ¬ valid (4 : Fin 16) (3 : Fin 9) from by decide),
    if_pos (show valid (4 : Fin 16) (4 : Fin 9) from by decide),
    show nbr (4 : Fin 16) (4 : Fin 9) = (4 : Fin 16) from by decide,
    if_pos (show valid (4 : Fin 16) (5 : Fin 9) from by decide),
    show nbr (4 : Fin 16) (5 : Fin 9) = (5 : Fin 16) from by decide,
    if_neg (show ¬ valid (4 : Fin 16) (6 : Fin 9) from by decide),
    if_pos (show valid (4 : Fin 16) (7 : Fin 9) from by decide),
    show nbr (4 : Fin 16) (7 : Fin 9) = (8 : Fin 16) from by decide,
    if_pos (show valid (4 : Fin 16) (8 : Fin 9) from by decide),
    show nbr (4 : Fin 16) (8 : Fin 9) = (9 : Fin 16) from by decide,
    add_zero, zero_add]

theorem conv_px5 (h1 : Fin 16 → Fin 512 → EReal) (w2 : Fin 9 → Fin 512 → Fin 512 → EReal) (co : Fin 512) :
    conv h1 w2 (5 : Fin 16) co = tapSum h1 w2 co (0 : Fin 16) (0 : Fin 9) + tapSum h1 w2 co (1 : Fin 16) (1 : Fin 9) + tapSum h1 w2 co (2 : Fin 16) (2 : Fin 9) + tapSum h1 w2 co (4 : Fin 16) (3 : Fin 9) + tapSum h1 w2 co (5 : Fin 16) (4 : Fin 9) + tapSum h1 w2 co (6 : Fin 16) (5 : Fin 9) + tapSum h1 w2 co (8 : Fin 16) (6 : Fin 9) + tapSum h1 w2 co (9 : Fin 16) (7 : Fin 9) + tapSum h1 w2 co (10 : Fin 16) (8 : Fin 9) := by
  unfold conv tapT
  simp only [if_pos (show valid (5 : Fin 16) (0 : Fin 9) from by decide),
    show nbr (5 : Fin 16) (0 : Fin 9) = (0 : Fin 16) from by decide,
    if_pos (show valid (5 : Fin 16) (1 : Fin 9) from by decide),
    show nbr (5 : Fin 16) (1 : Fin 9) = (1 : Fin 16) from by decide,
    if_pos (show valid (5 : Fin 16) (2 : Fin 9) from by decide),
    show nbr (5 : Fin 16) (2 : Fin 9) = (2 : Fin 16) from by decide,
    if_pos (show valid (5 : Fin 16) (3 : Fin 9) from by decide),
    show nbr (5 : Fin 16) (3 : Fin 9) = (4 : Fin 16) from by decide,
    if_pos (show valid (5 : Fin 16) (4 : Fin 9) from by decide),
    show nbr (5 : Fin 16) (4 : Fin 9) = (5 : Fin 16) from by decide,
    if_pos (show valid (5 : Fin 16) (5 : Fin 9) from by decide),
    show nbr (5 : Fin 16) (5 : Fin 9) = (6 : Fin 16) from by decide,
    if_pos (show valid (5 : Fin 16) (6 : Fin 9) from by decide),
    show nbr (5 : Fin 16) (6 : Fin 9) = (8 : Fin 16) from by decide,
    if_pos (show valid (5 : Fin 16) (7 : Fin 9) from by decide),
    show nbr (5 : Fin 16) (7 : Fin 9) = (9 : Fin 16) from by decide,
    if_pos (show valid (5 : Fin 16) (8 : Fin 9) from by decide),
    show nbr (5 : Fin 16) (8 : Fin 9) = (10 : Fin 16) from by decide,
    add_zero, zero_add]

theorem conv_px6 (h1 : Fin 16 → Fin 512 → EReal) (w2 : Fin 9 → Fin 512 → Fin 512 → EReal) (co : Fin 512) :
    conv h1 w2 (6 : Fin 16) co = tapSum h1 w2 co (1 : Fin 16) (0 : Fin 9) + tapSum h1 w2 co (2 : Fin 16) (1 : Fin 9) + tapSum h1 w2 co (3 : Fin 16) (2 : Fin 9) + tapSum h1 w2 co (5 : Fin 16) (3 : Fin 9) + tapSum h1 w2 co (6 : Fin 16) (4 : Fin 9) + tapSum h1 w2 co (7 : Fin 16) (5 : Fin 9) + tapSum h1 w2 co (9 : Fin 16) (6 : Fin 9) + tapSum h1 w2 co (10 : Fin 16) (7 : Fin 9) + tapSum h1 w2 co (11 : Fin 16) (8 : Fin 9) := by
  unfold conv tapT
  simp only [if_pos (show valid (6 : Fin 16) (0 : Fin 9) from by decide),
    show nbr (6 : Fin 16) (0 : Fin 9) = (1 : Fin 16) from by decide,
    if_pos (show valid (6 : Fin 16) (1 : Fin 9) from by decide),
    show nbr (6 : Fin 16) (1 : Fin 9) = (2 : Fin 16) from by decide,
    if_pos (show valid (6 : Fin 16) (2 : Fin 9) from by decide),
    show nbr (6 : Fin 16) (2 : Fin 9) = (3 : Fin 16) from by decide,
    if_pos (show valid (6 : Fin 16) (3 : Fin 9) from by decide),
    show nbr (6 : Fin 16) (3 : Fin 9) = (5 : Fin 16) from by decide,
    if_pos (show valid (6 : Fin 16) (4 : Fin 9) from by decide),
    show nbr (6 : Fin 16) (4 : Fin 9) = (6 : Fin 16) from by decide,
    if_pos (show valid (6 : Fin 16) (5 : Fin 9) from by decide),
    show nbr (6 : Fin 16) (5 : Fin 9) = (7 : Fin 16) from by decide,
    if_pos (show valid (6 : Fin 16) (6 : Fin 9) from by decide),
    show nbr (6 : Fin 16) (6 : Fin 9) = (9 : Fin 16) from by decide,
    if_pos (show valid (6 : Fin 16) (7 : Fin 9) from by decide),
    show nbr (6 : Fin 16) (7 : Fin 9) = (10 : Fin 16) from by decide,
    if_pos (show valid (6 : Fin 16) (8 : Fin 9) from by decide),
    show nbr (6 : Fin 16) (8 : Fin 9) = (11 : Fin 16) from by decide,
    add_zero, zero_add]

theorem conv_px7 (h1 : Fin 16 → Fin 512 → EReal) (w2 : Fin 9 → Fin 512 → Fin 512 → EReal) (co : Fin 512) :
    conv h1 w2 (7 : Fin 16) co = tapSum h1 w2 co (2 : Fin 16) (0 : Fin 9) + tapSum h1 w2 co (3 : Fin 16) (1 : Fin 9) + tapSum h1 w2 co (6 : Fin 16) (3 : Fin 9) + tapSum h1 w2 co (7 : Fin 16) (4 : Fin 9) + tapSum h1 w2 co (10 : Fin 16) (6 : Fin 9) + tapSum h1 w2 co (11 : Fin 16) (7 : Fin 9) := by
  unfold conv tapT
  simp only [if_pos (show valid (7 : Fin 16) (0 : Fin 9) from by decide),
    show nbr (7 : Fin 16) (0 : Fin 9) = (2 : Fin 16) from by decide,
    if_pos (show valid (7 : Fin 16) (1 : Fin 9) from by decide),
    show nbr (7 : Fin 16) (1 : Fin 9) = (3 : Fin 16) from by decide,
    if_neg (show ¬ valid (7 : Fin 16) (2 : Fin 9) from by decide),
    if_pos (show valid (7 : Fin 16) (3 : Fin 9) from by decide),
    show nbr (7 : Fin 16) (3 : Fin 9) = (6 : Fin 16) from by decide,
    if_pos (show valid (7 : Fin 16) (4 : Fin 9) from by decide),
    show nbr (7 : Fin 16) (4 : Fin 9) = (7 : Fin 16) from by decide,
    if_neg (show ¬ valid (7 : Fin 16) (5 : Fin 9) from by decide),
    if_pos (show valid (7 : Fin 16) (6 : Fin 9) from by decide),
    show nbr (7 : Fin 16) (6 : Fin 9) = (10 : Fin 16) from by decide,
    if_pos (show valid (7 : Fin 16) (7 : Fin 9) from by decide),
    show nbr (7 : Fin 16) (7 : Fin 9) = (11 : Fin 16) from by decide,
    if_neg (show ¬ valid (7 : Fin 16) (8 : Fin 9) from by decide),
    add_zero, zero_add]

theorem conv_px8 (h1 : Fin 16 → Fin 512 → EReal) (w2 : Fin 9 → Fin 512 → Fin 512 → EReal) (co : Fin 512) :
    conv h1 w2 (8 : Fin 16) co = tapSum h1 w2 co (4 : Fin 16) (1 : Fin 9) + tapSum h1 w2 co (5 : Fin 16) (2 : Fin 9) + tapSum h1 w2 co (8 : Fin 16) (4 : Fin 9) + tapSum h1 w2 co (9 : Fin 16) (5 : Fin 9) + tapSum h1 w2 co (12 : Fin 16) (7 : Fin 9) + tapSum h1 w2 co (13 : Fin 16) (8 : Fin 9) := by
  unfold conv tapT
  simp only [if_neg (show ¬ valid (8 : Fin 16) (0 : Fin 9) from by decide),
    if_pos (show valid (8 : Fin 16) (1 : Fin 9) from by decide),
    show nbr (8 : Fin 16) (1 : Fin 9) = (4 : Fin 16) from by decide,
    if_pos (show valid (8 : Fin 16) (2 : Fin 9) from by decide),
    show nbr (8 : Fin 16) (2 : Fin 9) = (5 : Fin 16) from by decide,
    if_neg (show ¬ valid (8 : Fin 16) (3 : Fin 9) from by decide),
    if_pos (show valid (8 : Fin 16) (4 : Fin 9) from by decide),
    show nbr (8 : Fin 16) (4 : Fin 9) = (8 : Fin 16) from by decide,
    if_pos (show valid (8 : Fin 16) (5 : Fin 9) from by decide),
    show nbr (8 : Fin 16) (5 : Fin 9) = (9 : Fin 16) from by decide,
    if_neg (show ¬ valid (8 : Fin 16) (6 : Fin 9) from by decide),
    if_pos (show valid (8 : Fin 16) (7 : Fin 9) from by decide),
    show nbr (8 : Fin 16) (7 : Fin 9) = (12 : Fin 16) from by decide,
    if_pos (show valid (8 : Fin 16) (8 : Fin 9) from by decide),
    show nbr (8 : Fin 16) (8 : Fin 9) = (13 : Fin 16) from by decide,
    add_zero, zero_add]

theorem conv_px9 (h1 : Fin 16 → Fin 512 → EReal) (w2 : Fin 9 → Fin 512 → Fin 512 → EReal) (co : Fin 512) :
    conv h1 w2 (9 : Fin 16) co = tapSum h1 w2 co (4 : Fin 16) (0 : Fin 9) + tapSum h1 w2 co (5 : Fin 16) (1 : Fin 9) + tapSum h1 w2 co (6 : Fin 16) (2 : Fin 9) + tapSum h1 w2 co (8 : Fin 16) (3 : Fin 9) + tapSum h1 w2 co (9 : Fin 16) (4 : Fin 9) + tapSum h1 w2 co (10 : Fin 16) (5 : Fin 9) + tapSum h1 w2 co (12 : Fin 16) (6 : Fin 9) + tapSum h1 w2 co (13 : Fin 16) (7 : Fin 9) + tapSum h1 w2 co (14 : Fin 16) (8 : Fin 9) := by
  unfold conv tapT
  simp only [if_pos (show valid (9 : Fin 16) (0 : Fin 9) from by decide),
    show nbr (9 : Fin 16) (0 : Fin 9) = (4 : Fin 16) from by decide,
    if_pos (show valid (9 : Fin 16) (1 : Fin 9) from by decide),
    show nbr (9 : Fin 16) (1 : Fin 9) = (5 : Fin 16) from by decide,
    if_pos (show valid (9 : Fin 16) (2 : Fin 9) from by decide),
    show nbr (9 : Fin 16) (2 : Fin 9) = (6 : Fin 16) from by decide,
    if_pos (show valid (9 : Fin 16) (3 : Fin 9) from by decide),
    show nbr (9 : Fin 16) (3 : Fin 9) = (8 : Fin 16) from by decide,
    if_pos (show valid (9 : Fin 16) (4 : Fin 9) from by decide),
    show nbr (9 : Fin 16) (4 : Fin 9) = (9 : Fin 16) from by decide,
    if_pos (show valid (9 : Fin 16) (5 : Fin 9) from by decide),
    show nbr (9 : Fin 16) (5 : Fin 9) = (10 : Fin 16) from by decide,
    if_pos (show valid (9 : Fin 16) (6 : Fin 9) from by decide),
    show nbr (9 : Fin 16) (6 : Fin 9) = (12 : Fin 16) from by decide,
    if_pos (show valid (9 : Fin 16) (7 : Fin 9) from by decide),
    show nbr (9 : Fin 16) (7 : Fin 9) = (13 : Fin 16) from by decide,
    if_pos (show valid (9 : Fin 16) (8 : Fin 9) from by decide),
    show nbr (9 : Fin 16) (8 : Fin 9) = (14 : Fin 16) from by decide,
    add_zero, zero_add]

theorem conv_px10 (h1 : Fin 16 → Fin 512 → EReal) (w2 : Fin 9 → Fin 512 → Fin 512 → EReal) (co : Fin 512) :
    conv h1 w2 (10 : Fin 16) co = tapSum h1 w2 co (5 : Fin 16) (0 : Fin 9) + tapSum h1 w2 co (6 : Fin 16) (1 : Fin 9) + tapSum h1 w2 co (7 : Fin 16) (2 : Fin 9) + tapSum h1 w2 co (9 : Fin 16) (3 : Fin 9) + tapSum h1 w2 co (10 : Fin 16) (4 : Fin 9) + tapSum h1 w2 co (11 : Fin 16) (5 : Fin 9) + tapSum h1 w2 co (13 : Fin 16) (6 : Fin 9) + tapSum h1 w2 co (14 : Fin 16) (7 : Fin 9) + tapSum h1 w2 co (15 : Fin 16) (8 : Fin 9) := by
  unfold conv tapT
  simp only [if_pos (show valid (10 : Fin 16) (0 : Fin 9) from by decide),
    show nbr (10 : Fin 16) (0 : Fin 9) = (5 : Fin 16) from by decide,
    if_pos (show valid (10 : Fin 16) (1 : Fin 9) from by decide),
    show nbr (10 : Fin 16) (1 : Fin 9) = (6 : Fin 16) from by decide,
    if_pos (show valid (10 : Fin 16) (2 : Fin 9) from by decide),
    show nbr (10 : Fin 16) (2 : Fin 9) = (7 : Fin 16) from by decide,
    if_pos (show valid (10 : Fin 16) (3 : Fin 9) from by decide),
    show nbr (10 : Fin 16) (3 : Fin 9) = (9 : Fin 16) from by decide,
    if_pos (show valid (10 : Fin 16) (4 : Fin 9) from by decide),
    show nbr (10 : Fin 16) (4 : Fin 9) = (10 : Fin 16) from by decide,
    if_pos (show valid (10 : Fin 16) (5 : Fin 9) from by decide),
    show nbr (10 : Fin 16) (5 : Fin 9) = (11 : Fin 16) from by decide,
    if_pos (show valid (10 : Fin 16) (6 : Fin 9) from by decide),
    show nbr (10 : Fin 16) (6 : Fin 9) = (13 : Fin 16) from by decide,
    if_pos (show valid (10 : Fin 16) (7 : Fin 9) from by decide),
    show nbr (10 : Fin 16) (7 : Fin 9) = (14 : Fin 16) from by decide,
    if_pos (show valid (10 : Fin 16) (8 : Fin 9) from by decide),
    show nbr (10 : Fin 16) (8 : Fin 9) = (15 : Fin 16) from by decide,
    add_zero, zero_add]

theorem conv_px11 (h1 : Fin 16 → Fin 512 → EReal) (w2 : Fin 9 → Fin 512 → Fin 512 → EReal) (co : Fin 512) :
    conv h1 w2 (11 : Fin 16) co = tapSum h1 w2 co (6 : Fin 16) (0 : Fin 9) + tapSum h1 w2 co (7 : Fin 16) (1 : Fin 9) + tapSum h1 w2 co (10 : Fin 16) (3 : Fin 9) + tapSum h1 w2 co (11 : Fin 16) (4 : Fin 9) + tapSum h1 w2 co (14 : Fin 16) (6 : Fin 9) + tapSum h1 w2 co (15 : Fin 16) (7 : Fin 9) := by
  unfold conv tapT
  simp only [if_pos (show valid (11 : Fin 16) (0 : Fin 9) from by decide),
    show nbr (11 : Fin 16) (0 : Fin 9) = (6 : Fin 16) from by decide,
    if_pos (show valid (11 : Fin 16) (1 : Fin 9) from by decide),
    show nbr (11 : Fin 16) (1 : Fin 9) = (7 : Fin 16) from by decide,
    if_neg (show ¬ valid (11 : Fin 16) (2 : Fin 9) from by decide),
    if_pos (show valid (11 : Fin 16) (3 : Fin 9) from by decide),
    show nbr (11 : Fin 16) (3 : Fin 9) = (10 : Fin 16) from by decide,
    if_pos (show valid (11 : Fin 16) (4 : Fin 9) from by decide),
    show nbr (11 : Fin 16) (4 : Fin 9) = (11 : Fin 16) from by decide,
    if_neg (show ¬ valid (11 : Fin 16) (5 : Fin 9) from by decide),
    if_pos (show valid (11 : Fin 16) (6 : Fin 9) from by decide),
    show nbr (11 : Fin 16) (6 : Fin 9) = (14 : Fin 16) from by decide,
    if_pos (show valid (11 : Fin 16) (7 : Fin 9) from by decide),
    show nbr (11 : Fin 16) (7 : Fin 9) = (15 : Fin 16) from by decide,
    if_neg (show ¬ valid (11 : Fin 16) (8 : Fin 9) from by decide),
    add_zero, zero_add]

theorem conv_px12 (h1 : Fin 16 → Fin 512 → EReal) (w2 : Fin 9 → Fin 512 → Fin 512 → EReal) (co : Fin 512) :
    conv h1 w2 (12 : Fin 16) co = tapSum h1 w2 co (8 : Fin 16) (1 : Fin 9) + tapSum h1 w2 co (9 : Fin 16) (2 : Fin 9) + tapSum h1 w2 co (12 : Fin 16) (4 : Fin 9) + tapSum h1 w2 co (13 : Fin 16) (5 : Fin 9) := by
  unfold conv tapT
  simp only [if_neg (show ¬ valid (12 : Fin 16) (0 : Fin 9) from by decide),
    if_pos (show valid (12 : Fin 16) (1 : Fin 9) from by decide),
    show nbr (12 : Fin 16) (1 : Fin 9) = (8 : Fin 16) from by decide,
    if_pos (show valid (12 : Fin 16) (2 : Fin 9) from by decide),
    show nbr (12 : Fin 16) (2 : Fin 9) = (9 : Fin 16) from by decide,
    if_neg (show ¬ valid (12 : Fin 16) (3 : Fin 9) from by decide),
    if_pos (show valid (12 : Fin 16) (4 : Fin 9) from by decide),
    show nbr (12 : Fin 16) (4 : Fin 9) = (12 : Fin 16) from by decide,
    if_pos (show valid (12 : Fin 16) (5 : Fin 9) from by decide),
    show nbr (12 : Fin 16) (5 : Fin 9) = (13 : Fin 16) from by decide,
    if_neg (show ¬ valid (12 : Fin 16) (6 : Fin 9) from by decide),
    if_neg (show ¬ valid (12 : Fin 16) (7 : Fin 9) from by decide),
    if_neg (show ¬ valid (12 : Fin 16) (8 : Fin 9) from by decide),
    add_zero, zero_add]

theorem conv_px13 (h1 : Fin 16 → Fin 512 → EReal) (w2 : Fin 9 → Fin 512 → Fin 512 → EReal) (co : Fin 512) :
    conv h1 w2 (13 : Fin 16) co = tapSum h1 w2 co (8 : Fin 16) (0 : Fin 9) + tapSum h1 w2 co (9 : Fin 16) (1 : Fin 9) + tapSum h1 w2 co (10 : Fin 16) (2 : Fin 9) + tapSum h1 w2 co (12 : Fin 16) (3 : Fin 9) + tapSum h1 w2 co (13 : Fin 16) (4 : Fin 9) + tapSum h1 w2 co (14 : Fin 16) (5 : Fin 9) := by
  unfold conv tapT
  simp only [if_pos (show valid (13 : Fin 16) (0 : Fin 9) from by decide),
    show nbr (13 : Fin 16) (0 : Fin 9) = (8 : Fin 16) from by decide,
    if_pos (show valid (13 : Fin 16) (1 : Fin 9) from by decide),
    show nbr (13 : Fin 16) (1 : Fin 9) = (9 : Fin 16) from by decide,
    if_pos (show valid (13 : Fin 16) (2 : Fin 9) from by decide),
    show nbr (13 : Fin 16) (2 : Fin 9) = (10 : Fin 16) from by decide,
    if_pos (show valid (13 : Fin 16) (3 : Fin 9) from by decide),
    show nbr (13 : Fin 16) (3 : Fin 9) = (12 : Fin 16) from by decide,
    if_pos (show valid (13 : Fin 16) (4 : Fin 9) from by decide),
    show nbr (13 : Fin 16) (4 : Fin 9) = (13 : Fin 16) from by decide,
    if_pos (show valid (13 : Fin 16) (5 : Fin 9) from by decide),
    show nbr (13 : Fin 16) (5 : Fin 9) = (14 : Fin 16) from by decide,
    if_neg (show ¬ valid (13 : Fin 16) (6 : Fin 9) from by decide),
    if_neg (show ¬ valid (13 : Fin 16) (7 : Fin 9) from by decide),
    if_neg (show ¬ valid (13 : Fin 16) (8 : Fin 9) from by decide),
    add_zero, zero_add]

theorem conv_px14 (h1 : Fin 16 → Fin 512 → EReal) (w2 : Fin 9 → Fin 512 → Fin 512 → EReal) (co : Fin 512) :
    conv h1 w2 (14 : Fin 16) co = tapSum h1 w2 co (9 : Fin 16) (0 : Fin 9) + tapSum h1 w2 co (10 : Fin 16) (1 : Fin 9) + tapSum h1 w2 co (11 : Fin 16) (2 : Fin 9) + tapSum h1 w2 co (13 : Fin 16) (3 : Fin 9) + tapSum h1 w2 co (14 : Fin 16) (4 : Fin 9) + tapSum h1 w2 co (15 : Fin 16) (5 : Fin 9) := by
  unfold conv tapT
  simp only [if_pos (show valid (14 : Fin 16) (0 : Fin 9) from by decide),
    show nbr (14 : Fin 16) (0 : Fin 9) = (9 : Fin 16) from by decide,
    if_pos (show valid (14 : Fin 16) (1 : Fin 9) from by decide),
    show nbr (14 : Fin 16) (1 : Fin 9) = (10 : Fin 16) from by decide,
    if_pos (show valid (14 : Fin 16) (2 : Fin 9) from by decide),
    show nbr (14 : Fin 16) (2 : Fin 9) = (11 : Fin 16) from by decide,
    if_pos (show valid (14 : Fin 16) (3 : Fin 9) from by decide),
    show nbr (14 : Fin 16) (3 : Fin 9) = (13 : Fin 16) from by decide,
    if_pos (show valid (14 : Fin 16) (4 : Fin 9) from by decide),
    show nbr (14 : Fin 16) (4 : Fin 9) = (14 : Fin 16) from by decide,
    if_pos (show valid (14 : Fin 16) (5 : Fin 9) from by decide),
    show nbr (14 : Fin 16) (5 : Fin 9) = (15 : Fin 16) from by decide,
    if_neg (show ¬ valid (14 : Fin 16) (6 : Fin 9) from by decide),
    if_neg (show ¬ valid (14 : Fin 16) (7 : Fin 9) from by decide),
    if_neg (show ¬ valid (14 : Fin 16) (8 : Fin 9) from by decide),
    add_zero, zero_add]

theorem conv_px15 (h1 : Fin 16 → Fin 512 → EReal) (w2 : Fin 9 → Fin 512 → Fin 512 → EReal) (co : Fin 512) :
    conv h1 w2 (15 : Fin 16) co = tapSum h1 w2 co (10 : Fin 16) (0 : Fin 9) + tapSum h1 w2 co (11 : Fin 16) (1 : Fin 9) + tapSum h1 w2 co (14 : Fin 16) (3 : Fin 9) + tapSum h1 w2 co (15 : Fin 16) (4 : Fin 9) := by
  unfold conv tapT
  simp only [if_pos (show valid (15 : Fin 16) (0 : Fin 9) from by decide),
    show nbr (15 : Fin 16) (0 : Fin 9) = (10 : Fin 16) from by decide,
    if_pos (show valid (15 : Fin 16) (1 : Fin 9) from by decide),
    show nbr (15 : Fin 16) (1 : Fin 9) = (11 : Fin 16) from by decide,
    if_neg (show ¬ valid (15 : Fin 16) (2 : Fin 9) from by decide),
    if_pos (show valid (15 : Fin 16) (3 : Fin 9) from by decide),
    show nbr (15 : Fin 16) (3 : Fin 9) = (14 : Fin 16) from by decide,
    if_pos (show valid (15 : Fin 16) (4 : Fin 9) from by decide),
    show nbr (15 : Fin 16) (4 : Fin 9) = (15 : Fin 16) from by decide,
    if_neg (show ¬ valid (15 : Fin 16) (5 : Fin 9) from by decide),
    if_neg (show ¬ valid (15 : Fin 16) (6 : Fin 9) from by decide),
    if_neg (show ¬ valid (15 : Fin 16) (7 : Fin 9) from by decide),
    if_neg (show ¬ valid (15 : Fin 16) (8 : Fin 9) from by decide),
    add_zero, zero_add]

end Cert.Spec

end
-- ==== Proof.KBodyPix.lean ====
/-
  Each output pixel of the block at an entry, and the block as one function.

  Reading the block arrays as the specification's operands — row b of the latent block; the stage-one weight at
  (ci, pixel p, channel o) in column 512·p + o; the bias likewise; the tap stack, the biases and the colour matrix as they
  stand — pixel p's result at row b, colour r is the specification's head for that row. The sixteen results tile the block
  pixel-major, so the block is that one function of its index (pixel, row, colour).
-/
import proofs.«156209_g2000106920163945_pallasbulk_552_2_alg».proof.Proof.KBodyAt
import proofs.«156209_g2000106920163945_pallasbulk_552_2_alg».proof.Proof.KBodyEq
import proofs.«156209_g2000106920163945_pallasbulk_552_2_alg».proof.Proof.SpecConv

set_option maxRecDepth 16384

noncomputable section

open scoped BigOperators

namespace Cert.KernelIdeal.Body

open Idealize.ShloMosaic Idealize.ShloMosaic.TcCoe Idealize.ShloMosaic.ValueIdx Cert.KernelIdeal Cert.KernelIdeal.Gen Cert.Spec

/-- Row b of the latent block. -/
def xrow (x0 : Vec Ideal S256x512 .bf16) (b : Fin 256) : Fin 512 → EReal := fun ci => (x0 (ix2 b ci) : EReal)
/-- The stage-one weight at (ci, pixel p, channel o): column 512·p + o of the position-major matrix. -/
def w1K (x1 : Vec Ideal S512x8192 .bf16) : Fin 512 → Fin 16 → Fin 512 → EReal :=
  fun ci p o => (x1 (ix2 ci (⟨512 * p.val + o.val, by have := p.isLt; have := o.isLt; omega⟩ : Fin 8192)) : EReal)
/-- The stage-one bias at (pixel p, channel o). -/
def b1K (x2 : Vec Ideal S1x8192 .f32) : Fin 16 → Fin 512 → EReal :=
  fun p o => (x2 (ix2 (0 : Fin 1) (⟨512 * p.val + o.val, by have := p.isLt; have := o.isLt; omega⟩ : Fin 8192)) : EReal)
def w2K (x3 : Vec Ideal S9x512x512 .bf16) : Fin 9 → Fin 512 → Fin 512 → EReal := fun t ci co => (x3 (ix3 t ci co) : EReal)
def b2K (x4 : Vec Ideal S1x512 .f32) : Fin 512 → EReal := fun co => (x4 (ix2 (0 : Fin 1) co) : EReal)
def wrK (x5 : Vec Ideal S512x3 .f32) : Fin 512 → Fin 3 → EReal := fun c r => (x5 (ix2 c r) : EReal)
def brK (x6 : Vec Ideal S1x3 .f32) : Fin 3 → EReal := fun r => (x6 (ix2 (0 : Fin 1) r) : EReal)

/-- One tap's product at entry (b, co): neighbour q's contribution through tap t. -/
theorem tap_apply (q : Fin 16) (t : Fin 9) (off k : Nat) (ho : off = 512 * q.val) (hk : k = t.val)
    (hs : S256x8192.Slices ![0, off] S256x512) (inb : ∀ a, (![k, 0, 0] : Fin 3 → Nat) a + S1x512x512.size a ≤ S9x512x512.size a)
    (x0 : Vec Ideal S256x512 .bf16) (x1 : Vec Ideal S512x8192 .bf16) (x2 : Vec Ideal S1x8192 .f32) (x3 : Vec Ideal S9x512x512 .bf16)
    (b : Fin 256) (co : Fin 512) :
    dotT (actAt off hs (stage1 x0 x1 x2)) (wtap k inb x3) (ix2 b co)
      = tapSum (stage (xrow x0 b) (w1K x1) (b1K x2)) (w2K x3) co q t := by
  subst ho hk
  rw [dotT_apply]
  unfold tapSum
  refine Finset.sum_congr rfl fun ci _ => ?_
  rw [actAt_apply _ _ (by have := q.isLt; omega), wtap_apply _ t.isLt]
  refine congrArg₂ (· * ·) (congrArg (fun f => nrm f ci) (funext fun o' => ?_)) rfl
  rw [stage1_apply]
  rfl

theorem piece0_apply (x0 : Vec Ideal S256x512 .bf16) (x1 : Vec Ideal S512x8192 .bf16) (x2 : Vec Ideal S1x8192 .f32) (x3 : Vec Ideal S9x512x512 .bf16) (x4 : Vec Ideal S1x512 .f32) (x5 : Vec Ideal S512x3 .f32) (x6 : Vec Ideal S1x3 .f32) (b : Fin 256) (r : Fin 3) :
    piece0 x0 x1 x2 x3 x4 x5 x6 (ix3 (0 : Fin 1) b r)
      = rowOut (xrow x0 b) (w1K x1) (b1K x2) (w2K x3) (b2K x4) (wrK x5) (brK x6) (0 : Fin 16) r := by
  unfold piece0
  rw [pixOut_apply]
  unfold rowOut head
  refine congrArg (· + _) (Finset.sum_congr rfl fun c _ => ?_)
  refine congrArg (· * _) (congrArg (fun f => nrm f c) (funext fun co => ?_))
  refine congrArg (fun s : EReal => lk (s + _)) ?_
  simp only [List.foldl_cons, List.foldl_nil]
  rw [tap_apply (0 : Fin 16) (4 : Fin 9) 0 4 (by decide) (by decide),
    tap_apply (1 : Fin 16) (5 : Fin 9) 512 5 (by decide) (by decide),
    tap_apply (4 : Fin 16) (7 : Fin 9) 2048 7 (by decide) (by decide),
    tap_apply (5 : Fin 16) (8 : Fin 9) 2560 8 (by decide) (by decide)]
  exact (conv_px0 _ _ co).symm

theorem piece1_apply (x0 : Vec Ideal S256x512 .bf16) (x1 : Vec Ideal S512x8192 .bf16) (x2 : Vec Ideal S1x8192 .f32) (x3 : Vec Ideal S9x512x512 .bf16) (x4 : Vec Ideal S1x512 .f32) (x5 : Vec Ideal S512x3 .f32) (x6 : Vec Ideal S1x3 .f32) (b : Fin 256) (r : Fin 3) :
    piece1 x0 x1 x2 x3 x4 x5 x6 (ix3 (0 : Fin 1) b r)
      = rowOut (xrow x0 b) (w1K x1) (b1K x2) (w2K x3) (b2K x4) (wrK x5) (brK x6) (1 : Fin 16) r := by
  unfold piece1
  rw [pixOut_apply]
  unfold rowOut head
  refine congrArg (· + _) (Finset.sum_congr rfl fun c _ => ?_)
  refine congrArg (· * _) (congrArg (fun f => nrm f c) (funext fun co => ?_))
  refine congrArg (fun s : EReal => lk (s + _)) ?_
  simp only [List.foldl_cons, List.foldl_nil]
  rw [tap_apply (0 : Fin 16) (3 : Fin 9) 0 3 (by decide) (by decide),
    tap_apply (1 : Fin 16) (4 : Fin 9) 512 4 (by decide) (by decide),
    tap_apply (2 : Fin 16) (5 : Fin 9) 1024 5 (by decide) (by decide),
    tap_apply (4 : Fin 16) (6 : Fin 9) 2048 6 (by decide) (by decide),
    tap_apply (5 : Fin 16) (7 : Fin 9) 2560 7 (by decide) (by decide),
    tap_apply (6 : Fin 16) (8 : Fin 9) 3072 8 (by decide) (by decide)]
  exact (conv_px1 _ _ co).symm

theorem piece2_apply (x0 : Vec Ideal S256x512 .bf16) (x1 : Vec Ideal S512x8192 .bf16) (x2 : Vec Ideal S1x8192 .f32) (x3 : Vec Ideal S9x512x512 .bf16) (x4 : Vec Ideal S1x512 .f32) (x5 : Vec Ideal S512x3 .f32) (x6 : Vec Ideal S1x3 .f32) (b : Fin 256) (r : Fin 3) :
    piece2 x0 x1 x2 x3 x4 x5 x6 (ix3 (0 : Fin 1) b r)
      = rowOut (xrow x0 b) (w1K x1) (b1K x2) (w2K x3) (b2K x4) (wrK x5) (brK x6) (2 : Fin 16) r := by
  unfold piece2
  rw [pixOut_apply]
  unfold rowOut head
  refine congrArg (· + _) (Finset.sum_congr rfl fun c _ => ?_)
  refine congrArg (· * _) (congrArg (fun f => nrm f c) (funext fun co => ?_))
  refine congrArg (fun s : EReal => lk (s + _)) ?_
  simp only [List.foldl_cons, List.foldl_nil]
  rw [tap_apply (1 : Fin 16) (3 : Fin 9) 512 3 (by decide) (by decide),
    tap_apply (2 : Fin 16) (4 : Fin 9) 1024 4 (by decide) (by decide),
    tap_apply (3 : Fin 16) (5 : Fin 9) 1536 5 (by decide) (by decide),
    tap_apply (5 : Fin 16) (6 : Fin 9) 2560 6 (by decide) (by decide),
    tap_apply (6 : Fin 16) (7 : Fin 9) 3072 7 (by decide) (by decide),
    tap_apply (7 : Fin 16) (8 : Fin 9) 3584 8 (by decide) (by decide)]
  exact (conv_px2 _ _ co).symm

theorem piece3_apply (x0 : Vec Ideal S256x512 .bf16) (x1 : Vec Ideal S512x8192 .bf16) (x2 : Vec Ideal S1x8192 .f32) (x3 : Vec Ideal S9x512x512 .bf16) (x4 : Vec Ideal S1x512 .f32) (x5 : Vec Ideal S512x3 .f32) (x6 : Vec Ideal S1x3 .f32) (b : Fin 256) (r : Fin 3) :
    piece3 x0 x1 x2 x3 x4 x5 x6 (ix3 (0 : Fin 1) b r)
      = rowOut (xrow x0 b) (w1K x1) (b1K x2) (w2K x3) (b2K x4) (wrK x5) (brK x6) (3 : Fin 16) r := by
  unfold piece3
  rw [pixOut_apply]
  unfold rowOut head
  refine congrArg (· + _) (Finset.sum_congr rfl fun c _ => ?_)
  refine congrArg (· * _) (congrArg (fun f => nrm f c) (funext fun co => ?_))
  refine congrArg (fun s : EReal => lk (s + _)) ?_
  simp only [List.foldl_cons, List.foldl_nil]
  rw [tap_apply (2 : Fin 16) (3 : Fin 9) 1024 3 (by decide) (by decide),
    tap_apply (3 : Fin 16) (4 : Fin 9) 1536 4 (by decide) (by decide),
    tap_apply (6 : Fin 16) (6 : Fin 9) 3072 6 (by decide) (by decide),
    tap_apply (7 : Fin 16) (7 : Fin 9) 3584 7 (by decide) (by decide)]
  exact (conv_px3 _ _ co).symm

theorem piece4_apply (x0 : Vec Ideal S256x512 .bf16) (x1 : Vec Ideal S512x8192 .bf16) (x2 : Vec Ideal S1x8192 .f32) (x3 : Vec Ideal S9x512x512 .bf16) (x4 : Vec Ideal S1x512 .f32) (x5 : Vec Ideal S512x3 .f32) (x6 : Vec Ideal S1x3 .f32) (b : Fin 256) (r : Fin 3) :
    piece4 x0 x1 x2 x3 x4 x5 x6 (ix3 (0 : Fin 1) b r)
      = rowOut (xrow x0 b) (w1K x1) (b1K x2) (w2K x3) (b2K x4) (wrK x5) (brK x6) (4 : Fin 16) r := by
  unfold piece4
  rw [pixOut_apply]
  unfold rowOut head
  refine congrArg (· + _) (Finset.sum_congr rfl fun c _ => ?_)
  refine congrArg (· * _) (congrArg (fun f => nrm f c) (funext fun co => ?_))
  refine congrArg (fun s : EReal => lk (s + _)) ?_
  simp only [List.foldl_cons, List.foldl_nil]
  rw [tap_apply (0 : Fin 16) (1 : Fin 9) 0 1 (by decide) (by decide),
    tap_apply (1 : Fin 16) (2 : Fin 9) 512 2 (by decide) (by decide),
    tap_apply (4 : Fin 16) (4 : Fin 9) 2048 4 (by decide) (by decide),
    tap_apply (5 : Fin 16) (5 : Fin 9) 2560 5 (by decide) (by decide),
    tap_apply (8 : Fin 16) (7 : Fin 9) 4096 7 (by decide) (by decide),
    tap_apply (9 : Fin 16) (8 : Fin 9) 4608 8 (by decide) (by decide)]
  exact (conv_px4 _ _ co).symm

theorem piece5_apply (x0 : Vec Ideal S256x512 .bf16) (x1 : Vec Ideal S512x8192 .bf16) (x2 : Vec Ideal S1x8192 .f32) (x3 : Vec Ideal S9x512x512 .bf16) (x4 : Vec Ideal S1x512 .f32) (x5 : Vec Ideal S512x3 .f32) (x6 : Vec Ideal S1x3 .f32) (b : Fin 256) (r : Fin 3) :
    piece5 x0 x1 x2 x3 x4 x5 x6 (ix3 (0 : Fin 1) b r)
      = rowOut (xrow x0 b) (w1K x1) (b1K x2) (w2K x3) (b2K x4) (wrK x5) (brK x6) (5 : Fin 16) r := by
  unfold piece5
  rw [pixOut_apply]
  unfold rowOut head
  refine congrArg (· + _) (Finset.sum_congr rfl fun c _ => ?_)
  refine congrArg (· * _) (congrArg (fun f => nrm f c) (funext fun co => ?_))
  refine congrArg (fun s : EReal => lk (s + _)) ?_
  simp only [List.foldl_cons, List.foldl_nil]
  rw [tap_apply (0 : Fin 16) (0 : Fin 9) 0 0 (by decide) (by decide),
    tap_apply (1 : Fin 16) (1 : Fin 9) 512 1 (by decide) (by decide),
    tap_apply (2 : Fin 16) (2 : Fin 9) 1024 2 (by decide) (by decide),
    tap_apply (4 : Fin 16) (3 : Fin 9) 2048 3 (by decide) (by decide),
    tap_apply (5 : Fin 16) (4 : Fin 9) 2560 4 (by decide) (by decide),
    tap_apply (6 : Fin 16) (5 : Fin 9) 3072 5 (by decide) (by decide),
    tap_apply (8 : Fin 16) (6 : Fin 9) 4096 6 (by decide) (by decide),
    tap_apply (9 : Fin 16) (7 : Fin 9) 4608 7 (by decide) (by decide),
    tap_apply (10 : Fin 16) (8 : Fin 9) 5120 8 (by decide) (by decide)]
  exact (conv_px5 _ _ co).symm

theorem piece6_apply (x0 : Vec Ideal S256x512 .bf16) (x1 : Vec Ideal S512x8192 .bf16) (x2 : Vec Ideal S1x8192 .f32) (x3 : Vec Ideal S9x512x512 .bf16) (x4 : Vec Ideal S1x512 .f32) (x5 : Vec Ideal S512x3 .f32) (x6 : Vec Ideal S1x3 .f32) (b : Fin 256) (r : Fin 3) :
    piece6 x0 x1 x2 x3 x4 x5 x6 (ix3 (0 : Fin 1) b r)
      = rowOut (xrow x0 b) (w1K x1) (b1K x2) (w2K x3) (b2K x4) (wrK x5) (brK x6) (6 : Fin 16) r := by
  unfold piece6
  rw [pixOut_apply]
  unfold rowOut head
  refine congrArg (· + _) (Finset.sum_congr rfl fun c _ => ?_)
  refine congrArg (· * _) (congrArg (fun f => nrm f c) (funext fun co => ?_))
  refine congrArg (fun s : EReal => lk (s + _)) ?_
  simp only [List.foldl_cons, List.foldl_nil]
  rw [tap_apply (1 : Fin 16) (0 : Fin 9) 512 0 (by decide) (by decide),
    tap_apply (2 : Fin 16) (1 : Fin 9) 1024 1 (by decide) (by decide),
    tap_apply (3 : Fin 16) (2 : Fin 9) 1536 2 (by decide) (by decide),
    tap_apply (5 : Fin 16) (3 : Fin 9) 2560 3 (by decide) (by decide),
    tap_apply (6 : Fin 16) (4 : Fin 9) 3072 4 (by decide) (by decide),
    tap_apply (7 : Fin 16) (5 : Fin 9) 3584 5 (by decide) (by decide),
    tap_apply (9 : Fin 16) (6 : Fin 9) 4608 6 (by decide) (by decide),
    tap_apply (10 : Fin 16) (7 : Fin 9) 5120 7 (by decide) (by decide),
    tap_apply (11 : Fin 16) (8 : Fin 9) 5632 8 (by decide) (by decide)]
  exact (conv_px6 _ _ co).symm

theorem piece7_apply (x0 : Vec Ideal S256x512 .bf16) (x1 : Vec Ideal S512x8192 .bf16) (x2 : Vec Ideal S1x8192 .f32) (x3 : Vec Ideal S9x512x512 .bf16) (x4 : Vec Ideal S1x512 .f32) (x5 : Vec Ideal S512x3 .f32) (x6 : Vec Ideal S1x3 .f32) (b : Fin 256) (r : Fin 3) :
    piece7 x0 x1 x2 x3 x4 x5 x6 (ix3 (0 : Fin 1) b r)
      = rowOut (xrow x0 b) (w1K x1) (b1K x2) (w2K x3) (b2K x4) (wrK x5) (brK x6) (7 : Fin 16) r := by
  unfold piece7
  rw [pixOut_apply]
  unfold rowOut head
  refine congrArg (· + _) (Finset.sum_congr rfl fun c _ => ?_)
  refine congrArg (· * _) (congrArg (fun f => nrm f c) (funext fun co => ?_))
  refine congrArg (fun s : EReal => lk (s + _)) ?_
  simp only [List.foldl_cons, List.foldl_nil]
  rw [tap_apply (2 : Fin 16) (0 : Fin 9) 1024 0 (by decide) (by decide),
    tap_apply (3 : Fin 16) (1 : Fin 9) 1536 1 (by decide) (by decide),
    tap_apply (6 : Fin 16) (3 : Fin 9) 3072 3 (by decide) (by decide),
    tap_apply (7 : Fin 16) (4 : Fin 9) 3584 4 (by decide) (by decide),
    tap_apply (10 : Fin 16) (6 : Fin 9) 5120 6 (by decide) (by decide),
    tap_apply (11 : Fin 16) (7 : Fin 9) 5632 7 (by decide) (by decide)]
  exact (conv_px7 _ _ co).symm

theorem piece8_apply (x0 : Vec Ideal S256x512 .bf16) (x1 : Vec Ideal S512x8192 .bf16) (x2 : Vec Ideal S1x8192 .f32) (x3 : Vec Ideal S9x512x512 .bf16) (x4 : Vec Ideal S1x512 .f32) (x5 : Vec Ideal S512x3 .f32) (x6 : Vec Ideal S1x3 .f32) (b : Fin 256) (r : Fin 3) :
    piece8 x0 x1 x2 x3 x4 x5 x6 (ix3 (0 : Fin 1) b r)
      = rowOut (xrow x0 b) (w1K x1) (b1K x2) (w2K x3) (b2K x4) (wrK x5) (brK x6) (8 : Fin 16) r := by
  unfold piece8
  rw [pixOut_apply]
  unfold rowOut head
  refine congrArg (· + _) (Finset.sum_congr rfl fun c _ => ?_)
  refine congrArg (· * _) (congrArg (fun f => nrm f c) (funext fun co => ?_))
  refine congrArg (fun s : EReal => lk (s + _)) ?_
  simp only [List.foldl_cons, List.foldl_nil]
  rw [tap_apply (4 : Fin 16) (1 : Fin 9) 2048 1 (by decide) (by decide),
    tap_apply (5 : Fin 16) (2 : Fin 9) 2560 2 (by decide) (by decide),
    tap_apply (8 : Fin 16) (4 : Fin 9) 4096 4 (by decide) (by decide),
    tap_apply (9 : Fin 16) (5 : Fin 9) 4608 5 (by decide) (by decide),
    tap_apply (12 : Fin 16) (7 : Fin 9) 6144 7 (by decide) (by decide),
    tap_apply (13 : Fin 16) (8 : Fin 9) 6656 8 (by decide) (by decide)]
  exact (conv_px8 _ _ co).symm

theorem piece9_apply (x0 : Vec Ideal S256x512 .bf16) (x1 : Vec Ideal S512x8192 .bf16) (x2 : Vec Ideal S1x8192 .f32) (x3 : Vec Ideal S9x512x512 .bf16) (x4 : Vec Ideal S1x512 .f32) (x5 : Vec Ideal S512x3 .f32) (x6 : Vec Ideal S1x3 .f32) (b : Fin 256) (r : Fin 3) :
    piece9 x0 x1 x2 x3 x4 x5 x6 (ix3 (0 : Fin 1) b r)
      = rowOut (xrow x0 b) (w1K x1) (b1K x2) (w2K x3) (b2K x4) (wrK x5) (brK x6) (9 : Fin 16) r := by
  unfold piece9
  rw [pixOut_apply]
  unfold rowOut head
  refine congrArg (· + _) (Finset.sum_congr rfl fun c _ => ?_)
  refine congrArg (· * _) (congrArg (fun f => nrm f c) (funext fun co => ?_))
  refine congrArg (fun s : EReal => lk (s + _)) ?_
  simp only [List.foldl_cons, List.foldl_nil]
  rw [tap_apply (4 : Fin 16) (0 : Fin 9) 2048 0 (by decide) (by decide),
    tap_apply (5 : Fin 16) (1 : Fin 9) 2560 1 (by decide) (by decide),
    tap_apply (6 : Fin 16) (2 : Fin 9) 3072 2 (by decide) (by decide),
    tap_apply (8 : Fin 16) (3 : Fin 9) 4096 3 (by decide) (by decide),
    tap_apply (9 : Fin 16) (4 : Fin 9) 4608 4 (by decide) (by decide),
    tap_apply (10 : Fin 16) (5 : Fin 9) 5120 5 (by decide) (by decide),
    tap_apply (12 : Fin 16) (6 : Fin 9) 6144 6 (by decide) (by decide),
    tap_apply (13 : Fin 16) (7 : Fin 9) 6656 7 (by decide) (by decide),
    tap_apply (14 : Fin 16) (8 : Fin 9) 7168 8 (by decide) (by decide)]
  exact (conv_px9 _ _ co).symm

theorem piece10_apply (x0 : Vec Ideal S256x512 .bf16) (x1 : Vec Ideal S512x8192 .bf16) (x2 : Vec Ideal S1x8192 .f32) (x3 : Vec Ideal S9x512x512 .bf16) (x4 : Vec Ideal S1x512 .f32) (x5 : Vec Ideal S512x3 .f32) (x6 : Vec Ideal S1x3 .f32) (b : Fin 256) (r : Fin 3) :
    piece10 x0 x1 x2 x3 x4 x5 x6 (ix3 (0 : Fin 1) b r)
      = rowOut (xrow x0 b) (w1K x1) (b1K x2) (w2K x3) (b2K x4) (wrK x5) (brK x6) (10 : Fin 16) r := by
  unfold piece10
  rw [pixOut_apply]
  unfold rowOut head
  refine congrArg (· + _) (Finset.sum_congr rfl fun c _ => ?_)
  refine congrArg (· * _) (congrArg (fun f => nrm f c) (funext fun co => ?_))
  refine congrArg (fun s : EReal => lk (s + _)) ?_
  simp only [List.foldl_cons, List.foldl_nil]
  rw [tap_apply (5 : Fin 16) (0 : Fin 9) 2560 0 (by decide) (by decide),
    tap_apply (6 : Fin 16) (1 : Fin 9) 3072 1 (by decide) (by decide),
    tap_apply (7 : Fin 16) (2 : Fin 9) 3584 2 (by decide) (by decide),
    tap_apply (9 : Fin 16) (3 : Fin 9) 4608 3 (by decide) (by decide),
    tap_apply (10 : Fin 16) (4 : Fin 9) 5120 4 (by decide) (by decide),
    tap_apply (11 : Fin 16) (5 : Fin 9) 5632 5 (by decide) (by decide),
    tap_apply (13 : Fin 16) (6 : Fin 9) 6656 6 (by decide) (by decide),
    tap_apply (14 : Fin 16) (7 : Fin 9) 7168 7 (by decide) (by decide),
    tap_apply (15 : Fin 16) (8 : Fin 9) 7680 8 (by decide) (by decide)]
  exact (conv_px10 _ _ co).symm

theorem piece11_apply (x0 : Vec Ideal S256x512 .bf16) (x1 : Vec Ideal S512x8192 .bf16) (x2 : Vec Ideal S1x8192 .f32) (x3 : Vec Ideal S9x512x512 .bf16) (x4 : Vec Ideal S1x512 .f32) (x5 : Vec Ideal S512x3 .f32) (x6 : Vec Ideal S1x3 .f32) (b : Fin 256) (r : Fin 3) :
    piece11 x0 x1 x2 x3 x4 x5 x6 (ix3 (0 : Fin 1) b r)
      = rowOut (xrow x0 b) (w1K x1) (b1K x2) (w2K x3) (b2K x4) (wrK x5) (brK x6) (11 : Fin 16) r := by
  unfold piece11
  rw [pixOut_apply]
  unfold rowOut head
  refine congrArg (· + _) (Finset.sum_congr rfl fun c _ => ?_)
  refine congrArg (· * _) (congrArg (fun f => nrm f c) (funext fun co => ?_))
  refine congrArg (fun s : EReal => lk (s + _)) ?_
  simp only [List.foldl_cons, List.foldl_nil]
  rw [tap_apply (6 : Fin 16) (0 : Fin 9) 3072 0 (by decide) (by decide),
    tap_apply (7 : Fin 16) (1 : Fin 9) 3584 1 (by decide) (by decide),
    tap_apply (10 : Fin 16) (3 : Fin 9) 5120 3 (by decide) (by decide),
    tap_apply (11 : Fin 16) (4 : Fin 9) 5632 4 (by decide) (by decide),
    tap_apply (14 : Fin 16) (6 : Fin 9) 7168 6 (by decide) (by decide),
    tap_apply (15 : Fin 16) (7 : Fin 9) 7680 7 (by decide) (by decide)]
  exact (conv_px11 _ _ co).symm

theorem piece12_apply (x0 : Vec Ideal S256x512 .bf16) (x1 : Vec Ideal S512x8192 .bf16) (x2 : Vec Ideal S1x8192 .f32) (x3 : Vec Ideal S9x512x512 .bf16) (x4 : Vec Ideal S1x512 .f32) (x5 : Vec Ideal S512x3 .f32) (x6 : Vec Ideal S1x3 .f32) (b : Fin 256) (r : Fin 3) :
    piece12 x0 x1 x2 x3 x4 x5 x6 (ix3 (0 : Fin 1) b r)
      = rowOut (xrow x0 b) (w1K x1) (b1K x2) (w2K x3) (b2K x4) (wrK x5) (brK x6) (12 : Fin 16) r := by
  unfold piece12
  rw [pixOut_apply]
  unfold rowOut head
  refine congrArg (· + _) (Finset.sum_congr rfl fun c _ => ?_)
  refine congrArg (· * _) (congrArg (fun f => nrm f c) (funext fun co => ?_))
  refine congrArg (fun s : EReal => lk (s + _)) ?_
  simp only [List.foldl_cons, List.foldl_nil]
  rw [tap_apply (8 : Fin 16) (1 : Fin 9) 4096 1 (by decide) (by decide),
    tap_apply (9 : Fin 16) (2 : Fin 9) 4608 2 (by decide) (by decide),
    tap_apply (12 : Fin 16) (4 : Fin 9) 6144 4 (by decide) (by decide),
    tap_apply (13 : Fin 16) (5 : Fin 9) 6656 5 (by decide) (by decide)]
  exact (conv_px12 _ _ co).symm

theorem piece13_apply (x0 : Vec Ideal S256x512 .bf16) (x1 : Vec Ideal S512x8192 .bf16) (x2 : Vec Ideal S1x8192 .f32) (x3 : Vec Ideal S9x512x512 .bf16) (x4 : Vec Ideal S1x512 .f32) (x5 : Vec Ideal S512x3 .f32) (x6 : Vec Ideal S1x3 .f32) (b : Fin 256) (r : Fin 3) :
    piece13 x0 x1 x2 x3 x4 x5 x6 (ix3 (0 : Fin 1) b r)
      = rowOut (xrow x0 b) (w1K x1) (b1K x2) (w2K x3) (b2K x4) (wrK x5) (brK x6) (13 : Fin 16) r := by
  unfold piece13
  rw [pixOut_apply]
  unfold rowOut head
  refine congrArg (· + _) (Finset.sum_congr rfl fun c _ => ?_)
  refine congrArg (· * _) (congrArg (fun f => nrm f c) (funext fun co => ?_))
  refine congrArg (fun s : EReal => lk (s + _)) ?_
  simp only [List.foldl_cons, List.foldl_nil]
  rw [tap_apply (8 : Fin 16) (0 : Fin 9) 4096 0 (by decide) (by decide),
    tap_apply (9 : Fin 16) (1 : Fin 9) 4608 1 (by decide) (by decide),
    tap_apply (10 : Fin 16) (2 : Fin 9) 5120 2 (by decide) (by decide),
    tap_apply (12 : Fin 16) (3 : Fin 9) 6144 3 (by decide) (by decide),
    tap_apply (13 : Fin 16) (4 : Fin 9) 6656 4 (by decide) (by decide),
    tap_apply (14 : Fin 16) (5 : Fin 9) 7168 5 (by decide) (by decide)]
  exact (conv_px13 _ _ co).symm

theorem piece14_apply (x0 : Vec Ideal S256x512 .bf16) (x1 : Vec Ideal S512x8192 .bf16) (x2 : Vec Ideal S1x8192 .f32) (x3 : Vec Ideal S9x512x512 .bf16) (x4 : Vec Ideal S1x512 .f32) (x5 : Vec Ideal S512x3 .f32) (x6 : Vec Ideal S1x3 .f32) (b : Fin 256) (r : Fin 3) :
    piece14 x0 x1 x2 x3 x4 x5 x6 (ix3 (0 : Fin 1) b r)
      = rowOut (xrow x0 b) (w1K x1) (b1K x2) (w2K x3) (b2K x4) (wrK x5) (brK x6) (14 : Fin 16) r := by
  unfold piece14
  rw [pixOut_apply]
  unfold rowOut head
  refine congrArg (· + _) (Finset.sum_congr rfl fun c _ => ?_)
  refine congrArg (· * _) (congrArg (fun f => nrm f c) (funext fun co => ?_))
  refine congrArg (fun s : EReal => lk (s + _)) ?_
  simp only [List.foldl_cons, List.foldl_nil]
  rw [tap_apply (9 : Fin 16) (0 : Fin 9) 4608 0 (by decide) (by decide),
    tap_apply (10 : Fin 16) (1 : Fin 9) 5120 1 (by decide) (by decide),
    tap_apply (11 : Fin 16) (2 : Fin 9) 5632 2 (by decide) (by decide),
    tap_apply (13 : Fin 16) (3 : Fin 9) 6656 3 (by decide) (by decide),
    tap_apply (14 : Fin 16) (4 : Fin 9) 7168 4 (by decide) (by decide),
    tap_apply (15 : Fin 16) (5 : Fin 9) 7680 5 (by decide) (by decide)]
  exact (conv_px14 _ _ co).symm

theorem piece15_apply (x0 : Vec Ideal S256x512 .bf16) (x1 : Vec Ideal S512x8192 .bf16) (x2 : Vec Ideal S1x8192 .f32) (x3 : Vec Ideal S9x512x512 .bf16) (x4 : Vec Ideal S1x512 .f32) (x5 : Vec Ideal S512x3 .f32) (x6 : Vec Ideal S1x3 .f32) (b : Fin 256) (r : Fin 3) :
    piece15 x0 x1 x2 x3 x4 x5 x6 (ix3 (0 : Fin 1) b r)
      = rowOut (xrow x0 b) (w1K x1) (b1K x2) (w2K x3) (b2K x4) (wrK x5) (brK x6) (15 : Fin 16) r := by
  unfold piece15
  rw [pixOut_apply]
  unfold rowOut head
  refine congrArg (· + _) (Finset.sum_congr rfl fun c _ => ?_)
  refine congrArg (· * _) (congrArg (fun f => nrm f c) (funext fun co => ?_))
  refine congrArg (fun s : EReal => lk (s + _)) ?_
  simp only [List.foldl_cons, List.foldl_nil]
  rw [tap_apply (10 : Fin 16) (0 : Fin 9) 5120 0 (by decide) (by decide),
    tap_apply (11 : Fin 16) (1 : Fin 9) 5632 1 (by decide) (by decide),
    tap_apply (14 : Fin 16) (3 : Fin 9) 7168 3 (by decide) (by decide),
    tap_apply (15 : Fin 16) (4 : Fin 9) 7680 4 (by decide) (by decide)]
  exact (conv_px15 _ _ co).symm

/-- The block as one function of (pixel, row, colour). -/
def blockG (x0 : Vec Ideal S256x512 .bf16) (x1 : Vec Ideal S512x8192 .bf16) (x2 : Vec Ideal S1x8192 .f32) (x3 : Vec Ideal S9x512x512 .bf16) (x4 : Vec Ideal S1x512 .f32) (x5 : Vec Ideal S512x3 .f32) (x6 : Vec Ideal S1x3 .f32) : S16x256x3.Idx → EReal :=
  fun y => rowOut (xrow x0 (y 1)) (w1K x1) (b1K x2) (w2K x3) (b2K x4) (wrK x5) (brK x6) (y 0) (y 2)

/-- A pixel's slab, placed at its position in the block, is the block function there. -/
theorem slab_at (x0 : Vec Ideal S256x512 .bf16) (x1 : Vec Ideal S512x8192 .bf16) (x2 : Vec Ideal S1x8192 .f32) (x3 : Vec Ideal S9x512x512 .bf16) (x4 : Vec Ideal S1x512 .f32) (x5 : Vec Ideal S512x3 .f32) (x6 : Vec Ideal S1x3 .f32) (k : Nat) (hk : k < 16)
    (inb : ∀ a, (![k, 0, 0] : Fin 3 → Nat) a + S1x256x3.size a ≤ S16x256x3.size a) (P : FVec Ideal S1x256x3 .f32)
    (h : ∀ (b : Fin 256) (r : Fin 3), (P (ix3 (0 : Fin 1) b r) : EReal)
      = rowOut (xrow x0 b) (w1K x1) (b1K x2) (w2K x3) (b2K x4) (wrK x5) (brK x6) (⟨k, hk⟩ : Fin 16) r)
    (x : S1x256x3.Idx) :
    (P x : EReal) = blockG x0 x1 x2 x3 x4 x5 x6 ((Rect.unit (s := S16x256x3) ![k, 0, 0] S1x256x3.size inb).emb x) := by
  obtain ⟨u, b, r, rfl⟩ : ∃ (u : Fin 1) (b : Fin 256) (r : Fin 3), x = ix3 u b r := ⟨x 0, x 1, x 2, eq_ix3 x⟩
  obtain rfl : u = 0 := Subsingleton.elim _ _
  rw [h b r]
  unfold blockG
  have e0 : ((Rect.unit (s := S16x256x3) ![k, 0, 0] S1x256x3.size inb).emb (ix3 (0 : Fin 1) b r)) 0 = (⟨k, hk⟩ : Fin 16) :=
    Fin.ext (by show k + 1 * 0 = k; omega)
  have e1 : ((Rect.unit (s := S16x256x3) ![k, 0, 0] S1x256x3.size inb).emb (ix3 (0 : Fin 1) b r)) 1 = b :=
    Fin.ext (by show 0 + 1 * b.val = b.val; omega)
  have e2 : ((Rect.unit (s := S16x256x3) ![k, 0, 0] S1x256x3.size inb).emb (ix3 (0 : Fin 1) b r)) 2 = r :=
    Fin.ext (by show 0 + 1 * r.val = r.val; omega)
  rw [e0, e1, e2]

/-- What the body leaves in the output block: the block function. -/
theorem out_block (x0 : Vec Ideal S256x512 .bf16) (x1 : Vec Ideal S512x8192 .bf16) (x2 : Vec Ideal S1x8192 .f32) (x3 : Vec Ideal S9x512x512 .bf16) (x4 : Vec Ideal S1x512 .f32) (x5 : Vec Ideal S512x3 .f32) (x6 : Vec Ideal S1x3 .f32) :
    out0_7 x0 x1 x2 x3 x4 x5 x6 = blockG x0 x1 x2 x3 x4 x5 x6 := by
  funext y
  rw [out_eq]
  refine View.canon_apply_of_pieces (Val := Elt Ideal) (e := .f32) (show S16x256x3.Idx → Elt Ideal .f32 from blockG x0 x1 x2 x3 x4 x5 x6) _ ?_ y (cover0_7 _ _ _ _ _ _ _ _ _ _ _ _ _ _ _ _ y)
  intro pc hpc x
  simp only [List.mem_cons, List.mem_nil_iff, or_false] at hpc
  rcases hpc with rfl | rfl | rfl | rfl | rfl | rfl | rfl | rfl | rfl | rfl | rfl | rfl | rfl | rfl | rfl | rfl
  · exact slab_at x0 x1 x2 x3 x4 x5 x6 15 (by decide) inb_S16x256x3_S1x256x3_15_0_0 _ (piece15_apply x0 x1 x2 x3 x4 x5 x6) x
  · exact slab_at x0 x1 x2 x3 x4 x5 x6 14 (by decide) inb_S16x256x3_S1x256x3_14_0_0 _ (piece14_apply x0 x1 x2 x3 x4 x5 x6) x
  · exact slab_at x0 x1 x2 x3 x4 x5 x6 13 (by decide) inb_S16x256x3_S1x256x3_13_0_0 _ (piece13_apply x0 x1 x2 x3 x4 x5 x6) x
  · exact slab_at x0 x1 x2 x3 x4 x5 x6 12 (by decide) inb_S16x256x3_S1x256x3_12_0_0 _ (piece12_apply x0 x1 x2 x3 x4 x5 x6) x
  · exact slab_at x0 x1 x2 x3 x4 x5 x6 11 (by decide) inb_S16x256x3_S1x256x3_11_0_0 _ (piece11_apply x0 x1 x2 x3 x4 x5 x6) x
  · exact slab_at x0 x1 x2 x3 x4 x5 x6 10 (by decide) inb_S16x256x3_S1x256x3_10_0_0 _ (piece10_apply x0 x1 x2 x3 x4 x5 x6) x
  · exact slab_at x0 x1 x2 x3 x4 x5 x6 9 (by decide) inb_S16x256x3_S1x256x3_9_0_0 _ (piece9_apply x0 x1 x2 x3 x4 x5 x6) x
  · exact slab_at x0 x1 x2 x3 x4 x5 x6 8 (by decide) inb_S16x256x3_S1x256x3_8_0_0 _ (piece8_apply x0 x1 x2 x3 x4 x5 x6) x
  · exact slab_at x0 x1 x2 x3 x4 x5 x6 7 (by decide) inb_S16x256x3_S1x256x3_7_0_0 _ (piece7_apply x0 x1 x2 x3 x4 x5 x6) x
  · exact slab_at x0 x1 x2 x3 x4 x5 x6 6 (by decide) inb_S16x256x3_S1x256x3_6_0_0 _ (piece6_apply x0 x1 x2 x3 x4 x5 x6) x
  · exact slab_at x0 x1 x2 x3 x4 x5 x6 5 (by decide) inb_S16x256x3_S1x256x3_5_0_0 _ (piece5_apply x0 x1 x2 x3 x4 x5 x6) x
  · exact slab_at x0 x1 x2 x3 x4 x5 x6 4 (by decide) inb_S16x256x3_S1x256x3_4_0_0 _ (piece4_apply x0 x1 x2 x3 x4 x5 x6) x
  · exact slab_at x0 x1 x2 x3 x4 x5 x6 3 (by decide) inb_S16x256x3_S1x256x3_3_0_0 _ (piece3_apply x0 x1 x2 x3 x4 x5 x6) x
  · exact slab_at x0 x1 x2 x3 x4 x5 x6 2 (by decide) inb_S16x256x3_S1x256x3_2_0_0 _ (piece2_apply x0 x1 x2 x3 x4 x5 x6) x
  · exact slab_at x0 x1 x2 x3 x4 x5 x6 1 (by decide) inb_S16x256x3_S1x256x3_1_0_0 _ (piece1_apply x0 x1 x2 x3 x4 x5 x6) x
  · exact slab_at x0 x1 x2 x3 x4 x5 x6 0 (by decide) inb_S16x256x3_S1x256x3_0_0_0 _ (piece0_apply x0 x1 x2 x3 x4 x5 x6) x

end Cert.KernelIdeal.Body

end
-- ==== Proof.KHost.lean ====
/-
  The host side of the kernel program, read entry by entry.

  Before its one region the program re-lays its seven argument arrays with reshapes, transposes, a reversal of the
  two spatial axes, broadcasts and products with three scalar constants; after the region it re-lays the region's
  output array with a transpose and a reshape. None of these operations computes anything but a product with a
  constant, so each array the region finds, read at one index, is ONE entry of ONE argument array (times a constant),
  and each entry of the final result is ONE entry of the region's output. This module states those index
  correspondences, all at the ideal instance, where a change of float format is the identity.

  Conventions: a flat coordinate of extent 8192 is written p * 512 + o with p : Fin 16 (the pixel of the 4 × 4 image,
  row-major) and o : Fin 512 (the output channel); a flat tap t : Fin 9 of the 3 × 3 stencil is row t / 3, column t % 3;
  a flat pixel i * 4 + j is row i, column j.
-/
import proofs.«156209_g2000106920163945_pallasbulk_552_2_alg».proof.Proof.Gen.KernelIdeal.Frame
import Idealize.ShloMosaic.Lib.ValueIdx
import Idealize.ShloMosaic.Lib.Pipeline.Value

set_option maxRecDepth 16384

noncomputable section

namespace Cert.KernelIdeal.HostSide

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

/-! ## The argument arrays as launched, and the three scalar constants -/

/-- The input x, [1024, 512, 1, 1]. -/
abbrev arg0 : S1024x512x1x1.Idx → EReal := m ((c : Thread nD τ).loc main_arg0)
/-- The 4 × 4 transposed-convolution weight, [in 512, out 512, 4, 4]. -/
abbrev arg1 : S512x512x4x4.Idx → EReal := m ((c : Thread nD τ).loc main_arg1)
/-- The first bias, [512]. -/
abbrev arg2 : S512.Idx → EReal := m ((c : Thread nD τ).loc main_arg2)
/-- The 3 × 3 convolution weight, [out 512, in 512, 3, 3]. -/
abbrev arg3 : S512x512x3x3.Idx → EReal := m ((c : Thread nD τ).loc main_arg3)
/-- The second bias, [512]. -/
abbrev arg4 : S512.Idx → EReal := m ((c : Thread nD τ).loc main_arg4)
/-- The 1 × 1 convolution weight, [3, 512, 1, 1]. -/
abbrev arg5 : S3x512x1x1.Idx → EReal := m ((c : Thread nD τ).loc main_arg5)
/-- The third bias, [3]. -/
abbrev arg6 : S3.Idx → EReal := m ((c : Thread nD τ).loc main_arg6)

/-- The scale of the first weight, as the extended real its word encodes. -/
abbrev s1 : EReal := Ideal.ofBits .f32 0x3C800000#32
/-- The scale of the second weight. -/
abbrev s2 : EReal := Ideal.ofBits .f32 0x3CAAAAAB#32
/-- The scale of the third weight. -/
abbrev s3 : EReal := Ideal.ofBits .f32 0x3D800000#32

/-! ## The input rows: x viewed [1024, 512] -/

/-- The array of input rows is x with its two unit axes dropped (and a format change, the identity here). -/
theorem v23_term : @Eq (S1024x512.Idx → EReal) (Gen.V (F := Ideal) m c main_v23)
    (truncf (F := Ideal) (φ := .f32) .bf16 (shapeCast S1024x512 (arg0 m c) shapeCasts_S1024x512x1x1_S1024x512) bitsLt_bf16_f32) := by
  dsimp only [Gen.V, Gen.V0]
  simp only [Gen.hostOps0, Gen.hostOps0_1, List.flatten_cons, List.flatten_nil, List.append_nil, List.cons_append, List.nil_append]
  after_results
  rfl

/-- Row n, channel ci of the input rows is x[n, ci, 0, 0]. -/
theorem v23_at (n : Fin 1024) (ci : Fin 512) :
    (Gen.V (F := Ideal) m c main_v23 : S1024x512.Idx → EReal) (ix2 n ci) = arg0 m c (ix4 n ci 0 0) := by
  rw [v23_term, truncf_apply]
  refine shapeCast_apply _ _ (ix2 n ci) (ix4 n ci 0 0) ?_
  rw [Shape.rowMajor_val_four, Shape.rowMajor_val_two]
  show ((n.val * 512 + ci.val) * 1 + 0) * 1 + 0 = n.val * 512 + ci.val
  omega

/-! ## The second and third biases as rows -/

/-- The second bias viewed [1, 512]. -/
theorem v16_term : @Eq (S1x512.Idx → EReal) (Gen.V (F := Ideal) m c main_v16)
    (shapeCast S1x512 (arg4 m c) shapeCasts_S512_S1x512) := by
  dsimp only [Gen.V, Gen.V0]
  simp only [Gen.hostOps0, Gen.hostOps0_1, List.flatten_cons, List.flatten_nil, List.append_nil, List.cons_append, List.nil_append]
  after_results
  rfl

/-- Its entry (0, co) is the bias at co. -/
theorem v16_at (co : Fin 512) :
    (Gen.V (F := Ideal) m c main_v16 : S1x512.Idx → EReal) (ix2 0 co) = arg4 m c (ix1 co) := by
  rw [v16_term]
  refine shapeCast_apply _ _ (ix2 0 co) (ix1 co) ?_
  rw [Shape.rowMajor_val_one, Shape.rowMajor_val_two]
  show co.val = 0 * 512 + co.val
  omega

/-- The third bias viewed [1, 3]. -/
theorem v21_term : @Eq (S1x3.Idx → EReal) (Gen.V (F := Ideal) m c main_v21)
    (shapeCast S1x3 (arg6 m c) shapeCasts_S3_S1x3) := by
  dsimp only [Gen.V, Gen.V0]
  simp only [Gen.hostOps0, Gen.hostOps0_1, List.flatten_cons, List.flatten_nil, List.append_nil, List.cons_append, List.nil_append]
  after_results
  rfl

/-- Its entry (0, r) is the bias at r. -/
theorem v21_at (r : Fin 3) :
    (Gen.V (F := Ideal) m c main_v21 : S1x3.Idx → EReal) (ix2 0 r) = arg6 m c (ix1 r) := by
  rw [v21_term]
  refine shapeCast_apply _ _ (ix2 0 r) (ix1 r) ?_
  rw [Shape.rowMajor_val_one, Shape.rowMajor_val_two]
  show r.val = 0 * 3 + r.val
  omega

/-! ## The first bias, repeated over the 16 pixels -/

/-- The first bias broadcast over 16 pixels and flattened to [1, 8192]. -/
theorem v10_term : @Eq (S1x8192.Idx → EReal) (Gen.V (F := Ideal) m c main_v10)
    (shapeCast S1x8192 (shapeCast S8192 (broadcastInDim S16x512 ![0, 1] bcast_S1x512_S16x512_0_1
      (shapeCast S1x512 (arg2 m c) shapeCasts_S512_S1x512)) shapeCasts_S16x512_S8192) shapeCasts_S8192_S1x8192) := by
  dsimp only [Gen.V, Gen.V0]
  simp only [Gen.hostOps0, Gen.hostOps0_1, List.flatten_cons, List.flatten_nil, List.append_nil, List.cons_append, List.nil_append]
  after_results
  rfl

/-- At pixel p, channel o it is the bias at o, whatever the pixel. -/
theorem v10_at (p : Fin 16) (o : Fin 512) (h : p.val * 512 + o.val < 8192) :
    (Gen.V (F := Ideal) m c main_v10 : S1x8192.Idx → EReal) (ix2 0 ⟨p.val * 512 + o.val, h⟩) = arg2 m c (ix1 o) := by
  rw [v10_term]
  refine (shapeCast_apply _ _ (ix2 0 ⟨p.val * 512 + o.val, h⟩) (ix1 ⟨p.val * 512 + o.val, h⟩) ?_).trans ?_
  · rw [Shape.rowMajor_val_one, Shape.rowMajor_val_two]
    show p.val * 512 + o.val = 0 * 8192 + (p.val * 512 + o.val)
    omega
  refine (shapeCast_apply _ _ (ix1 ⟨p.val * 512 + o.val, h⟩) (ix2 p o) ?_).trans ?_
  · rw [Shape.rowMajor_val_one, Shape.rowMajor_val_two]
    rfl
  refine (broadcastInDim_apply _ _ _ (ix2 p o) (ix2 0 o) ?_).trans ?_
  · intro a
    match a with
    | ⟨0, _⟩ => rfl
    | ⟨1, _⟩ => rfl
  refine shapeCast_apply _ _ (ix2 0 o) (ix1 o) ?_
  rw [Shape.rowMajor_val_one, Shape.rowMajor_val_two]
  show o.val = 0 * 512 + o.val
  omega

/-! ## The 1 × 1 weight, scaled and transposed to [512, 3] -/

/-- The third weight viewed [3, 512], times its scale, transposed. -/
theorem v20_term : @Eq (S512x3.Idx → EReal) (Gen.V (F := Ideal) m c main_v20)
    (transpose S512x3 [1, 0] (mulf (F := Ideal) (φ := .f32) (shapeCast S3x512 (arg5 m c) shapeCasts_S3x512x1x1_S3x512)
      (broadcastInDim S3x512 ![] bcast_S_S3x512 (constant (F := Ideal) S_ .f32 0x3D800000#32))) transposes_S3x512_S512x3_1_0) := by
  dsimp only [Gen.V, Gen.V0]
  simp only [Gen.hostOps0, Gen.hostOps0_1, List.flatten_cons, List.flatten_nil, List.append_nil, List.cons_append, List.nil_append]
  after_results
  rfl

/-- Input channel cc, output channel r: the weight at [r, cc, 0, 0] times its scale. -/
theorem v20_at (cc : Fin 512) (r : Fin 3) :
    (Gen.V (F := Ideal) m c main_v20 : S512x3.Idx → EReal) (ix2 cc r) = arg5 m c (ix4 r cc 0 0) * s3 := by
  rw [v20_term]
  refine (transpose_apply _ _ _ (ix2 cc r) (ix2 r cc) ?_).trans ?_
  · intro b
    match b with
    | ⟨0, _⟩ => rfl
    | ⟨1, _⟩ => rfl
  rw [mulf_apply]
  refine congrArg₂ (· * ·) ?_ rfl
  refine shapeCast_apply _ _ (ix2 r cc) (ix4 r cc 0 0) ?_
  rw [Shape.rowMajor_val_four, Shape.rowMajor_val_two]
  show ((r.val * 512 + cc.val) * 1 + 0) * 1 + 0 = r.val * 512 + cc.val
  omega

/-! ## The 3 × 3 weight, scaled, taps first: [9, in, out] -/

/-- The second weight times its scale, its axes permuted to [3, 3, in, out], the two tap axes merged. -/
theorem v15_term : @Eq (S9x512x512.Idx → EReal) (Gen.V (F := Ideal) m c main_v15)
    (truncf (F := Ideal) (φ := .f32) .bf16 (shapeCast S9x512x512 (transpose S3x3x512x512 [2, 3, 1, 0]
      (mulf (F := Ideal) (φ := .f32) (arg3 m c)
        (broadcastInDim S512x512x3x3 ![] bcast_S_S512x512x3x3 (constant (F := Ideal) S_ .f32 0x3CAAAAAB#32)))
      transposes_S512x512x3x3_S3x3x512x512_2_3_1_0) shapeCasts_S3x3x512x512_S9x512x512) bitsLt_bf16_f32) := by
  dsimp only [Gen.V, Gen.V0]
  simp only [Gen.hostOps0, Gen.hostOps0_1, List.flatten_cons, List.flatten_nil, List.append_nil, List.cons_append, List.nil_append]
  after_results
  rfl

/-- Tap t, input channel ci, output channel co: the weight at [co, ci, t / 3, t % 3] times its scale. -/
theorem v15_at (t : Fin 9) (ci co : Fin 512) (h3 : t.val / 3 < 3) (h3' : t.val % 3 < 3) :
    (Gen.V (F := Ideal) m c main_v15 : S9x512x512.Idx → EReal) (ix3 t ci co)
      = arg3 m c (ix4 co ci ⟨t.val / 3, h3⟩ ⟨t.val % 3, h3'⟩) * s2 := by
  rw [v15_term, truncf_apply]
  refine (shapeCast_apply _ _ (ix3 t ci co) (ix4 ⟨t.val / 3, h3⟩ ⟨t.val % 3, h3'⟩ ci co) ?_).trans ?_
  · rw [Shape.rowMajor_val_four, Shape.rowMajor_val_three]
    show (((t.val / 3) * 3 + t.val % 3) * 512 + ci.val) * 512 + co.val = (t.val * 512 + ci.val) * 512 + co.val
    have : (t.val / 3) * 3 + t.val % 3 = t.val := by omega
    rw [this]
  refine (transpose_apply _ _ _ (ix4 ⟨t.val / 3, h3⟩ ⟨t.val % 3, h3'⟩ ci co) (ix4 co ci ⟨t.val / 3, h3⟩ ⟨t.val % 3, h3'⟩) ?_).trans ?_
  · intro b
    match b with
    | ⟨0, _⟩ => rfl
    | ⟨1, _⟩ => rfl
    | ⟨2, _⟩ => rfl
    | ⟨3, _⟩ => rfl
  rw [mulf_apply]
  exact congrArg₂ (· * ·) rfl rfl

/-! ## The 4 × 4 weight, flipped, scaled, [in, pixel * 512 + out] -/

/-- The first weight with both spatial axes reversed, times its scale, the spatial axes merged into a pixel axis, the
    axes permuted to [in, pixel, out], pixel and out merged. -/
theorem v6_term : @Eq (S512x8192.Idx → EReal) (Gen.V (F := Ideal) m c main_v6)
    (truncf (F := Ideal) (φ := .f32) .bf16 (shapeCast S512x8192 (transpose S512x16x512 [1, 2, 0]
      (shapeCast S512x512x16 (mulf (F := Ideal) (φ := .f32) (Host.reverse [2, 3] (arg1 m c))
        (broadcastInDim S512x512x4x4 ![] bcast_S_S512x512x4x4 (constant (F := Ideal) S_ .f32 0x3C800000#32)))
        shapeCasts_S512x512x4x4_S512x512x16)
      transposes_S512x512x16_S512x16x512_1_2_0) shapeCasts_S512x16x512_S512x8192) bitsLt_bf16_f32) := by
  dsimp only [Gen.V, Gen.V0]
  simp only [Gen.hostOps0, Gen.hostOps0_1, List.flatten_cons, List.flatten_nil, List.append_nil, List.cons_append, List.nil_append]
  after_results
  rfl

/-- Input channel ci, pixel p, output channel o: the weight at [o, ci, 3 - p / 4, 3 - p % 4] times its scale. -/
theorem v6_at (ci o : Fin 512) (p : Fin 16) (h : p.val * 512 + o.val < 8192) (h4 : 3 - p.val / 4 < 4) (h4' : 3 - p.val % 4 < 4) :
    (Gen.V (F := Ideal) m c main_v6 : S512x8192.Idx → EReal) (ix2 ci ⟨p.val * 512 + o.val, h⟩)
      = arg1 m c (ix4 o ci ⟨3 - p.val / 4, h4⟩ ⟨3 - p.val % 4, h4'⟩) * s1 := by
  have hq : p.val / 4 < 4 := by have := p.isLt; omega
  have hr : p.val % 4 < 4 := by omega
  rw [v6_term, truncf_apply]
  refine (shapeCast_apply _ _ (ix2 ci ⟨p.val * 512 + o.val, h⟩) (ix3 ci p o) ?_).trans ?_
  · rw [Shape.rowMajor_val_three, Shape.rowMajor_val_two]
    show (ci.val * 16 + p.val) * 512 + o.val = ci.val * 8192 + (p.val * 512 + o.val)
    omega
  refine (transpose_apply _ _ _ (ix3 ci p o) (ix3 o ci p) ?_).trans ?_
  · intro b
    match b with
    | ⟨0, _⟩ => rfl
    | ⟨1, _⟩ => rfl
    | ⟨2, _⟩ => rfl
  refine (shapeCast_apply _ _ (ix3 o ci p) (ix4 o ci ⟨p.val / 4, hq⟩ ⟨p.val % 4, hr⟩) ?_).trans ?_
  · rw [Shape.rowMajor_val_four, Shape.rowMajor_val_three]
    show ((o.val * 512 + ci.val) * 4 + p.val / 4) * 4 + p.val % 4 = (o.val * 512 + ci.val) * 16 + p.val
    omega
  rw [mulf_apply]
  refine congrArg₂ (· * ·) ?_ rfl
  unfold Host.reverse
  refine congrArg (arg1 m c) (funext fun a => Fin.ext ?_)
  match a with
  | ⟨0, _⟩ => rfl
  | ⟨1, _⟩ => rfl
  | ⟨2, _⟩ =>
    show 4 - (p.val / 4 + 1) = 3 - p.val / 4
    omega
  | ⟨3, _⟩ =>
    show 4 - (p.val % 4 + 1) = 3 - p.val % 4
    omega

/-! ## After the region: the output array [pixel, row, channel] re-laid as [row, channel, 4, 4] -/

/-- The region's output array after the run, [16, 1024, 3]. -/
abbrev O : S16x1024x3.Idx → EReal := (Gen.dats (F := Ideal) m 0 c).arrAt 7 cfg0.N

/-- The final result is the output array with its pixel axis moved last and split into 4 × 4. -/
theorem v26_term : @Eq (S1024x3x4x4.Idx → EReal)
    (Pipeline.afterTail₀ cfgs (Gen.dats (F := Ideal) m) 0 (Gen.V0 m) [Gen.hostOps1] c main_v26)
    (shapeCast S1024x3x4x4 (transpose S1024x3x16 [1, 2, 0] (O m c) transposes_S16x1024x3_S1024x3x16_1_2_0)
      shapeCasts_S1024x3x16_S1024x3x4x4) := by
  unfold Pipeline.afterTail₀
  show StableHlo.after Gen.hostOps1 _ (Proc.devRef .tc main_v26) = _
  after_results
  have e : @Eq (S16x1024x3.Idx → EReal)
      (Pipeline.withArrays (cfgs 0).spec c (Gen.V0 m c) (fun w => (Gen.dats (F := Ideal) m 0 c).arrAt w (cfgs 0).N)
        (Proc.devRef .tc main_v24)) (O m c) :=
    Pipeline.withArrays_arr spec0 launch0.win.arr_inj c _ _ 7
  exact congrArg (fun X : S16x1024x3.Idx → EReal =>
    shapeCast S1024x3x4x4 (transpose S1024x3x16 [1, 2, 0] X transposes_S16x1024x3_S1024x3x16_1_2_0)
      shapeCasts_S1024x3x16_S1024x3x4x4) e

/-- Row n, channel r, image position (i, j) of the final result is the output array at pixel i * 4 + j, row n, channel r. -/
theorem tail_at (n : Fin 1024) (r : Fin 3) (i j : Fin 4) (h : i.val * 4 + j.val < 16) :
    (Pipeline.afterTail₀ cfgs (Gen.dats (F := Ideal) m) 0 (Gen.V0 m) [Gen.hostOps1] c main_v26 : S1024x3x4x4.Idx → EReal)
      (ix4 n r i j) = O m c (ix3 ⟨i.val * 4 + j.val, h⟩ n r) := by
  rw [v26_term]
  refine (shapeCast_apply _ _ (ix4 n r i j) (ix3 n r ⟨i.val * 4 + j.val, h⟩) ?_).trans ?_
  · rw [Shape.rowMajor_val_four, Shape.rowMajor_val_three]
    show (n.val * 3 + r.val) * 16 + (i.val * 4 + j.val) = ((n.val * 3 + r.val) * 4 + i.val) * 4 + j.val
    omega
  refine transpose_apply _ _ _ (ix3 n r ⟨i.val * 4 + j.val, h⟩) (ix3 ⟨i.val * 4 + j.val, h⟩ n r) ?_
  intro b
  match b with
  | ⟨0, _⟩ => rfl
  | ⟨1, _⟩ => rfl
  | ⟨2, _⟩ => rfl

/-- A position of the 4 × 4 image as a flat pixel is below 16. -/
theorem pix_lt (idx : S1024x3x4x4.Idx) : (idx 2).val * 4 + (idx 3).val < 16 := by
  have h2 : (idx 2).val < 4 := (idx 2).isLt
  have h3 : (idx 3).val < 4 := (idx 3).isLt
  omega

/-- The same for the whole buffer. -/
theorem tail_eq : @Eq (S1024x3x4x4.Idx → EReal)
    (Pipeline.afterTail₀ cfgs (Gen.dats (F := Ideal) m) 0 (Gen.V0 m) [Gen.hostOps1] c main_v26)
    (fun idx => O m c (ix3 ⟨(idx 2).val * 4 + (idx 3).val, pix_lt idx⟩ (idx 0) (idx 1))) := by
  funext idx
  have e := tail_at m c (idx 0) (idx 1) (idx 2) (idx 3) (pix_lt idx)
  exact (congrArg (Pipeline.afterTail₀ cfgs (Gen.dats (F := Ideal) m) 0 (Gen.V0 m) [Gen.hostOps1] c main_v26 : S1024x3x4x4.Idx → EReal)
    (eq_ix4 idx)).trans e

end Cert.KernelIdeal.HostSide

end
-- ==== Proof.SpecArgs.lean ====
/-
  The specification over the seven argument arrays.

  x : 1024 × 512 × 1 × 1 latents; w1 : 512 × 512 × 4 × 4 (out, in, kh, kw), used flipped — output pixel (i, j) of the 4 × 4
  transposed convolution of a 1 × 1 input reads tap (3 − i, 3 − j) — and scaled by s1; w2 : 512 × 512 × 3 × 3 (out, in, kh, kw)
  scaled by s2, tap t = 3·kh + kw; the colour weights 3 × 512 × 1 × 1 scaled by s3; three bias vectors. Entry
  (n, r, i, j) of the result is the head's colour r at pixel 4·i + j for latent row n.
-/
import proofs.«156209_g2000106920163945_pallasbulk_552_2_alg».proof.Proof.Spec

noncomputable section

namespace Cert.Spec

open Idealize.ShloMosaic Idealize.ShloMosaic.ValueIdx

/-- The three equalised-learning-rate scales, as the programs' words denote them. -/
def s1 : EReal := Ideal.ofBits .f32 0x3C800000#32
def s2 : EReal := Ideal.ofBits .f32 0x3CAAAAAB#32
def s3 : EReal := Ideal.ofBits .f32 0x3D800000#32

def xA (a0 : (⟨4, ![1024, 512, 1, 1]⟩ : Shape).Idx → EReal) (n : Fin 1024) : Fin 512 → EReal :=
  fun ci => a0 (ix4 n ci (0 : Fin 1) (0 : Fin 1))

def w1A (a1 : (⟨4, ![512, 512, 4, 4]⟩ : Shape).Idx → EReal) : Fin 512 → Fin 16 → Fin 512 → EReal :=
  fun ci p o => a1 (ix4 o ci (⟨3 - p.val / 4, by omega⟩ : Fin 4) (⟨3 - p.val % 4, by omega⟩ : Fin 4)) * s1

def b1A (a2 : (⟨1, ![512]⟩ : Shape).Idx → EReal) : Fin 16 → Fin 512 → EReal := fun _ o => a2 (ix1 o)

def w2A (a3 : (⟨4, ![512, 512, 3, 3]⟩ : Shape).Idx → EReal) : Fin 9 → Fin 512 → Fin 512 → EReal :=
  fun t ci co => a3 (ix4 co ci (⟨t.val / 3, by have := t.isLt; omega⟩ : Fin 3) (⟨t.val % 3, Nat.mod_lt _ (by decide)⟩ : Fin 3)) * s2

def b2A (a4 : (⟨1, ![512]⟩ : Shape).Idx → EReal) : Fin 512 → EReal := fun co => a4 (ix1 co)

def wrA (a5 : (⟨4, ![3, 512, 1, 1]⟩ : Shape).Idx → EReal) : Fin 512 → Fin 3 → EReal :=
  fun c r => a5 (ix4 r c (0 : Fin 1) (0 : Fin 1)) * s3

def brA (a6 : (⟨1, ![3]⟩ : Shape).Idx → EReal) : Fin 3 → EReal := fun r => a6 (ix1 r)

/-- The result at latent row n, colour r, pixel p. -/
def specOut (a0 : (⟨4, ![1024, 512, 1, 1]⟩ : Shape).Idx → EReal) (a1 : (⟨4, ![512, 512, 4, 4]⟩ : Shape).Idx → EReal)
    (a2 : (⟨1, ![512]⟩ : Shape).Idx → EReal) (a3 : (⟨4, ![512, 512, 3, 3]⟩ : Shape).Idx → EReal)
    (a4 : (⟨1, ![512]⟩ : Shape).Idx → EReal) (a5 : (⟨4, ![3, 512, 1, 1]⟩ : Shape).Idx → EReal)
    (a6 : (⟨1, ![3]⟩ : Shape).Idx → EReal) (n : Fin 1024) (r : Fin 3) (p : Fin 16) : EReal :=
  rowOut (xA a0 n) (w1A a1) (b1A a2) (w2A a3) (b2A a4) (wrA a5) (brA a6) p r

/-- The pixel number of image position (i, j). -/
def pixOf (idx : (⟨4, ![1024, 3, 4, 4]⟩ : Shape).Idx) : Fin 16 :=
  ⟨(idx 2).val * 4 + (idx 3).val, by
    have h2 : (idx 2).val < 4 := (idx 2).isLt
    have h3 : (idx 3).val < 4 := (idx 3).isLt
    omega⟩

/-- The whole result array. -/
def specArr (a0 : (⟨4, ![1024, 512, 1, 1]⟩ : Shape).Idx → EReal) (a1 : (⟨4, ![512, 512, 4, 4]⟩ : Shape).Idx → EReal)
    (a2 : (⟨1, ![512]⟩ : Shape).Idx → EReal) (a3 : (⟨4, ![512, 512, 3, 3]⟩ : Shape).Idx → EReal)
    (a4 : (⟨1, ![512]⟩ : Shape).Idx → EReal) (a5 : (⟨4, ![3, 512, 1, 1]⟩ : Shape).Idx → EReal)
    (a6 : (⟨1, ![3]⟩ : Shape).Idx → EReal) : (⟨4, ![1024, 3, 4, 4]⟩ : Shape).Idx → EReal :=
  fun idx => specOut a0 a1 a2 a3 a4 a5 a6 (idx 0) (idx 1) (pixOf idx)

end Cert.Spec

end
-- ==== Proof.KFinal.lean ====
/-
  The kernel's result as the specification of the argument arrays.

  The region's one output array [pixel, row, colour] is written back in four blocks of 256 rows. Each block is the
  head's colours for its rows (the body's result), read off blocks that are rows 256·t … 256·t + 255 of the input rows
  and the whole of every weight and bias array. So the output array after the run is one function GK of the arrays the
  region finds; reading those arrays entry by entry off the argument arrays turns GK into the specification, and the two
  layout operations after the region turn the output array into the final result [row, colour, 4, 4].
-/
import proofs.«156209_g2000106920163945_pallasbulk_552_2_alg».proof.Proof.KBodyPix
import proofs.«156209_g2000106920163945_pallasbulk_552_2_alg».proof.Proof.KHost
import proofs.«156209_g2000106920163945_pallasbulk_552_2_alg».proof.Proof.SpecArgs
import Idealize.ShloMosaic.Lib.Pipeline.Value

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body Cert.KernelIdeal.HostSide

variable (m : (ℓ : Loc nD τ sig) → Buf (Elt Ideal) ℓ) (ρ : Dev nD → PrngReg)

/-! ## The output array as one function of the arrays the region finds -/

/-- Entry (pixel, row, colour) of the output array: the head's colour at that pixel for that row of the input rows,
    with the weights and biases read off the arrays the region finds. -/
def GK (c : Dev nD) : S16x1024x3.Idx → EReal := fun i =>
  Cert.Spec.rowOut (fun ci => (Gen.V (F := Ideal) m c main_v23 : S1024x512.Idx → EReal) (ix2 (i 1) ci))
    (w1K (Gen.V (F := Ideal) m c main_v6)) (b1K (Gen.V (F := Ideal) m c main_v10)) (w2K (Gen.V (F := Ideal) m c main_v15))
    (b2K (Gen.V (F := Ideal) m c main_v16)) (wrK (Gen.V (F := Ideal) m c main_v20)) (brK (Gen.V (F := Ideal) m c main_v21)) (i 0) (i 2)

/-- The block index maps over the grid: the input rows' block t is block t of rows, the output's block t is block t of its
    row axis, every other window is its whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = 0 ∧ win0_7.index t (1 : Fin 3) = t.val ∧ win0_7.index t (2 : Fin 3) = 0 :=
  (by decide +kernel : ∀ t : Fin grid0.N, _)

/-- The head is a function of its operands. -/
theorem rowOut_congr {xr xr' : Fin 512 → EReal} {w1 w1' : Fin 512 → Fin 16 → Fin 512 → EReal} {b1 b1' : Fin 16 → Fin 512 → EReal}
    {w2 w2' : Fin 9 → Fin 512 → Fin 512 → EReal} {b2 b2' : Fin 512 → EReal} {wr wr' : Fin 512 → Fin 3 → EReal}
    {br br' : Fin 3 → EReal} {p p' : Fin 16} {r r' : Fin 3}
    (h0 : xr = xr') (h1 : w1 = w1') (h2 : b1 = b1') (h3 : w2 = w2') (h4 : b2 = b2') (h5 : wr = wr') (h6 : br = br')
    (hp : p = p') (hr : r = r') :
    Cert.Spec.rowOut xr w1 b1 w2 b2 wr br p r = Cert.Spec.rowOut xr' w1' b1' w2' b2' wr' br' p' r' := by
  subst h0 h1 h2 h3 h4 h5 h6 hp hr; rfl

/-! ## Each window's block at a point -/

/-- Block t of the input rows is rows 256·t … 256·t + 255. -/
theorem blk0_apply (c : Dev nD) (t : Fin cfg0.N) (b : Fin 256) (ci : Fin 512) (n : Fin 1024) (hn : n.val = t.val * 256 + b.val) :
    (iblk m c 0 t : S256x512.Idx → EReal) (ix2 b ci) = (Gen.V (F := Ideal) m c main_v23 : S1024x512.Idx → EReal) (ix2 n ci) := by
  obtain ⟨e00, e01, -⟩ := idx_facts t
  unfold iblk
  rw [View.read_apply]
  show (Gen.V (F := Ideal) m c main_v23 : S1024x512.Idx → EReal) _ = _
  refine congrArg _ (funext fun a => Fin.ext ?_)
  match a with
  | ⟨0, _⟩ => show win0_0.index t (0 : Fin 2) * 256 + 1 * b.val = n.val; omega
  | ⟨1, _⟩ => show win0_0.index t (1 : Fin 2) * 512 + 1 * ci.val = ci.val; omega

theorem blk1_eq (c : Dev nD) (t : Fin cfg0.N) :
    @Eq (S512x8192.Idx → EReal) (iblk m c 1 t) (Gen.V (F := Ideal) m c main_v6) := by
  obtain ⟨e00, e01, e10, e11, e20, e21, e30, e31, e32, e40, e41, e50, e51, e60, e61, e70, e71, e72⟩ := idx_facts t
  funext x
  unfold iblk
  rw [View.read_apply]
  show (Gen.V (F := Ideal) m c main_v6 : S512x8192.Idx → EReal) _ = _
  refine congrArg _ (funext fun a => Fin.ext ?_)
  match a with
  | ⟨0, _⟩ => show win0_1.index t (0 : Fin 2) * 512 + 1 * (x 0).val = (x 0).val; omega
  | ⟨1, _⟩ => show win0_1.index t (1 : Fin 2) * 8192 + 1 * (x 1).val = (x 1).val; omega

theorem blk2_eq (c : Dev nD) (t : Fin cfg0.N) :
    @Eq (S1x8192.Idx → EReal) (iblk m c 2 t) (Gen.V (F := Ideal) m c main_v10) := by
  obtain ⟨e00, e01, e10, e11, e20, e21, e30, e31, e32, e40, e41, e50, e51, e60, e61, e70, e71, e72⟩ := idx_facts t
  funext x
  unfold iblk
  rw [View.read_apply]
  show (Gen.V (F := Ideal) m c main_v10 : S1x8192.Idx → EReal) _ = _
  refine congrArg _ (funext fun a => Fin.ext ?_)
  match a with
  | ⟨0, _⟩ => show win0_2.index t (0 : Fin 2) * 1 + 1 * (x 0).val = (x 0).val; omega
  | ⟨1, _⟩ => show win0_2.index t (1 : Fin 2) * 8192 + 1 * (x 1).val = (x 1).val; omega

theorem blk3_eq (c : Dev nD) (t : Fin cfg0.N) :
    @Eq (S9x512x512.Idx → EReal) (iblk m c 3 t) (Gen.V (F := Ideal) m c main_v15) := by
  obtain ⟨e00, e01, e10, e11, e20, e21, e30, e31, e32, e40, e41, e50, e51, e60, e61, e70, e71, e72⟩ := idx_facts t
  funext x
  unfold iblk
  rw [View.read_apply]
  show (Gen.V (F := Ideal) m c main_v15 : S9x512x512.Idx → EReal) _ = _
  refine congrArg _ (funext fun a => Fin.ext ?_)
  match a with
  | ⟨0, _⟩ => show win0_3.index t (0 : Fin 3) * 9 + 1 * (x 0).val = (x 0).val; omega
  | ⟨1, _⟩ => show win0_3.index t (1 : Fin 3) * 512 + 1 * (x 1).val = (x 1).val; omega
  | ⟨2, _⟩ => show win0_3.index t (2 : Fin 3) * 512 + 1 * (x 2).val = (x 2).val; omega

theorem blk4_eq (c : Dev nD) (t : Fin cfg0.N) :
    @Eq (S1x512.Idx → EReal) (iblk m c 4 t) (Gen.V (F := Ideal) m c main_v16) := by
  obtain ⟨e00, e01, e10, e11, e20, e21, e30, e31, e32, e40, e41, e50, e51, e60, e61, e70, e71, e72⟩ := idx_facts t
  funext x
  unfold iblk
  rw [View.read_apply]
  show (Gen.V (F := Ideal) m c main_v16 : S1x512.Idx → EReal) _ = _
  refine congrArg _ (funext fun a => Fin.ext ?_)
  match a with
  | ⟨0, _⟩ => show win0_4.index t (0 : Fin 2) * 1 + 1 * (x 0).val = (x 0).val; omega
  | ⟨1, _⟩ => show win0_4.index t (1 : Fin 2) * 512 + 1 * (x 1).val = (x 1).val; omega

theorem blk5_eq (c : Dev nD) (t : Fin cfg0.N) :
    @Eq (S512x3.Idx → EReal) (iblk m c 5 t) (Gen.V (F := Ideal) m c main_v20) := by
  obtain ⟨e00, e01, e10, e11, e20, e21, e30, e31, e32, e40, e41, e50, e51, e60, e61, e70, e71, e72⟩ := idx_facts t
  funext x
  unfold iblk
  rw [View.read_apply]
  show (Gen.V (F := Ideal) m c main_v20 : S512x3.Idx → EReal) _ = _
  refine congrArg _ (funext fun a => Fin.ext ?_)
  match a with
  | ⟨0, _⟩ => show win0_5.index t (0 : Fin 2) * 512 + 1 * (x 0).val = (x 0).val; omega
  | ⟨1, _⟩ => show win0_5.index t (1 : Fin 2) * 3 + 1 * (x 1).val = (x 1).val; omega

theorem blk6_eq (c : Dev nD) (t : Fin cfg0.N) :
    @Eq (S1x3.Idx → EReal) (iblk m c 6 t) (Gen.V (F := Ideal) m c main_v21) := by
  obtain ⟨e00, e01, e10, e11, e20, e21, e30, e31, e32, e40, e41, e50, e51, e60, e61, e70, e71, e72⟩ := idx_facts t
  funext x
  unfold iblk
  rw [View.read_apply]
  show (Gen.V (F := Ideal) m c main_v21 : S1x3.Idx → EReal) _ = _
  refine congrArg _ (funext fun a => Fin.ext ?_)
  match a with
  | ⟨0, _⟩ => show win0_6.index t (0 : Fin 2) * 1 + 1 * (x 0).val = (x 0).val; omega
  | ⟨1, _⟩ => show win0_6.index t (1 : Fin 2) * 3 + 1 * (x 1).val = (x 1).val; omega

/-- Where block t of the output array sits: pixel and colour as they are, row 256·t + the row inside the block. -/
theorem emb7 (t : Fin cfg0.N) (j : S16x256x3.Idx) :
    ((((cfg0.win 7).blk t).view.emb j) 0).val = (j 0).val
    ∧ ((((cfg0.win 7).blk t).view.emb j) 1).val = t.val * 256 + (j 1).val
    ∧ ((((cfg0.win 7).blk t).view.emb j) 2).val = (j 2).val := by
  obtain ⟨e00, e01, e10, e11, e20, e21, e30, e31, e32, e40, e41, e50, e51, e60, e61, e70, e71, e72⟩ := idx_facts t
  refine ⟨?_, ?_, ?_⟩
  · show win0_7.index t (0 : Fin 3) * 16 + 1 * (j 0).val = (j 0).val; omega
  · show win0_7.index t (1 : Fin 3) * 256 + 1 * (j 1).val = t.val * 256 + (j 1).val; omega
  · show win0_7.index t (2 : Fin 3) * 3 + 1 * (j 2).val = (j 2).val; omega

/-! ## What a point writes back -/

/-- Point t writes back block t of GK. -/
theorem flushed_eq (c : Dev nD) (t : Fin cfg0.N) :
    (Gen.dats (F := Ideal) m 0 c).flushed 7 t = ((cfg0.win 7).blk t).view.read (Elt Ideal) (GK m c) := by
  show (cfg0.win 7).cut (grid0.coords t) ((Gen.dats (F := Ideal) m 0 c).after 7 t) = _
  rw [after0_7, out_block (iblk m c 0 t) (iblk m c 1 t) (iblk m c 2 t) (iblk m c 3 t) (iblk m c 4 t) (iblk m c 5 t) (iblk m c 6 t)]
  funext j
  obtain ⟨h70, h71, h72⟩ := emb7 t j
  show blockG (iblk m c 0 t) (iblk m c 1 t) (iblk m c 2 t) (iblk m c 3 t) (iblk m c 4 t) (iblk m c 5 t) (iblk m c 6 t) j
    = GK m c (((cfg0.win 7).blk t).view.emb j)
  unfold blockG GK
  refine rowOut_congr (funext fun ci => ?_) (congrArg w1K (blk1_eq m c t)) (congrArg b1K (blk2_eq m c t))
    (congrArg w2K (blk3_eq m c t)) (congrArg b2K (blk4_eq m c t)) (congrArg wrK (blk5_eq m c t)) (congrArg brK (blk6_eq m c t))
    (Fin.ext h70.symm) (Fin.ext h72.symm)
  exact blk0_apply m c t (j 1) ci _ h71

/-! ## The cover, and the array after the run -/

/-- An index is in point t's block iff each coordinate is in the block's range on its axis. -/
theorem mem_blk (t : Fin cfg0.N) (i : S16x1024x3.Idx) :
    i ∈ ((cfg0.win 7).blk t).view.set ↔ ∀ a : Fin 3, win0_7.index t a * S16x256x3.size a ≤ (i a).val
      ∧ (i a).val < win0_7.index t a * S16x256x3.size a + S16x256x3.size a := by
  show i ∈ ((View.whole main_v24).slice (win0_7.rect t)).set ↔ _
  rw [View.set_slice_whole, Rect.mem_set_unit]
  exact Iff.rfl

/-- Row n of the output array's row axis is written back by point n / 256. -/
theorem cover (i : S16x1024x3.Idx) :
    ∃ t : Fin cfg0.N, (cfg0.win 7).flush t = true ∧ i ∈ ((cfg0.win 7).blk t).view.set := by
  have h0 : (i 0).val < 16 := (i 0).isLt
  have h1 : (i 1).val < 1024 := (i 1).isLt
  have h2 : (i 2).val < 3 := (i 2).isLt
  have hN : cfg0.N = 4 := N_0
  obtain ⟨t, ht⟩ : ∃ t : Fin cfg0.N, t.val = (i 1).val / 256 := ⟨⟨(i 1).val / 256, by omega⟩, rfl⟩
  obtain ⟨e00, e01, e10, e11, e20, e21, e30, e31, e32, e40, e41, e50, e51, e60, e61, e70, e71, e72⟩ := idx_facts t
  refine ⟨t, flush0_7 t, ?_⟩
  rw [mem_blk]
  intro a
  match a with
  | ⟨0, _⟩ => show win0_7.index t (0 : Fin 3) * 16 ≤ (i 0).val ∧ (i 0).val < win0_7.index t (0 : Fin 3) * 16 + 16; omega
  | ⟨1, _⟩ => show win0_7.index t (1 : Fin 3) * 256 ≤ (i 1).val ∧ (i 1).val < win0_7.index t (1 : Fin 3) * 256 + 256; omega
  | ⟨2, _⟩ => show win0_7.index t (2 : Fin 3) * 3 ≤ (i 2).val ∧ (i 2).val < win0_7.index t (2 : Fin 3) * 3 + 3; omega

/-- The output array after the run is GK. -/
theorem finalK (c : Dev nD) : (Gen.dats (F := Ideal) m 0 c).arrAt 7 cfg0.N = GK m c :=
  (Gen.dats (F := Ideal) m 0 c).arrAt_eq_of_cover 7 (GK m c) (fun t _ => flushed_eq m c t) cover

/-! ## GK over the argument arrays -/

/-- Entry (p, n, r) of GK is the specification's colour r at pixel p for latent row n: each array the region finds, read
    at an index, is the argument entry the specification reads (the flat coordinate 512·p + o is p·512 + o). -/
theorem GK_args (c : Dev nD) (p : Fin 16) (n : Fin 1024) (r : Fin 3) :
    GK m c (ix3 p n r) = Cert.Spec.specOut (arg0 m c) (arg1 m c) (arg2 m c) (arg3 m c) (arg4 m c) (arg5 m c) (arg6 m c) n r p := by
  unfold GK Cert.Spec.specOut
  refine rowOut_congr (funext fun ci => ?_) (funext fun ci => funext fun q => funext fun o => ?_)
    (funext fun q => funext fun o => ?_) (funext fun t => funext fun ci => funext fun co => ?_) (funext fun co => ?_)
    (funext fun cc => funext fun k => ?_) (funext fun k => ?_) rfl rfl
  · exact v23_at m c n ci
  · have hq : q.val < 16 := q.isLt
    have ho : o.val < 512 := o.isLt
    have hlt : q.val * 512 + o.val < 8192 := by omega
    refine (congrArg (fun x : Fin 8192 => (Gen.V (F := Ideal) m c main_v6 : S512x8192.Idx → EReal) (ix2 ci x))
      (Fin.ext (by show 512 * q.val + o.val = q.val * 512 + o.val; omega) :
        (⟨512 * q.val + o.val, by omega⟩ : Fin 8192) = ⟨q.val * 512 + o.val, hlt⟩)).trans ?_
    exact v6_at m c ci o q hlt (by omega) (by omega)
  · have hq : q.val < 16 := q.isLt
    have ho : o.val < 512 := o.isLt
    have hlt : q.val * 512 + o.val < 8192 := by omega
    refine (congrArg (fun x : Fin 8192 => (Gen.V (F := Ideal) m c main_v10 : S1x8192.Idx → EReal) (ix2 0 x))
      (Fin.ext (by show 512 * q.val + o.val = q.val * 512 + o.val; omega) :
        (⟨512 * q.val + o.val, by omega⟩ : Fin 8192) = ⟨q.val * 512 + o.val, hlt⟩)).trans ?_
    exact v10_at m c q o hlt
  · have ht : t.val < 9 := t.isLt
    exact v15_at m c t ci co (by omega) (Nat.mod_lt _ (by decide))
  · exact v16_at m c co
  · exact v20_at m c cc k
  · exact v21_at m c k

/-! ## The final result, and the run -/

/-- The result buffer after the two layout operations that follow the region is the specification's array. -/
theorem result_eq (c : Dev nD) : @Eq (S1024x3x4x4.Idx → EReal)
    (Pipeline.afterTail₀ cfgs (Gen.dats (F := Ideal) m) 0 (Gen.V0 m) [Gen.hostOps1] c main_v26)
    (Cert.Spec.specArr (arg0 m c) (arg1 m c) (arg2 m c) (arg3 m c) (arg4 m c) (arg5 m c) (arg6 m c)) := by
  rw [tail_eq]
  funext idx
  show (Gen.dats (F := Ideal) m 0 c).arrAt 7 cfg0.N (ix3 ⟨(idx 2).val * 4 + (idx 3).val, pix_lt idx⟩ (idx 0) (idx 1)) = _
  rw [finalK m c]
  exact GK_args m c ⟨(idx 2).val * 4 + (idx 3).val, pix_lt idx⟩ (idx 0) (idx 1)

/-- THE KERNEL'S RUN, READ: every weakly fair execution of the program from a memory with zero counters terminates with the
    result buffer at the specification's array of the argument arrays, and the argument arrays as launched. -/
theorem runK : θ_run defs (onTc (τ := τ) (main (F := Ideal))) ⟨m, fun _ => 0, ρ⟩ (fun r => ∀ c : Dev nD,
      r.2.mem ((c.tc : Thread nD τ).loc main_v26) = (Cert.Spec.specArr (arg0 m c) (arg1 m c) (arg2 m c) (arg3 m c) (arg4 m c) (arg5 m c) (arg6 m c) : S1024x3x4x4.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).2 main_v26 (Pipeline.mem_restRefs_of main_v26 (by decide) (by decide))).trans (result_eq m c),
      (((h c).2 main_arg0 (Pipeline.mem_restRefs_of main_arg0 (by decide) (by decide))).trans (W_main_arg0 m (Gen.dats (F := Ideal) m) c)),
      (((h c).2 main_arg1 (Pipeline.mem_restRefs_of main_arg1 (by decide) (by decide))).trans (W_main_arg1 m (Gen.dats (F := Ideal) m) c)),
      (((h c).2 main_arg2 (Pipeline.mem_restRefs_of main_arg2 (by decide) (by decide))).trans (W_main_arg2 m (Gen.dats (F := Ideal) m) c)),
      (((h c).2 main_arg3 (Pipeline.mem_restRefs_of main_arg3 (by decide) (by decide))).trans (W_main_arg3 m (Gen.dats (F := Ideal) m) c)),
      (((h c).2 main_arg4 (Pipeline.mem_restRefs_of main_arg4 (by decide) (by decide))).trans (W_main_arg4 m (Gen.dats (F := Ideal) m) c)),
      (((h c).2 main_arg5 (Pipeline.mem_restRefs_of main_arg5 (by decide) (by decide))).trans (W_main_arg5 m (Gen.dats (F := Ideal) m) c)),
      (((h c).2 main_arg6 (Pipeline.mem_restRefs_of main_arg6 (by decide) (by decide))).trans (W_main_arg6 m (Gen.dats (F := Ideal) m) c))⟩)
    (Gen.run_main (F := Ideal) m ρ)

end Cert.KernelIdeal.Final

end
-- ==== Proof.RHost.lean ====
/- The reference's host side, read entry by entry at the ideal instance. Before region 0 the host stretch lays the
   arguments out for the two regions: the latent as rows, the 4x4 weight flipped, scaled and flattened to a matrix, the
   first bias repeated per pixel, the 3x3 weight scaled and regrouped by tap, the nine 0/1 shift matrices of the 3x3
   taps on the 4x4 image, the output weight scaled, the biases as columns. Each lemma reads one of these arrays at an
   index as the launched argument at an index (times the scale constant's value). Then: what region 1 finds is what
   region 0's entry held, except the activation, which is region 0's output re-laid; and the result is region 1's
   output re-laid. -/
import proofs.«156209_g2000106920163945_pallasbulk_552_2_alg».proof.Proof.Gen.ReferenceIdeal.Frame
import Idealize.ShloMosaic.Lib.ValueIdx
import Idealize.ShloMosaic.Lib.Pipeline.Value
import Idealize.ShloMosaic.Lib.StableHlo.Run
import Idealize.ShloMosaic.Lib.Tactic
import Idealize.ShloMosaic.Lib.IdealHost
import Idealize.ShloMosaic.PureOps.Ideal.Laws

set_option maxRecDepth 16384

noncomputable section

namespace Cert.ReferenceIdeal.HostSide

open Idealize.ShloMosaic Idealize.ShloMosaic.TcCoe Idealize.SL.Sem
open Idealize.ShloMosaic.ValueIdx
open Idealize.ShloMosaic.Pipeline (Dat)
open Cert.ReferenceIdeal Cert.ReferenceIdeal.Gen

variable (m : (ℓ : Loc nD τ sig) → Buf (Elt Ideal) ℓ) (ρ : Dev nD → PrngReg) (c : Dev nD)

/-! The launched argument arrays of core `c`, each at its literal shape. -/
abbrev A0 : S1024x512x1x1.Idx → EReal := m ((c : Thread nD τ).loc main_arg0)
abbrev A1 : S512x512x4x4.Idx → EReal := m ((c : Thread nD τ).loc main_arg1)
abbrev A2 : S512.Idx → EReal := m ((c : Thread nD τ).loc main_arg2)
abbrev A3 : S512x512x3x3.Idx → EReal := m ((c : Thread nD τ).loc main_arg3)
abbrev A4 : S512.Idx → EReal := m ((c : Thread nD τ).loc main_arg4)
abbrev A5 : S3x512x1x1.Idx → EReal := m ((c : Thread nD τ).loc main_arg5)
abbrev A6 : S3.Idx → EReal := m ((c : Thread nD τ).loc main_arg6)

/-- The latent input as region 0 finds it: sample `n`'s row of 512 channels, the two unit axes moved. -/
theorem v18_at (n : Fin 1024) (ci : Fin 512) :
    (V1 m ρ c main_call0_v18 : S1024x1x512.Idx → Elt Ideal .f32) (ix3 n 0 ci)
      = A0 m c (ix4 n ci 0 0) := by
  show StableHlo.after hostOps0 _ (Proc.devRef .tc main_call0_v18) _ = _
  after_results
  refine (shapeCast_apply (s := S1024x512x1x1) (t := S1024x1x512) _ _ (ix3 n 0 ci) (ix4 n ci 0 0) ?_).trans rfl
  rw [Shape.rowMajor_val_four, Shape.rowMajor_val_three]
  show ((n.val * 512 + ci.val) * 1 + 0) * 1 + 0 = (n.val * 1 + 0) * 512 + ci.val
  omega

/-- The 4x4 transposed-convolution weight, flipped, scaled and laid out as a matrix: entry `(ci, o * 16 + p)` is the
    launched weight at `(o, ci, 3 - p / 4, 3 - p % 4)` times the scale constant. -/
theorem v5_at (ci o : Fin 512) (p : Fin 16) :
    (V1 m ρ c main_call0_v5 : S512x8192.Idx → Elt Ideal .f32) (ix2 ci ⟨o.val * 16 + p.val, by omega⟩)
      = A1 m c (ix4 o ci ⟨3 - p.val / 4, by omega⟩ ⟨3 - p.val % 4, by omega⟩) * Ideal.ofBits .f32 0x3C800000#32 := by
  show StableHlo.after hostOps0 _ (Proc.devRef .tc main_call0_v5) _ = _
  after_results
  show shapeCast S512x8192 (transpose S512x512x16 [1, 0, 2] (shapeCast S512x512x16 (mulf (Host.reverse [2, 3] (A1 m c))
    (broadcastInDim S512x512x4x4 ![] bcast_S_S512x512x4x4 (constant (F := Ideal) S_ .f32 0x3C800000#32)))
    shapeCasts_S512x512x4x4_S512x512x16) transposes_S512x512x16_S512x512x16_1_0_2) shapeCasts_S512x512x16_S512x8192
    (ix2 ci ⟨o.val * 16 + p.val, by omega⟩) = _
  refine (shapeCast_apply (s := S512x512x16) (t := S512x8192) _ _ _ (ix3 ci o p) ?_).trans ?_
  · rw [Shape.rowMajor_val_three, Shape.rowMajor_val_two]
    show (ci.val * 512 + o.val) * 16 + p.val = ci.val * 8192 + (o.val * 16 + p.val)
    omega
  refine (transpose_apply (s := S512x512x16) (t := S512x512x16) [1, 0, 2] _ transposes_S512x512x16_S512x512x16_1_0_2
    (ix3 ci o p) (ix3 o ci p) ?_).trans ?_
  · intro b
    match b with
    | ⟨0, _⟩ => rfl
    | ⟨1, _⟩ => rfl
    | ⟨2, _⟩ => rfl
  refine (shapeCast_apply (s := S512x512x4x4) (t := S512x512x16) _ _ (ix3 o ci p)
    (ix4 o ci ⟨p.val / 4, by omega⟩ ⟨p.val % 4, by omega⟩) ?_).trans ?_
  · rw [Shape.rowMajor_val_four, Shape.rowMajor_val_three]
    show ((o.val * 512 + ci.val) * 4 + p.val / 4) * 4 + p.val % 4 = (o.val * 512 + ci.val) * 16 + p.val
    omega
  refine (mulf_apply _ _ _).trans ?_
  congr 1
  show A1 m c _ = A1 m c _
  congr 1
  funext a
  match a with
  | ⟨0, _⟩ => rfl
  | ⟨1, _⟩ => rfl
  | ⟨2, _⟩ => exact Fin.ext (by show 4 - (p.val / 4 + 1) = 3 - p.val / 4; omega)
  | ⟨3, _⟩ => exact Fin.ext (by show 4 - (p.val % 4 + 1) = 3 - p.val % 4; omega)

/-- The first bias spread over the 16 pixels: entry `o * 16 + p` of the row is the bias of channel `o`. -/
theorem v8_at (o : Fin 512) (p : Fin 16) :
    (V1 m ρ c main_call0_v8 : S1x8192.Idx → Elt Ideal .f32) (ix2 0 ⟨o.val * 16 + p.val, by omega⟩)
      = A2 m c (ix1 o) := by
  show StableHlo.after hostOps0 _ (Proc.devRef .tc main_call0_v8) _ = _
  after_results
  refine (shapeCast_apply (s := S8192) (t := S1x8192) _ _ _ (ix1 ⟨o.val * 16 + p.val, by omega⟩) ?_).trans ?_
  · rw [Shape.rowMajor_val_one, Shape.rowMajor_val_two]
    show o.val * 16 + p.val = 0 * 8192 + (o.val * 16 + p.val)
    omega
  refine (shapeCast_apply (s := S512x16) (t := S8192) _ _ _ (ix2 o p) ?_).trans ?_
  · rw [Shape.rowMajor_val_one, Shape.rowMajor_val_two]
    show o.val * 16 + p.val = o.val * 16 + p.val
    rfl
  refine (broadcastInDim_apply (s := S512) (t := S512x16) ![0] bcast_S512_S512x16_0 _ (ix2 o p) (ix1 o) ?_).trans rfl
  intro a
  match a with
  | ⟨0, _⟩ => rfl

/-- The 3x3 weight, scaled and regrouped by tap: entry `(t, co, ci)` is the launched weight at `(co, ci, t / 3, t % 3)`
    times the scale constant. -/
theorem v12_at (t : Fin 9) (co ci : Fin 512) :
    (V1 m ρ c main_call0_v12 : S9x512x512.Idx → Elt Ideal .f32) (ix3 t co ci)
      = A3 m c (ix4 co ci ⟨t.val / 3, by omega⟩ ⟨t.val % 3, by omega⟩) * Ideal.ofBits .f32 0x3CAAAAAB#32 := by
  show StableHlo.after hostOps0 _ (Proc.devRef .tc main_call0_v12) _ = _
  after_results
  show transpose S9x512x512 [2, 0, 1] (shapeCast S512x512x9 (mulf (A3 m c) (broadcastInDim S512x512x3x3 ![] bcast_S_S512x512x3x3
    (constant (F := Ideal) S_ .f32 0x3CAAAAAB#32))) shapeCasts_S512x512x3x3_S512x512x9) transposes_S512x512x9_S9x512x512_2_0_1 (ix3 t co ci) = _
  refine (transpose_apply (s := S512x512x9) (t := S9x512x512) [2, 0, 1] _ transposes_S512x512x9_S9x512x512_2_0_1
    (ix3 t co ci) (ix3 co ci t) ?_).trans ?_
  · intro b
    match b with
    | ⟨0, _⟩ => rfl
    | ⟨1, _⟩ => rfl
    | ⟨2, _⟩ => rfl
  refine (shapeCast_apply (s := S512x512x3x3) (t := S512x512x9) _ _ (ix3 co ci t)
    (ix4 co ci ⟨t.val / 3, by omega⟩ ⟨t.val % 3, by omega⟩) ?_).trans ?_
  · rw [Shape.rowMajor_val_four, Shape.rowMajor_val_three]
    show ((co.val * 512 + ci.val) * 3 + t.val / 3) * 3 + t.val % 3 = (co.val * 512 + ci.val) * 9 + t.val
    omega
  exact mulf_apply _ _ _

/-- The second bias as a column: entry `co`. -/
theorem v13_at (co : Fin 512) :
    (V1 m ρ c main_call0_v13 : S512x1.Idx → Elt Ideal .f32) (ix2 co 0)
      = A4 m c (ix1 co) := by
  show StableHlo.after hostOps0 _ (Proc.devRef .tc main_call0_v13) _ = _
  after_results
  refine (shapeCast_apply (s := S512) (t := S512x1) _ _ (ix2 co 0) (ix1 co) ?_).trans rfl
  rw [Shape.rowMajor_val_one, Shape.rowMajor_val_two]
  show co.val = co.val * 1 + 0
  omega

/-- The words of the constant: entry `(t, q, p)` of the nine 16x16 tables is the word of one exactly when pixel `q` is
    pixel `p` moved by tap `t`'s offset `(t / 3 - 1, t % 3 - 1)` inside the 4x4 image, and the zero word otherwise. -/
theorem lit0_pattern : ∀ t : Fin 9, ∀ q p : Fin 16,
    lit0 ⟨(t.val * 16 + q.val) * 16 + p.val, by omega⟩
      = if q.val / 4 + 1 = p.val / 4 + t.val / 3 ∧ q.val % 4 + 1 = p.val % 4 + t.val % 3
        then 0x3F800000#32 else 0x00000000#32 := by
  decide +kernel

/-- The shift matrices: entry `(t, q, p)` is one exactly when input pixel `q` is output pixel `p` moved by tap `t`'s
    offset inside the 4x4 image (rows: `q / 4 = p / 4 + t / 3 - 1`; columns: `q % 4 = p % 4 + t % 3 - 1`), else zero. -/
theorem cst_at (t : Fin 9) (q p : Fin 16) :
    (V1 m ρ c main_call0_cst : S9x16x16.Idx → Elt Ideal .f32) (ix3 t q p)
      = if q.val / 4 + 1 = p.val / 4 + t.val / 3 ∧ q.val % 4 + 1 = p.val % 4 + t.val % 3 then (1 : EReal) else 0 := by
  show StableHlo.after hostOps0 _ (Proc.devRef .tc main_call0_cst) _ = _
  after_results
  show Ideal.ofBits .f32 (lit0 (S9x16x16.rowMajor (ix3 t q p))) = _
  have hk : S9x16x16.rowMajor (ix3 t q p) = (⟨(t.val * 16 + q.val) * 16 + p.val, by omega⟩ : Fin 2304) :=
    Fin.ext (by rw [Shape.rowMajor_val_three]; rfl)
  rw [hk, lit0_pattern]
  split_ifs
  · exact Ideal.ofBits_one_f32
  · exact Ideal.ofBits_zero_f32

/-- The output weight, scaled: entry `(r, cc)` is the launched weight at `(r, cc, 0, 0)` times the scale constant. -/
theorem v16_at (r : Fin 3) (cc : Fin 512) :
    (V1 m ρ c main_call0_v16 : S3x512.Idx → Elt Ideal .f32) (ix2 r cc)
      = A5 m c (ix4 r cc 0 0)
          * Ideal.ofBits .f32 0x3D800000#32 := by
  show StableHlo.after hostOps0 _ (Proc.devRef .tc main_call0_v16) _ = _
  after_results
  refine (mulf_apply _ _ _).trans ?_
  congr 1
  refine (shapeCast_apply (s := S3x512x1x1) (t := S3x512) _ _ (ix2 r cc) (ix4 r cc 0 0) ?_).trans rfl
  rw [Shape.rowMajor_val_four, Shape.rowMajor_val_two]
  show ((r.val * 512 + cc.val) * 1 + 0) * 1 + 0 = r.val * 512 + cc.val
  omega

/-- The output bias as a column: entry `r`. -/
theorem v17_at (r : Fin 3) :
    (V1 m ρ c main_call0_v17 : S3x1.Idx → Elt Ideal .f32) (ix2 r 0)
      = A6 m c (ix1 r) := by
  show StableHlo.after hostOps0 _ (Proc.devRef .tc main_call0_v17) _ = _
  after_results
  refine (shapeCast_apply (s := S3) (t := S3x1) _ _ (ix2 r 0) (ix1 r) ?_).trans rfl
  rw [Shape.rowMajor_val_one, Shape.rowMajor_val_two]
  show r.val = r.val * 1 + 0
  omega

/-- The 3x3 weight by tap is untouched between the two regions: region 0 writes only its own arrays and the stretch between writes
    only the re-laid activation. -/
theorem V3_v12 : V3 m ρ c main_call0_v12 = V1 m ρ c main_call0_v12 := by
  show StableHlo.after hostOps1 (W2 m ρ c) (Proc.devRef .tc main_call0_v12) = _
  after_results
  exact W2_of_ne m ρ c main_call0_v12 (by decide)

/-- The second bias is untouched between the two regions: region 0 writes only its own arrays and the stretch between writes
    only the re-laid activation. -/
theorem V3_v13 : V3 m ρ c main_call0_v13 = V1 m ρ c main_call0_v13 := by
  show StableHlo.after hostOps1 (W2 m ρ c) (Proc.devRef .tc main_call0_v13) = _
  after_results
  exact W2_of_ne m ρ c main_call0_v13 (by decide)

/-- The shift matrices' array is untouched between the two regions: region 0 writes only its own arrays and the stretch between writes
    only the re-laid activation. -/
theorem V3_cst : V3 m ρ c main_call0_cst = V1 m ρ c main_call0_cst := by
  show StableHlo.after hostOps1 (W2 m ρ c) (Proc.devRef .tc main_call0_cst) = _
  after_results
  exact W2_of_ne m ρ c main_call0_cst (by decide)

/-- The output weight is untouched between the two regions: region 0 writes only its own arrays and the stretch between writes
    only the re-laid activation. -/
theorem V3_v16 : V3 m ρ c main_call0_v16 = V1 m ρ c main_call0_v16 := by
  show StableHlo.after hostOps1 (W2 m ρ c) (Proc.devRef .tc main_call0_v16) = _
  after_results
  exact W2_of_ne m ρ c main_call0_v16 (by decide)

/-- The output bias is untouched between the two regions: region 0 writes only its own arrays and the stretch between writes
    only the re-laid activation. -/
theorem V3_v17 : V3 m ρ c main_call0_v17 = V1 m ρ c main_call0_v17 := by
  show StableHlo.after hostOps1 (W2 m ρ c) (Proc.devRef .tc main_call0_v17) = _
  after_results
  exact W2_of_ne m ρ c main_call0_v17 (by decide)

/-- Region 1's activation input: entry `(n, o, p)` is entry `o * 16 + p` of sample `n`'s row of region 0's output array
    as region 0 leaves it. -/
theorem v20_at (n : Fin 1024) (o : Fin 512) (p : Fin 16) :
    (V3 m ρ c main_call0_v20 : S1024x512x16.Idx → Elt Ideal .f32) (ix3 n o p)
      = ((dat0 (V1 m ρ) c).arrAt 3 cfg0.N : S1024x1x8192.Idx → Elt Ideal .f32) (ix3 n 0 ⟨o.val * 16 + p.val, by omega⟩) := by
  show StableHlo.after hostOps1 (W2 m ρ c) (Proc.devRef .tc main_call0_v20) _ = _
  after_results
  show shapeCast S1024x512x16 (W2 m ρ c (Proc.devRef .tc main_call0_v19) : S1024x1x8192.Idx → Elt Ideal .f32)
    shapeCasts_S1024x1x8192_S1024x512x16 (ix3 n o p) = _
  refine (shapeCast_apply (s := S1024x1x8192) (t := S1024x512x16) _ _ (ix3 n o p)
    (ix3 n 0 ⟨o.val * 16 + p.val, by omega⟩) ?_).trans ?_
  · rw [Shape.rowMajor_val_three, Shape.rowMajor_val_three]
    show (n.val * 1 + 0) * 8192 + (o.val * 16 + p.val) = (n.val * 512 + o.val) * 16 + p.val
    omega
  exact congrFun (W2_arr m ρ c 3) _

/-- The result: entry `(n, r, i, j)` is entry `(n, r, i * 4 + j)` of region 1's output array as region 1 leaves it. -/
theorem result_at (n : Fin 1024) (r : Fin 3) (i j : Fin 4) :
    (W5 m ρ c (Proc.devRef .tc main_v0) : S1024x3x4x4.Idx → Elt Ideal .f32) (ix4 n r i j)
      = ((dat1 (V3 m ρ) c).arrAt 6 cfg1.N : S1024x3x16.Idx → Elt Ideal .f32) (ix3 n r ⟨i.val * 4 + j.val, by omega⟩) := by
  show StableHlo.after hostOps2 (W4 m ρ c) (Proc.devRef .tc main_v0) _ = _
  after_results
  show shapeCast S1024x3x4x4 (W4 m ρ c (Proc.devRef .tc main_call0_v21) : S1024x3x16.Idx → Elt Ideal .f32)
    shapeCasts_S1024x3x16_S1024x3x4x4 (ix4 n r i j) = _
  refine (shapeCast_apply (s := S1024x3x16) (t := S1024x3x4x4) _ _ (ix4 n r i j)
    (ix3 n r ⟨i.val * 4 + j.val, by omega⟩) ?_).trans ?_
  · rw [Shape.rowMajor_val_three, Shape.rowMajor_val_four]
    show (n.val * 3 + r.val) * 16 + (i.val * 4 + j.val) = ((n.val * 3 + r.val) * 4 + i.val) * 4 + j.val
    omega
  exact congrFun (W4_arr m ρ c 6) _

end Cert.ReferenceIdeal.HostSide

end
-- ==== Proof.RRun.lean ====
import proofs.«156209_g2000106920163945_pallasbulk_552_2_alg».proof.Proof.Gen.ReferenceIdeal.Frame

set_option maxRecDepth 16384

noncomputable section

namespace Cert.ReferenceIdeal.HostSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The value run: at the compiled mesh, from any memory with zero counters, every weakly fair execution of @main
    on the TensorCores terminates, nothing faulting, and every final state holds, in the result buffer, the last
    boundary contents of the fold through @main (the contents after the last host stretch), and has the argument
    arrays as launched. The same launch over the segments as the frame claim, with the result buffer read as well. -/
theorem run_value : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.ReferenceIdeal.HostSide

end
-- ==== Proof.RefSpec.lean ====
/-
  The reference's arrangement of the same head, as a function on the extended reals.

  The reference keeps each sample as a 512 × 16 matrix (channel, pixel). Its 3 × 3 convolution first moves the normalised
  activations by a 0/1 shift matrix — hs t ci p = ∑ q, nrm (h q) ci · sm t q p, where sm t q p is 1 exactly when input pixel q
  is the neighbour of output pixel p through tap t — and then multiplies by tap t's weight matrix from the left, adding the
  nine taps in order; bias, rectifier and normalisation are as in the specification, and the colour matrix multiplies from
  the left.
-/
import proofs.«156209_g2000106920163945_pallasbulk_552_2_alg».proof.Proof.Spec

noncomputable section

open scoped BigOperators

namespace Cert.RefSpec

open Cert.Spec

/-- Input pixel q is output pixel p's neighbour through tap t. -/
def hit (t : Fin 9) (q p : Fin 16) : Prop :=
  q.val / 4 + 1 = p.val / 4 + t.val / 3 ∧ q.val % 4 + 1 = p.val % 4 + t.val % 3

instance (t : Fin 9) (q p : Fin 16) : Decidable (hit t q p) := by unfold hit; infer_instance

/-- The shift matrices' entries. -/
def sm (t : Fin 9) (q p : Fin 16) : EReal := if hit t q p then 1 else 0

/-- The normalised activations moved by shift matrix t. -/
def hs (h1 : Fin 16 → Fin 512 → EReal) (t : Fin 9) (ci : Fin 512) (p : Fin 16) : EReal :=
  ∑ q : Fin 16, nrm (h1 q) ci * sm t q p

/-- Tap t's term: the weight matrix (out, in) times the moved activations. -/
def tapR (h1 : Fin 16 → Fin 512 → EReal) (w2r : Fin 9 → Fin 512 → Fin 512 → EReal) (p : Fin 16) (co : Fin 512) (t : Fin 9) : EReal :=
  ∑ ci : Fin 512, w2r t co ci * hs h1 t ci p

/-- The nine taps added in order. -/
def convR (h1 : Fin 16 → Fin 512 → EReal) (w2r : Fin 9 → Fin 512 → Fin 512 → EReal) (p : Fin 16) (co : Fin 512) : EReal :=
  tapR h1 w2r p co 0 + tapR h1 w2r p co 1 + tapR h1 w2r p co 2 + tapR h1 w2r p co 3 + tapR h1 w2r p co 4 + tapR h1 w2r p co 5
    + tapR h1 w2r p co 6 + tapR h1 w2r p co 7 + tapR h1 w2r p co 8

/-- The head in the reference's arrangement: weights (out, in) and colours (colour, channel) multiply from the left. -/
def headR (h1 : Fin 16 → Fin 512 → EReal) (w2r : Fin 9 → Fin 512 → Fin 512 → EReal) (b2 : Fin 512 → EReal)
    (wrr : Fin 3 → Fin 512 → EReal) (br : Fin 3 → EReal) (p : Fin 16) (r : Fin 3) : EReal :=
  (∑ c : Fin 512, wrr r c * nrm (fun co => lk (convR h1 w2r p co + b2 co)) c) + br r

end Cert.RefSpec

end
-- ==== Proof.RefBridge.lean ====
/-
  The reference's arrangement of the head is the specification's.

  A column of a 0/1 shift matrix has at most one entry equal to one: the sum of the entries of any family against it picks
  the neighbour's entry when the tap stays inside the image and is zero otherwise (v · 1 = v and v · 0 = 0 for every
  extended real, the infinite ones included). A tap's term is then the neighbour's contribution through the tap's weights,
  the factors of each product exchanged; the nine terms, the bias, the rectifier and the normalisation agree term by term,
  and the colour sum again by exchanging the factors of each product. Only commutativity of the product is used.
-/
import proofs.«156209_g2000106920163945_pallasbulk_552_2_alg».proof.Proof.Spec
import proofs.«156209_g2000106920163945_pallasbulk_552_2_alg».proof.Proof.RefSpec

noncomputable section

open scoped BigOperators

namespace Cert.RefSpec

open Cert.Spec

/-- Input pixel `q` is output pixel `p`'s neighbour through tap `t` exactly when the tap stays inside the image and `q` is
    that neighbour's pixel number: decided over the 9 · 16 · 16 cases. -/
theorem hit_iff : ∀ (t : Fin 9) (p q : Fin 16), hit t q p ↔ (valid p t ∧ q = nbr p t) := by decide +kernel

/-- A family summed against column `p` of shift matrix `t` is its entry at the neighbour, or zero when the tap leaves the
    image. -/
theorem sum_mul_sm (x : Fin 16 → EReal) (t : Fin 9) (p : Fin 16) :
    ∑ q : Fin 16, x q * sm t q p = if valid p t then x (nbr p t) else 0 := by
  have h : ∀ q : Fin 16, x q * sm t q p = if valid p t ∧ q = nbr p t then x q else 0 := fun q => by
    unfold sm
    by_cases hq : hit t q p
    · rw [if_pos hq, if_pos ((hit_iff t p q).mp hq), mul_one]
    · rw [if_neg hq, if_neg (fun h' => hq ((hit_iff t p q).mpr h')), mul_zero]
  rw [Finset.sum_congr rfl (fun q _ => h q)]
  by_cases hv : valid p t
  · rw [if_pos hv]
    simp only [hv, true_and]
    exact (Finset.sum_ite_eq' Finset.univ (nbr p t) x).trans (if_pos (Finset.mem_univ _))
  · rw [if_neg hv]
    simp only [hv, false_and, if_false, Finset.sum_const_zero]

/-- The moved activations: the neighbour's normalised activation, or zero. -/
theorem hs_eq (h1 : Fin 16 → Fin 512 → EReal) (t : Fin 9) (ci : Fin 512) (p : Fin 16) :
    hs h1 t ci p = if valid p t then nrm (h1 (nbr p t)) ci else 0 :=
  sum_mul_sm (fun q => nrm (h1 q) ci) t p

/-- A tap's term in the reference's arrangement is the specification's, the weights read (out, in). -/
theorem tapR_eq (h1 : Fin 16 → Fin 512 → EReal) (w2r : Fin 9 → Fin 512 → Fin 512 → EReal) (p : Fin 16) (co : Fin 512)
    (t : Fin 9) : tapR h1 w2r p co t = tapT h1 (fun t ci co => w2r t co ci) p co t := by
  unfold tapR tapT tapSum
  simp only [hs_eq]
  by_cases hv : valid p t
  · rw [if_pos hv]
    refine Finset.sum_congr rfl fun ci _ => ?_
    rw [if_pos hv, mul_comm]
  · rw [if_neg hv]
    refine (Finset.sum_congr rfl fun ci _ => ?_).trans Finset.sum_const_zero
    rw [if_neg hv, mul_zero]

/-- The nine taps' sum agrees. -/
theorem convR_eq (h1 : Fin 16 → Fin 512 → EReal) (w2r : Fin 9 → Fin 512 → Fin 512 → EReal) (p : Fin 16) (co : Fin 512) :
    convR h1 w2r p co = conv h1 (fun t ci co => w2r t co ci) p co := by
  unfold convR conv
  simp only [tapR_eq]

/-- The head in the reference's arrangement is the specification's head at the transposed weights. -/
theorem headR_eq (h1 : Fin 16 → Fin 512 → EReal) (w2r : Fin 9 → Fin 512 → Fin 512 → EReal) (b2 : Fin 512 → EReal)
    (wrr : Fin 3 → Fin 512 → EReal) (br : Fin 3 → EReal) (p : Fin 16) (r : Fin 3) :
    headR h1 w2r b2 wrr br p r = Cert.Spec.head h1 (fun t ci co => w2r t co ci) b2 (fun c r => wrr r c) br p r := by
  unfold headR head
  simp only [convR_eq]
  congr 1
  exact Finset.sum_congr rfl fun c _ => mul_comm _ _

end Cert.RefSpec

end
-- ==== Proof.RefSpecG.lean ====
/-
  The reference's arrangement of the head over any nine 16 x 16 matrices in place of the shift matrices.

  The same sums as the reference's head, with the matrix that moves the normalised activations a parameter: at the shift
  matrices it is the reference's head.
-/
import proofs.«156209_g2000106920163945_pallasbulk_552_2_alg».proof.Proof.RefSpec

noncomputable section

open scoped BigOperators

namespace Cert.RefSpec

open Cert.Spec

/-- The normalised activations moved by matrix `t` of a family `S` of nine 16 x 16 matrices. -/
def hsG (S : Fin 9 → Fin 16 → Fin 16 → EReal) (h1 : Fin 16 → Fin 512 → EReal) (t : Fin 9) (ci : Fin 512) (p : Fin 16) : EReal :=
  ∑ q : Fin 16, nrm (h1 q) ci * S t q p

/-- Tap `t`'s term: the weight matrix (out, in) times the moved activations. -/
def tapG (S : Fin 9 → Fin 16 → Fin 16 → EReal) (h1 : Fin 16 → Fin 512 → EReal) (w2r : Fin 9 → Fin 512 → Fin 512 → EReal)
    (p : Fin 16) (co : Fin 512) (t : Fin 9) : EReal :=
  ∑ ci : Fin 512, w2r t co ci * hsG S h1 t ci p

/-- The nine taps added in order. -/
def convG (S : Fin 9 → Fin 16 → Fin 16 → EReal) (h1 : Fin 16 → Fin 512 → EReal) (w2r : Fin 9 → Fin 512 → Fin 512 → EReal)
    (p : Fin 16) (co : Fin 512) : EReal :=
  tapG S h1 w2r p co 0 + tapG S h1 w2r p co 1 + tapG S h1 w2r p co 2 + tapG S h1 w2r p co 3 + tapG S h1 w2r p co 4
    + tapG S h1 w2r p co 5 + tapG S h1 w2r p co 6 + tapG S h1 w2r p co 7 + tapG S h1 w2r p co 8

/-- The head over the family `S`: weights (out, in) and colours (colour, channel) multiply from the left. -/
def headG (S : Fin 9 → Fin 16 → Fin 16 → EReal) (h1 : Fin 16 → Fin 512 → EReal) (w2r : Fin 9 → Fin 512 → Fin 512 → EReal)
    (b2 : Fin 512 → EReal) (wrr : Fin 3 → Fin 512 → EReal) (br : Fin 3 → EReal) (p : Fin 16) (r : Fin 3) : EReal :=
  (∑ c : Fin 512, wrr r c * nrm (fun co => lk (convG S h1 w2r p co + b2 co)) c) + br r

/-- At the shift matrices it is the reference's head. -/
theorem headG_sm (h1 : Fin 16 → Fin 512 → EReal) (w2r : Fin 9 → Fin 512 → Fin 512 → EReal) (b2 : Fin 512 → EReal)
    (wrr : Fin 3 → Fin 512 → EReal) (br : Fin 3 → EReal) (p : Fin 16) (r : Fin 3) :
    headG sm h1 w2r b2 wrr br p r = headR h1 w2r b2 wrr br p r := rfl

/-- Equal families, activations, weights and biases give equal heads. -/
theorem headG_congr {S S' : Fin 9 → Fin 16 → Fin 16 → EReal} {h1 h1' : Fin 16 → Fin 512 → EReal}
    {w2r w2r' : Fin 9 → Fin 512 → Fin 512 → EReal} {b2 b2' : Fin 512 → EReal} {wrr wrr' : Fin 3 → Fin 512 → EReal}
    {br br' : Fin 3 → EReal} (hS : S = S') (hh : h1 = h1') (hw : w2r = w2r') (hb : b2 = b2') (hwr : wrr = wrr') (hbr : br = br')
    (p : Fin 16) (r : Fin 3) : headG S h1 w2r b2 wrr br p r = headG S' h1' w2r' b2' wrr' br' p r := by
  subst hS hh hw hb hwr hbr; rfl

end Cert.RefSpec

end
-- ==== Proof.RBody0.lean ====
/-
  The reference's first region, read at an index.

  The region runs over 1024 grid points. Point `n` reads row `n` of a [1024, 1, 512] array, the whole of a
  [512, 8192] matrix and of a [1, 8192] bias row, and writes row `n` of a [1024, 1, 8192] array. What it writes at
  column `k` is the leaky rectifier of the row's product with column `k` of the matrix plus the bias at `k`:

      lk ((∑ ci, X (n, 0, ci) · W (ci, k)) + B (0, k)),      lk v = max v (c · v),

  with `c` the slope word. The file states the six coordinate facts of the matrix product's dimension numbers once
  for any extents, reads the body's payload at an index, identifies each window's block with the rows of its array
  it holds, and concludes that the result array after the region is that function of the three arrays, entry by entry:
  point `n` covers row `n`, so the rows written tile the array.
-/
import proofs.«156209_g2000106920163945_pallasbulk_552_2_alg».proof.Proof.Gen.ReferenceIdeal.Frame
import proofs.«156209_g2000106920163945_pallasbulk_552_2_alg».proof.Proof.LibPlainDot
import Idealize.ShloMosaic.Lib.ValueIdx
import Idealize.ShloMosaic.Lib.Pipeline.Value
import Idealize.ShloMosaic.PureOps.Ideal.Laws

noncomputable section

open scoped BigOperators

namespace Cert.ReferenceIdeal.Bodies

open Idealize.ShloMosaic Idealize.ShloMosaic.ValueIdx

section PlainDims
variable {n K M : Nat} (D : DotDims (⟨2, ![n, K]⟩ : Shape) (⟨2, ![K, M]⟩ : Shape) (⟨2, ![n, M]⟩ : Shape))
  (hlc : D.lhsContracting = [1]) (hrc : D.rhsContracting = [0]) (hln : D.lhsNonContracting = [0])
  (hrn : D.rhsNonContracting = [1]) (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have h := D.size_contr 0 (by rw [hlc]; exact Nat.one_pos)
  rw [h]
  simp only [hlc]
  rfl

include hlc in
theorem plain_l1 (i : (⟨2, ![n, M]⟩ : Shape).Idx) (q : D.contr.Idx) :
    (D.lhsIdx i q 1).val = (q ⟨0, by rw [plain_rank D hlc]; exact Nat.one_pos⟩).val :=
  D.lhsIdx_val_of_single hlc i q

include hrc in
theorem plain_r0 (hlc : D.lhsContracting = [1]) (i : (⟨2, ![n, M]⟩ : Shape).Idx) (q : D.contr.Idx) :
    (D.rhsIdx i q 0).val = (q ⟨0, by rw [plain_rank D hlc]; exact Nat.one_pos⟩).val :=
  D.rhsIdx_val_of_single hrc i q

include hln hlb in
theorem plain_l0 (i : (⟨2, ![n, M]⟩ : Shape).Idx) (q : D.contr.Idx) : (D.lhsIdx i q 0).val = (i 0).val := by
  have hb : (0 : Fin 2) ∉ D.lhsBatch := by rw [hlb]; exact List.not_mem_nil
  have hn : (0 : Fin 2) ∈ D.lhsNonContracting := by rw [hln]; exact List.mem_singleton.mpr rfl
  unfold DotDims.lhsIdx
  rw [dif_neg hb, dif_pos hn]
  simp only [Fin.val_cast]
  have key : ∀ (p r : Nat) (hp : p < 2) (hq : r < 2), p = r → (i ⟨p, hp⟩).val = (i ⟨r, hq⟩).val :=
    fun p r hp hq h => by subst h; rfl
  exact key _ _ _ _ (by simp [hlb, hln])

include hrn hrb hln hlb in
theorem plain_r1 (i : (⟨2, ![n, M]⟩ : Shape).Idx) (q : D.contr.Idx) : (D.rhsIdx i q 1).val = (i 1).val := by
  have hb : (1 : Fin 2) ∉ D.rhsBatch := by rw [hrb]; exact List.not_mem_nil
  have hn : (1 : Fin 2) ∈ D.rhsNonContracting := by rw [hrn]; exact List.mem_singleton.mpr rfl
  unfold DotDims.rhsIdx
  rw [dif_neg hb, dif_pos hn]
  simp only [Fin.val_cast]
  have key : ∀ (p r : Nat) (hp : p < 2) (hq : r < 2), p = r → (i ⟨p, hp⟩).val = (i ⟨r, hq⟩).val :=
    fun p r hp hq h => by subst h; rfl
  exact key _ _ _ _ (by simp [hlb, hln, hrn])

include hlc hrc hln hrn hlb hrb in
/-- A matrix product with these dimension numbers into the zero accumulator, at entry (p, c). -/
theorem plain_matmul_apply {φ₁ φ₂ : FTy} (prec : Option ContractPrecision)
    (lhs : FVec Ideal (⟨2, ![n, K]⟩ : Shape) φ₁) (rhs : FVec Ideal (⟨2, ![K, M]⟩ : Shape) φ₂) (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  Cert.PlainDot.matmul_zero_apply D (plain_rank D hlc) (plain_size D hlc) (plain_l0 D hln hlb) (plain_l1 D hlc)
    (plain_r0 D hrc hlc) (plain_r1 D hln hrn hlb hrb) prec lhs rhs p c

end PlainDims

open Cert.ReferenceIdeal Cert.ReferenceIdeal.Gen

/-- The leaky slope, the word the body multiplies by. -/
abbrev c02 : EReal := Ideal.ofBits .f32 0x3E4CCCCD#32

/-- Leaky rectifier: the larger of a value and its multiple by the slope. -/
def lk (v : EReal) : EReal := max v (c02 * v)

theorem drop0 (x0 : Vec Ideal S1x1x512 .f32) (ci : Fin 512) :
    shapeCast S1x512 x0 shapeCasts_S1x1x512_S1x512 (ix2 0 ci) = x0 (ix3 0 0 ci) := by
  refine shapeCast_apply x0 _ _ _ ?_
  rw [Shape.rowMajor_val_three, Shape.rowMajor_val_two]
  rfl

theorem add0 (v : FVec Ideal S1x8192 .f32) (k : Fin 8192) :
    shapeCast S1x1x8192 v shapeCasts_S1x8192_S1x1x8192 (ix3 0 0 k) = v (ix2 0 k) := by
  refine shapeCast_apply v _ _ _ ?_
  rw [Shape.rowMajor_val_three, Shape.rowMajor_val_two]
  rfl

theorem pay0_apply (x0 : Vec Ideal S1x1x512 .f32) (x1 : Vec Ideal S512x8192 .f32) (x2 : Vec Ideal S1x8192 .f32) (k : Fin 8192) :
    k0_pay1 x0 x1 x2 (ix3 0 0 k)
      = lk ((∑ ci : Fin 512, x0 (ix3 0 0 ci) * x1 (ix2 ci k)) + x2 (ix2 0 k)) := by
  unfold k0_pay1
  rw [add0, maximumf_apply, mulf_apply, addf_apply, broadcast_apply, shapeCast_self, shapeCast_self]
  have hm : matmul (F := Ideal) (φ₁ := .f32) (φ₂ := .f32) dot_S1x512_S512x8192_S1x8192_1_0_0_1_n_n none
      (shapeCast S1x512 x0 shapeCasts_S1x1x512_S1x512 : FVec Ideal S1x512 .f32) (x1 : FVec Ideal S512x8192 .f32)
      (constant (F := Ideal) S1x8192 .f32 0x00000000#32) (ix2 0 k) = ∑ ci : Fin 512, x0 (ix3 0 0 ci) * x1 (ix2 ci k) := by
    refine (plain_matmul_apply (φ₁ := .f32) (φ₂ := .f32) dot_S1x512_S512x8192_S1x8192_1_0_0_1_n_n rfl rfl rfl rfl rfl rfl none _ _ 0 k).trans ?_
    exact Finset.sum_congr rfl fun ci _ => congrArg (fun z : EReal => z * x1 (ix2 ci k)) (drop0 x0 ci)
  rw [hm]
  rfl

/-! ## Region 0: from the blocks to the array -/

section Region0
open Idealize.ShloMosaic.TcCoe
open Idealize.ShloMosaic.Pipeline (Dat)

variable (V : (c : Dev nD) → (b : Ref sig .tc) → Buf (Elt Ideal) ((c : Thread nD τ).loc b)) (c : Dev nD)

theorem hz3 : (![0, 0, 0] : Fin 3 → Nat) = fun _ => 0 := funext fun a => by fin_cases a <;> rfl
theorem hz2 : (![0, 0] : Fin 2 → Nat) = fun _ => 0 := funext fun a => by fin_cases a <;> rfl

/-- The three arrays region 0 reads, as the region finds them. -/
abbrev X0 : S1024x1x512.Idx → EReal := V c (Pipeline.arrRef spec0 0)
abbrev W0 : S512x8192.Idx → EReal := V c (Pipeline.arrRef spec0 1)
abbrev B0 : S1x8192.Idx → EReal := V c (Pipeline.arrRef spec0 2)

/-- Region 0's result as one function of its three arrays: row `n`, column `k` is the leaky rectifier of
    the row of the first array against column `k` of the second, plus the bias at `k`. -/
def G0 (X : S1024x1x512.Idx → EReal) (W : S512x8192.Idx → EReal) (Bv : S1x8192.Idx → EReal) : S1024x1x8192.Idx → EReal :=
  fun i => lk ((∑ ci : Fin 512, X (ix3 (i 0 : Fin 1024) (0 : Fin 1) ci) * W (ix2 ci (i 2 : Fin 8192))) + Bv (ix2 (0 : Fin 1) (i 2 : Fin 8192)))

/-- The printed index maps over the grid: the first window and the result move with the point along the rows,
    the second and third windows are whole arrays. -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- `G0` at an index whose row is `r` and column `k`. -/
theorem G0_apply_of (X : S1024x1x512.Idx → EReal) (W : S512x8192.Idx → EReal) (Bv : S1x8192.Idx → EReal)
    (i : S1024x1x8192.Idx) (r : Fin 1024) (k : Fin 8192) (h0 : (i 0).val = r.val) (h2 : (i 2).val = k.val) :
    G0 X W Bv i = lk ((∑ ci : Fin 512, X (ix3 r 0 ci) * W (ix2 ci k)) + Bv (ix2 0 k)) := by
  have e0 : (i 0 : Fin 1024) = r := Fin.ext h0
  have e2 : (i 2 : Fin 8192) = k := Fin.ext h2
  unfold G0
  rw [e0, e2]

/-- The first window's block at point `t` is row `t` of its array. -/
theorem blk0_0 (t : Fin cfg0.N) (ci : Fin 512) (r : Fin 1024) (hr : r.val = t.val) :
    (iblk0 V c 0 t : S1x1x512.Idx → EReal) (ix3 0 0 ci)
      = X0 V c (ix3 r 0 ci) := by
  obtain ⟨e00, e01, e02, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 3) * 1 + 1 * 0 = r.val; omega
  | ⟨1, _⟩ => show win0_0.index t (1 : Fin 3) * 1 + 1 * 0 = 0; omega
  | ⟨2, _⟩ => show win0_0.index t (2 : Fin 3) * 512 + 1 * ci.val = ci.val; omega

/-- The second window's block at every point is its whole array. -/
theorem blk0_1 (t : Fin cfg0.N) (ci : Fin 512) (k : Fin 8192) :
    (iblk0 V c 1 t : S512x8192.Idx → EReal) (ix2 ci k)
      = W0 V c (ix2 ci k) := by
  obtain ⟨-, -, -, e10, e11, -⟩ := idx_facts0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 512 + 1 * ci.val = ci.val; omega
  | ⟨1, _⟩ => show win0_1.index t (1 : Fin 2) * 8192 + 1 * k.val = k.val; omega

/-- The third window's block at every point is its whole array. -/
theorem blk0_2 (t : Fin cfg0.N) (k : Fin 8192) :
    (iblk0 V c 2 t : S1x8192.Idx → EReal) (ix2 0 k)
      = B0 V c (ix2 0 k) := by
  obtain ⟨-, -, -, -, -, e20, e21, -⟩ := idx_facts0 t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * 0 = 0; omega
  | ⟨1, _⟩ => show win0_2.index t (1 : Fin 2) * 8192 + 1 * k.val = k.val; omega

/-- What point `t` writes back is block `t` of `G0` of the arrays as the region finds them. -/
theorem flushed0_eq (t : Fin cfg0.N) :
    (dat0 V c).flushed 3 t = ((cfg0.win 3).blk t).view.read (Elt Ideal)
      (G0 (X0 V c) (W0 V c) (B0 V c)) := by
  show (cfg0.win 3).cut (grid0.coords t) ((dat0 V c).after 3 t) = _
  rw [after0_3]
  unfold out0_3
  rw [View.canon_unit_zero hz3]
  simp only [View.ld_unit_zero (S := S1x1x512) hz3, View.ld_unit_zero (S := S512x8192) hz2, View.ld_unit_zero (S := S1x8192) hz2]
  obtain ⟨-, -, -, -, -, -, -, e30, e31, e32⟩ := idx_facts0 t
  funext j
  obtain ⟨a, b, k, rfl⟩ : ∃ (a : Fin 1) (b : Fin 1) (k : Fin 8192), j = ix3 a b k := ⟨j 0, j 1, j 2, eq_ix3 j⟩
  obtain rfl : a = 0 := Subsingleton.elim _ _
  obtain rfl : b = 0 := Subsingleton.elim _ _
  refine (pay0_apply _ _ _ k).trans ?_
  rw [View.read_apply]
  refine Eq.trans ?_ (G0_apply_of _ _ _ _ (Fin.cast N_0 t) k ?_ ?_).symm
  · exact congrArg lk (congrArg₂ (· + ·)
      (Finset.sum_congr rfl fun ci _ => congrArg₂ (· * ·) (blk0_0 V c t ci (Fin.cast N_0 t) rfl) (blk0_1 V c t ci k))
      (blk0_2 V c t k))
  · show win0_3.index t (0 : Fin 3) * 1 + 1 * 0 = t.val; omega
  · show win0_3.index t (2 : Fin 3) * 8192 + 1 * k.val = k.val; omega

/-- An index of the result array is in point `t`'s block iff each coordinate is in the block's range on its axis. -/
theorem mem_blk0 (t : Fin cfg0.N) (i : S1024x1x8192.Idx) :
    i ∈ ((cfg0.win 3).blk t).view.set ↔ ∀ a : Fin 3, win0_3.index t a * S1x1x8192.size a ≤ (i a).val
      ∧ (i a).val < win0_3.index t a * S1x1x8192.size a + S1x1x8192.size a := by
  show i ∈ ((View.whole main_call0_v19).slice (win0_3.rect t)).set ↔ _
  rw [View.set_slice_whole, Rect.mem_set_unit]
  exact Iff.rfl

/-- The result array after region 0: `G0` of the three arrays; point `n` covers row `n`. -/
theorem arr0_eq : (dat0 V c).arrAt 3 cfg0.N
    = G0 (X0 V c) (W0 V c) (B0 V c) :=
  (dat0 V c).arrAt_eq_of_cover 3 _ (fun t _ => flushed0_eq V c t) fun i => by
    have h0 : (i 0).val < 1024 := (i 0).isLt
    have h1 : (i 1).val < 1 := (i 1).isLt
    have h2 : (i 2).val < 8192 := (i 2).isLt
    refine ⟨Fin.cast N_0.symm ⟨(i 0).val, h0⟩, flush0_3 _, ?_⟩
    obtain ⟨-, -, -, -, -, -, -, e30, e31, e32⟩ := idx_facts0 (Fin.cast N_0.symm ⟨(i 0).val, h0⟩)
    rw [mem_blk0]
    intro a
    match a with
    | ⟨0, _⟩ => show win0_3.index _ (0 : Fin 3) * 1 ≤ (i 0).val ∧ (i 0).val < win0_3.index _ (0 : Fin 3) * 1 + 1
                rw [e30]; show (i 0).val * 1 ≤ (i 0).val ∧ (i 0).val < (i 0).val * 1 + 1; omega
    | ⟨1, _⟩ => show win0_3.index _ (1 : Fin 3) * 1 ≤ (i 1).val ∧ (i 1).val < win0_3.index _ (1 : Fin 3) * 1 + 1
                rw [e31]; omega
    | ⟨2, _⟩ => show win0_3.index _ (2 : Fin 3) * 8192 ≤ (i 2).val ∧ (i 2).val < win0_3.index _ (2 : Fin 3) * 8192 + 8192
                rw [e32]; omega

/-- REGION 0 AT AN INDEX: row `n`, column `k` of the result array after the region. -/
theorem region0_apply (n : Fin 1024) (k : Fin 8192) :
    ((dat0 V c).arrAt 3 cfg0.N : S1024x1x8192.Idx → EReal) (ix3 n 0 k)
      = lk ((∑ ci : Fin 512, X0 V c (ix3 n 0 ci) * W0 V c (ix2 ci k)) + B0 V c (ix2 0 k)) := by
  rw [arr0_eq]
  exact G0_apply_of _ _ _ (ix3 n 0 k) n k rfl rfl

end Region0

end Cert.ReferenceIdeal.Bodies

end
-- ==== Proof.RBody1.lean ====
/-
  The reference's second region, read at an index.

  The region runs over 1024 grid points. Point `n` reads sample `n` of a [1024, 512, 16] activation array (512 channels
  at 16 pixels) and the whole of five other arrays: nine 512 × 512 channel matrices, a bias column, nine 16 × 16 pixel
  matrices, a 3 × 512 output mix and its bias column. It writes sample `n` of a [1024, 3, 16] array.

  What it computes for one sample: each pixel's 512 channels are normalised by the reciprocal root of their mean square;
  each of nine taps moves the normalised image by its pixel matrix and mixes the channels by its channel matrix, and the
  nine results are added in order, nested to the left; the bias column is added, the leaky rectifier applied, the pixels
  normalised again, and the three output channels are the mix matrix against that image plus the output bias.

  The file writes that arithmetic once as plain functions of coordinates, writes the same operations once on vectors in
  the order the body applies them, shows that the body's chain of intermediate values is that composition, reads each
  vector operation by coordinates, identifies each window's block with the part of its array it holds, and concludes that
  the result array after the region is that function of the six arrays, entry by entry: point `n` covers sample `n`, so
  the samples written tile the array. The last statement is in the reference's arrangement of the head, the image given
  pixel first.
-/
import proofs.«156209_g2000106920163945_pallasbulk_552_2_alg».proof.Proof.RBody0
import proofs.«156209_g2000106920163945_pallasbulk_552_2_alg».proof.Proof.RefSpecG
import Idealize.ShloMosaic.Lib.ValueLayout

noncomputable section

open scoped BigOperators

namespace Cert.ReferenceIdeal.Bodies

open Idealize.ShloMosaic Idealize.ShloMosaic.ValueIdx
open Cert.ReferenceIdeal Cert.ReferenceIdeal.Gen

/-! ## The second region's arithmetic as plain functions of coordinates -/

/-- The channel count as the body's divisor word, and the norm's additive word. -/
abbrev w512 : EReal := Ideal.ofBits .f32 0x44000000#32
abbrev eps : EReal := Ideal.ofBits .f32 0x322BCC77#32

/-- The pixel norm's factor at pixel `q`: the reciprocal root of the mean square over the 512 channels, plus `eps`. -/
def nrm (f : Fin 512 → Fin 16 → EReal) (q : Fin 16) : EReal :=
  Ideal.rsqrt (Ideal.div (∑ o : Fin 512, f o q * f o q) w512 + eps)

/-- The pixel norm: each channel at a pixel times that pixel's factor. -/
def pn (f : Fin 512 → Fin 16 → EReal) (o : Fin 512) (q : Fin 16) : EReal := f o q * nrm f q

/-- A [512,16] image against a 16 × 16 pixel matrix. -/
def mm16 (g : Fin 512 → Fin 16 → EReal) (s : Fin 16 → Fin 16 → EReal) (o : Fin 512) (p : Fin 16) : EReal :=
  ∑ q : Fin 16, g o q * s q p

/-- A 512 × 512 channel matrix against a [512,16] image. -/
def mm512 (w : Fin 512 → Fin 512 → EReal) (u : Fin 512 → Fin 16 → EReal) (co : Fin 512) (p : Fin 16) : EReal :=
  ∑ ci : Fin 512, w co ci * u ci p

/-- One tap of the 3 × 3 convolution: the image shifted by the tap's pixel matrix, then mixed by the tap's channel matrix. -/
def tap (g : Fin 512 → Fin 16 → EReal) (w : Fin 512 → Fin 512 → EReal) (s : Fin 16 → Fin 16 → EReal) :
    Fin 512 → Fin 16 → EReal := mm512 w (mm16 g s)

/-- The nine taps added in the body's order, nested to the left. -/
def acc9 (g : Fin 512 → Fin 16 → EReal) (w : Fin 9 → Fin 512 → Fin 512 → EReal) (s : Fin 9 → Fin 16 → Fin 16 → EReal)
    (co : Fin 512) (p : Fin 16) : EReal :=
  tap g (w 0) (s 0) co p + tap g (w 1) (s 1) co p + tap g (w 2) (s 2) co p + tap g (w 3) (s 3) co p
    + tap g (w 4) (s 4) co p + tap g (w 5) (s 5) co p + tap g (w 6) (s 6) co p + tap g (w 7) (s 7) co p
    + tap g (w 8) (s 8) co p

/-- The convolution plus bias through the leaky rectifier. -/
def yv (g : Fin 512 → Fin 16 → EReal) (w : Fin 9 → Fin 512 → Fin 512 → EReal) (s : Fin 9 → Fin 16 → Fin 16 → EReal)
    (b : Fin 512 → EReal) (co : Fin 512) (p : Fin 16) : EReal := lk (acc9 g w s co p + b co)

/-- The region's result for one sample: pixel norm, convolution, bias, rectifier, pixel norm, then the three output
    channels' mix and bias. -/
def rgb (f : Fin 512 → Fin 16 → EReal) (w : Fin 9 → Fin 512 → Fin 512 → EReal) (s : Fin 9 → Fin 16 → Fin 16 → EReal)
    (b : Fin 512 → EReal) (wr : Fin 3 → Fin 512 → EReal) (br : Fin 3 → EReal) (r : Fin 3) (p : Fin 16) : EReal :=
  (∑ cc : Fin 512, wr r cc * pn (yv (pn f) w s b) cc p) + br r

/-! ## Vectors as functions of coordinates -/

/-- A rank-2 vector by its two coordinates. -/
def cur2 {a b : ℕ} (v : (⟨2, ![a, b]⟩ : Shape).Idx → EReal) : Fin a → Fin b → EReal := fun i j => v (ix2 i j)

/-- A rank-3 vector with a leading unit axis by its two other coordinates. -/
def cur3 {a b : ℕ} (v : (⟨3, ![1, a, b]⟩ : Shape).Idx → EReal) : Fin a → Fin b → EReal := fun i j => v (ix3 0 i j)

/-! ## The body's non-pointwise operations at an index -/

/-- The sum over the channel axis of a [512,16] vector, at pixel `q`. -/
theorem red16 (v : FVec Ideal S512x16 .f32) (q : Fin 16) :
    multiReduction (F := Ideal) .add [0] S16 v 0x00000000#32 reduces_S512x16_S16 (.inl rfl) rfl (ix1 q)
      = ∑ o : Fin 512, v (ix2 o q) := by
  refine (Ideal.multiReduction_add_single v _ reduces_S512x16_S16 _ _ (ix1 q)).trans ?_
  refine Finset.sum_congr rfl fun o _ => congrArg v (funext fun a => ?_)
  match a with
  | ⟨0, _⟩ => rfl
  | ⟨1, _⟩ => rfl

/-- A column [a,1] spread over [a,b], at (p, c): the column at `p`. -/
theorem bcast_col {a b : ℕ} (v : (⟨2, ![a, 1]⟩ : Shape).Idx → EReal) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The mean square's sum kept as a one-row matrix, at pixel `q`. -/
theorem sumsq_apply (v : FVec Ideal S512x16 .f32) (u : Fin 1) (q : Fin 16) :
    shapeCast S1x16 (multiReduction (F := Ideal) .add [0] S16 (mulf v v) 0x00000000#32 reduces_S512x16_S16 (.inl rfl) rfl)
        shapeCasts_S16_S1x16 (ix2 u q)
      = ∑ o : Fin 512, v (ix2 o q) * v (ix2 o q) := by
  rw [shapeCast_a_1a_apply, red16]
  rfl

/-- The pixel norm of a [512,16] vector, operation by operation as the body prints it. -/
def pnV (v : FVec Ideal S512x16 .f32) : FVec Ideal S512x16 .f32 :=
  mulf v (broadcastTo S512x16
    (rsqrt (addf (divf (shapeCast S1x16 (multiReduction (F := Ideal) .add [0] S16 (mulf v v) 0x00000000#32 reduces_S512x16_S16 (.inl rfl) rfl)
        shapeCasts_S16_S1x16) (broadcast S1x16 (Scalar.ofBits .f32 0x44000000#32)))
      (broadcast S1x16 (Scalar.ofBits .f32 0x322BCC77#32)))) broadcasts_S1x16_S512x16)

/-- Read by coordinates it is `pn`. -/
theorem pnV_cur (v : FVec Ideal S512x16 .f32) : cur2 (pnV v) = pn (cur2 v) := by
  funext o q
  show pnV v (ix2 o q) = v (ix2 o q) * nrm (cur2 v) q
  unfold pnV
  rw [mulf_apply, broadcastTo_1b_ab_apply]
  refine congrArg (fun z : EReal => v (ix2 o q) * z) ?_
  unfold nrm
  refine congrArg Ideal.rsqrt ?_
  refine congrArg (fun z : EReal => Ideal.div z w512 + eps) ?_
  exact sumsq_apply v 0 q

/-- The image against one tap's pixel matrix, loaded as a [1,16,16] slab. -/
def mm16V (g : FVec Ideal S512x16 .f32) (sblk : Vec Ideal S1x16x16 .f32) : FVec Ideal S512x16 .f32 :=
  matmul (F := Ideal) (φ₁ := .f32) (φ₂ := .f32) dot_S512x16_S16x16_S512x16_1_0_0_1_n_n none g
    (shapeCast S16x16 sblk shapeCasts_S1x16x16_S16x16 : FVec Ideal S16x16 .f32) (constant (F := Ideal) S512x16 .f32 0x00000000#32)

theorem mm16V_cur (g : FVec Ideal S512x16 .f32) (sblk : Vec Ideal S1x16x16 .f32) :
    cur2 (mm16V g sblk) = mm16 (cur2 g) (cur3 sblk) := by
  funext o p
  show mm16V g sblk (ix2 o p) = ∑ q : Fin 16, g (ix2 o q) * sblk (ix3 0 q p)
  unfold mm16V
  refine (plain_matmul_apply (φ₁ := .f32) (φ₂ := .f32) dot_S512x16_S16x16_S512x16_1_0_0_1_n_n rfl rfl rfl rfl rfl rfl none _ _ o p).trans ?_
  exact Finset.sum_congr rfl fun q _ => congrArg (fun z : EReal => g (ix2 o q) * z) (shapeCast_1ab_ab_apply sblk _ q p)

/-- One tap's channel matrix, loaded as a [1,512,512] slab, against a [512,16] image. -/
def mm512V (wblk : Vec Ideal S1x512x512 .f32) (u : FVec Ideal S512x16 .f32) : FVec Ideal S512x16 .f32 :=
  matmul (F := Ideal) (φ₁ := .f32) (φ₂ := .f32) dot_S512x512_S512x16_S512x16_1_0_0_1_n_n none
    (shapeCast S512x512 wblk shapeCasts_S1x512x512_S512x512 : FVec Ideal S512x512 .f32) u (constant (F := Ideal) S512x16 .f32 0x00000000#32)

theorem mm512V_cur (wblk : Vec Ideal S1x512x512 .f32) (u : FVec Ideal S512x16 .f32) :
    cur2 (mm512V wblk u) = mm512 (cur3 wblk) (cur2 u) := by
  funext co p
  show mm512V wblk u (ix2 co p) = ∑ ci : Fin 512, wblk (ix3 0 co ci) * u (ix2 ci p)
  unfold mm512V
  refine (plain_matmul_apply (φ₁ := .f32) (φ₂ := .f32) dot_S512x512_S512x16_S512x16_1_0_0_1_n_n rfl rfl rfl rfl rfl rfl none _ _ co p).trans ?_
  exact Finset.sum_congr rfl fun ci _ => congrArg (fun z : EReal => z * u (ix2 ci p)) (shapeCast_1ab_ab_apply wblk _ co ci)

/-- One tap on vectors, and its reading by coordinates. -/
def tapV (g : FVec Ideal S512x16 .f32) (sblk : Vec Ideal S1x16x16 .f32) (wblk : Vec Ideal S1x512x512 .f32) :
    FVec Ideal S512x16 .f32 := mm512V wblk (mm16V g sblk)

theorem tapV_cur (g : FVec Ideal S512x16 .f32) (sblk : Vec Ideal S1x16x16 .f32) (wblk : Vec Ideal S1x512x512 .f32) :
    cur2 (tapV g sblk wblk) = tap (cur2 g) (cur3 wblk) (cur3 sblk) := by
  unfold tapV tap
  rw [mm512V_cur, mm16V_cur]

/-- The nine taps added on vectors, nested to the left as the body adds them. -/
def accV (g : FVec Ideal S512x16 .f32)
    (s0 : Vec Ideal S1x16x16 .f32) (w0 : Vec Ideal S1x512x512 .f32) (s1 : Vec Ideal S1x16x16 .f32) (w1 : Vec Ideal S1x512x512 .f32)
    (s2 : Vec Ideal S1x16x16 .f32) (w2 : Vec Ideal S1x512x512 .f32) (s3 : Vec Ideal S1x16x16 .f32) (w3 : Vec Ideal S1x512x512 .f32)
    (s4 : Vec Ideal S1x16x16 .f32) (w4 : Vec Ideal S1x512x512 .f32) (s5 : Vec Ideal S1x16x16 .f32) (w5 : Vec Ideal S1x512x512 .f32)
    (s6 : Vec Ideal S1x16x16 .f32) (w6 : Vec Ideal S1x512x512 .f32) (s7 : Vec Ideal S1x16x16 .f32) (w7 : Vec Ideal S1x512x512 .f32)
    (s8 : Vec Ideal S1x16x16 .f32) (w8 : Vec Ideal S1x512x512 .f32) : FVec Ideal S512x16 .f32 :=
  addf (addf (addf (addf (addf (addf (addf (addf (tapV g s0 w0) (tapV g s1 w1)) (tapV g s2 w2)) (tapV g s3 w3)) (tapV g s4 w4))
    (tapV g s5 w5)) (tapV g s6 w6)) (tapV g s7 w7)) (tapV g s8 w8)

theorem accV_cur (g : FVec Ideal S512x16 .f32)
    (s0 : Vec Ideal S1x16x16 .f32) (w0 : Vec Ideal S1x512x512 .f32) (s1 : Vec Ideal S1x16x16 .f32) (w1 : Vec Ideal S1x512x512 .f32)
    (s2 : Vec Ideal S1x16x16 .f32) (w2 : Vec Ideal S1x512x512 .f32) (s3 : Vec Ideal S1x16x16 .f32) (w3 : Vec Ideal S1x512x512 .f32)
    (s4 : Vec Ideal S1x16x16 .f32) (w4 : Vec Ideal S1x512x512 .f32) (s5 : Vec Ideal S1x16x16 .f32) (w5 : Vec Ideal S1x512x512 .f32)
    (s6 : Vec Ideal S1x16x16 .f32) (w6 : Vec Ideal S1x512x512 .f32) (s7 : Vec Ideal S1x16x16 .f32) (w7 : Vec Ideal S1x512x512 .f32)
    (s8 : Vec Ideal S1x16x16 .f32) (w8 : Vec Ideal S1x512x512 .f32) :
    cur2 (accV g s0 w0 s1 w1 s2 w2 s3 w3 s4 w4 s5 w5 s6 w6 s7 w7 s8 w8)
      = acc9 (cur2 g) ![cur3 w0, cur3 w1, cur3 w2, cur3 w3, cur3 w4, cur3 w5, cur3 w6, cur3 w7, cur3 w8]
          ![cur3 s0, cur3 s1, cur3 s2, cur3 s3, cur3 s4, cur3 s5, cur3 s6, cur3 s7, cur3 s8] := by
  funext co p
  have h : ∀ (s : Vec Ideal S1x16x16 .f32) (w : Vec Ideal S1x512x512 .f32),
      tapV g s w (ix2 co p) = tap (cur2 g) (cur3 w) (cur3 s) co p :=
    fun s w => congrFun (congrFun (tapV_cur g s w) co) p
  show accV g s0 w0 s1 w1 s2 w2 s3 w3 s4 w4 s5 w5 s6 w6 s7 w7 s8 w8 (ix2 co p) = _
  unfold accV
  simp only [addf_apply, h]
  rfl

/-- Bias column, leaky rectifier and pixel norm on a [512,16] vector, as the body prints them. -/
def tailV (a : FVec Ideal S512x16 .f32) (b2 : Vec Ideal S512x1 .f32) : FVec Ideal S512x16 .f32 :=
  have v77 : FVec Ideal S512x16 .f32 :=
    addf a (broadcastTo S512x16 (shapeCast S512x1 b2 shapeCasts_S512x1_S512x1 : FVec Ideal S512x1 .f32) broadcasts_S512x1_S512x16)
  pnV (maximumf v77 (mulf (broadcast S512x16 (Scalar.ofBits .f32 0x3E4CCCCD#32)) v77))

theorem tailV_cur (a : FVec Ideal S512x16 .f32) (b2 : Vec Ideal S512x1 .f32) :
    cur2 (tailV a b2) = pn (fun co p => lk (cur2 a co p + b2 (ix2 co (0 : Fin 1)))) := by
  unfold tailV
  rw [pnV_cur]
  refine congrArg pn (funext fun co => funext fun p => ?_)
  show maximumf _ _ (ix2 co p) = _
  rw [maximumf_apply, mulf_apply, addf_apply, broadcast_apply, bcast_col, shapeCast_self]
  rfl

/-- The three output channels: the mix matrix against the normed image, plus the bias column, stored as a [1,3,16] block. -/
def rgbV (yn : FVec Ideal S512x16 .f32) (wr : FVec Ideal S3x512 .f32) (br : Vec Ideal S3x1 .f32) : FVec Ideal S1x3x16 .f32 :=
  shapeCast S1x3x16
    (addf (matmul (F := Ideal) (φ₁ := .f32) (φ₂ := .f32) dot_S3x512_S512x16_S3x16_1_0_0_1_n_n none wr yn (constant (F := Ideal) S3x16 .f32 0x00000000#32))
      (broadcastTo S3x16 (shapeCast S3x1 br shapeCasts_S3x1_S3x1 : FVec Ideal S3x1 .f32) broadcasts_S3x1_S3x16))
    shapeCasts_S3x16_S1x3x16

theorem rgbV_apply (yn : FVec Ideal S512x16 .f32) (wr : FVec Ideal S3x512 .f32) (br : Vec Ideal S3x1 .f32) (r : Fin 3) (p : Fin 16) :
    rgbV yn wr br (ix3 0 r p) = (∑ cc : Fin 512, cur2 wr r cc * cur2 yn cc p) + br (ix2 r (0 : Fin 1)) := by
  unfold rgbV
  rw [shapeCast_ab_1ab_apply, addf_apply, bcast_col, shapeCast_self]
  refine congrArg (fun z : EReal => z + br (ix2 r (0 : Fin 1))) ?_
  exact plain_matmul_apply (φ₁ := .f32) (φ₂ := .f32) dot_S3x512_S512x16_S3x16_1_0_0_1_n_n rfl rfl rfl rfl rfl rfl none _ _ r p

/-- The body's chain of payloads is that composition: the first norm, nine taps, the tail, the output mix. -/
theorem pays_eq (x0 : Vec Ideal S1x512x16 .f32)
    (s0 : Vec Ideal S1x16x16 .f32) (w0 : Vec Ideal S1x512x512 .f32) (s1 : Vec Ideal S1x16x16 .f32) (w1 : Vec Ideal S1x512x512 .f32)
    (s2 : Vec Ideal S1x16x16 .f32) (w2 : Vec Ideal S1x512x512 .f32) (s3 : Vec Ideal S1x16x16 .f32) (w3 : Vec Ideal S1x512x512 .f32)
    (s4 : Vec Ideal S1x16x16 .f32) (w4 : Vec Ideal S1x512x512 .f32) (s5 : Vec Ideal S1x16x16 .f32) (w5 : Vec Ideal S1x512x512 .f32)
    (s6 : Vec Ideal S1x16x16 .f32) (w6 : Vec Ideal S1x512x512 .f32) (s7 : Vec Ideal S1x16x16 .f32) (w7 : Vec Ideal S1x512x512 .f32)
    (s8 : Vec Ideal S1x16x16 .f32) (w8 : Vec Ideal S1x512x512 .f32)
    (b2 : Vec Ideal S512x1 .f32) (wr : Vec Ideal S3x512 .f32) (br : Vec Ideal S3x1 .f32) :
    k1_pay1 (k1_pay9 (k1_pay2 x0)
        (k1_pay6 (k1_pay2 x0) (k1_pay3 x0 s0 w0 s1 w1) (k1_pay4 x0 s2) (k1_pay5 w2) s3 w3 s4 w4 s5 w5)
        (k1_pay7 (k1_pay2 x0) s6) (k1_pay8 w6) s7 w7 s8 w8 b2) (k1_pay10 wr) br
      = rgbV (tailV (accV (pnV (shapeCast S512x16 x0 shapeCasts_S1x512x16_S512x16)) s0 w0 s1 w1 s2 w2 s3 w3 s4 w4 s5 w5 s6 w6 s7 w7 s8 w8) b2)
          (shapeCast S3x512 wr shapeCasts_S3x512_S3x512) br := rfl

/-! ## The body's loads and its store at an index -/

/-- A [512,16] view of a [1,512,16] block, by coordinates. -/
theorem cur2_cast (x : Vec Ideal S1x512x16 .f32) :
    cur2 (shapeCast S512x16 x shapeCasts_S1x512x16_S512x16 : FVec Ideal S512x16 .f32) = cur3 x :=
  funext fun o => funext fun q => shapeCast_1ab_ab_apply x _ o q

/-- A [1,16,16] slab loaded from the nine pixel matrices at offset (t, 0, 0) is matrix `t`. -/
theorem ld_slab16 (x : Vec Ideal S9x16x16 .f32) (off : Fin 3 → ℕ) (inb : ∀ a, off a + S1x16x16.size a ≤ S9x16x16.size a)
    (t : Fin 9) (h0 : off 0 = t.val) (h1 : off 1 = 0) (h2 : off 2 = 0) :
    cur3 (View.ld x (Rect.unit (s := S9x16x16) off S1x16x16.size inb)) = fun q p => x (ix3 t q p) := by
  funext q p
  show x _ = x _
  refine congrArg x (funext fun a => Fin.ext ?_)
  match a with
  | ⟨0, _⟩ => show off 0 + 1 * 0 = t.val; omega
  | ⟨1, _⟩ => show off 1 + 1 * q.val = q.val; omega
  | ⟨2, _⟩ => show off 2 + 1 * p.val = p.val; omega

/-- A [1,512,512] slab loaded from the nine channel matrices at offset (t, 0, 0) is matrix `t`. -/
theorem ld_slab512 (x : Vec Ideal S9x512x512 .f32) (off : Fin 3 → ℕ) (inb : ∀ a, off a + S1x512x512.size a ≤ S9x512x512.size a)
    (t : Fin 9) (h0 : off 0 = t.val) (h1 : off 1 = 0) (h2 : off 2 = 0) :
    cur3 (View.ld x (Rect.unit (s := S9x512x512) off S1x512x512.size inb)) = fun co ci => x (ix3 t co ci) := by
  funext co ci
  show x _ = x _
  refine congrArg x (funext fun a => Fin.ext ?_)
  match a with
  | ⟨0, _⟩ => show off 0 + 1 * 0 = t.val; omega
  | ⟨1, _⟩ => show off 1 + 1 * co.val = co.val; omega
  | ⟨2, _⟩ => show off 2 + 1 * ci.val = ci.val; omega

/-- The nine channel-matrix slabs the body loads, in tap order. -/
theorem slabsW (x1 : Vec Ideal S9x512x512 .f32) :
    (![cur3 (View.ld x1 r1_2), cur3 (View.ld x1 r1_4), cur3 (View.ld x1 r1_6), cur3 (View.ld x1 r1_8), cur3 (View.ld x1 r1_10),
        cur3 (View.ld x1 r1_12), cur3 (View.ld x1 r1_14), cur3 (View.ld x1 r1_16), cur3 (View.ld x1 r1_18)]
      : Fin 9 → Fin 512 → Fin 512 → EReal) = fun t co ci => x1 (ix3 t co ci) := by
  funext t
  match t with
  | ⟨0, _⟩ => exact ld_slab512 x1 _ _ 0 rfl rfl rfl
  | ⟨1, _⟩ => exact ld_slab512 x1 _ _ 1 rfl rfl rfl
  | ⟨2, _⟩ => exact ld_slab512 x1 _ _ 2 rfl rfl rfl
  | ⟨3, _⟩ => exact ld_slab512 x1 _ _ 3 rfl rfl rfl
  | ⟨4, _⟩ => exact ld_slab512 x1 _ _ 4 rfl rfl rfl
  | ⟨5, _⟩ => exact ld_slab512 x1 _ _ 5 rfl rfl rfl
  | ⟨6, _⟩ => exact ld_slab512 x1 _ _ 6 rfl rfl rfl
  | ⟨7, _⟩ => exact ld_slab512 x1 _ _ 7 rfl rfl rfl
  | ⟨8, _⟩ => exact ld_slab512 x1 _ _ 8 rfl rfl rfl

/-- The nine pixel-matrix slabs the body loads, in tap order. -/
theorem slabsS (x3 : Vec Ideal S9x16x16 .f32) :
    (![cur3 (View.ld x3 r1_1), cur3 (View.ld x3 r1_3), cur3 (View.ld x3 r1_5), cur3 (View.ld x3 r1_7), cur3 (View.ld x3 r1_9),
        cur3 (View.ld x3 r1_11), cur3 (View.ld x3 r1_13), cur3 (View.ld x3 r1_15), cur3 (View.ld x3 r1_17)]
      : Fin 9 → Fin 16 → Fin 16 → EReal) = fun t q p => x3 (ix3 t q p) := by
  funext t
  match t with
  | ⟨0, _⟩ => exact ld_slab16 x3 _ _ 0 rfl rfl rfl
  | ⟨1, _⟩ => exact ld_slab16 x3 _ _ 1 rfl rfl rfl
  | ⟨2, _⟩ => exact ld_slab16 x3 _ _ 2 rfl rfl rfl
  | ⟨3, _⟩ => exact ld_slab16 x3 _ _ 3 rfl rfl rfl
  | ⟨4, _⟩ => exact ld_slab16 x3 _ _ 4 rfl rfl rfl
  | ⟨5, _⟩ => exact ld_slab16 x3 _ _ 5 rfl rfl rfl
  | ⟨6, _⟩ => exact ld_slab16 x3 _ _ 6 rfl rfl rfl
  | ⟨7, _⟩ => exact ld_slab16 x3 _ _ 7 rfl rfl rfl
  | ⟨8, _⟩ => exact ld_slab16 x3 _ _ 8 rfl rfl rfl

/-- WHAT THE BODY STORES, at channel `r` and pixel `p` of its [1,3,16] block, from the six blocks it reads. -/
theorem out1_apply (x0 : Vec Ideal S1x512x16 .f32) (x1 : Vec Ideal S9x512x512 .f32) (x2 : Vec Ideal S512x1 .f32)
    (x3 : Vec Ideal S9x16x16 .f32) (x4 : Vec Ideal S3x512 .f32) (x5 : Vec Ideal S3x1 .f32) (r : Fin 3) (p : Fin 16) :
    out1_6 x0 x1 x2 x3 x4 x5 (ix3 0 r p)
      = rgb (cur3 x0) (fun t co ci => x1 (ix3 t co ci)) (fun t q p => x3 (ix3 t q p)) (fun co => x2 (ix2 co (0 : Fin 1)))
          (cur2 x4) (fun r => x5 (ix2 r (0 : Fin 1))) r p := by
  unfold out1_6
  rw [View.canon_unit_zero hz3]
  simp only [View.ld_unit_zero (S := S1x512x16) hz3, View.ld_unit_zero (S := S512x1) hz2, View.ld_unit_zero (S := S3x512) hz2,
    View.ld_unit_zero (S := S3x1) hz2]
  rw [pays_eq, rgbV_apply, tailV_cur, accV_cur, pnV_cur, cur2_cast, shapeCast_self, slabsW, slabsS]
  rfl

/-! ## Region 1: from the blocks to the array -/

section Region1
open Idealize.ShloMosaic.TcCoe
open Idealize.ShloMosaic.Pipeline (Dat)

variable (V : (c : Dev nD) → (b : Ref sig .tc) → Buf (Elt Ideal) ((c : Thread nD τ).loc b)) (c : Dev nD)

/-- The six arrays region 1 reads, as the region finds them. -/
abbrev H1 : S1024x512x16.Idx → EReal := V c (Pipeline.arrRef spec1 0)
abbrev W21 : S9x512x512.Idx → EReal := V c (Pipeline.arrRef spec1 1)
abbrev B21 : S512x1.Idx → EReal := V c (Pipeline.arrRef spec1 2)
abbrev S1 : S9x16x16.Idx → EReal := V c (Pipeline.arrRef spec1 3)
abbrev Wr1 : S3x512.Idx → EReal := V c (Pipeline.arrRef spec1 4)
abbrev Br1 : S3x1.Idx → EReal := V c (Pipeline.arrRef spec1 5)

/-- Region 1's result as one function of its six arrays: sample `i 0`, output channel `i 1`, pixel `i 2`. -/
def G1 (H : S1024x512x16.Idx → EReal) (W2 : S9x512x512.Idx → EReal) (B2 : S512x1.Idx → EReal) (S : S9x16x16.Idx → EReal)
    (Wr : S3x512.Idx → EReal) (Br : S3x1.Idx → EReal) : S1024x3x16.Idx → EReal :=
  fun i => rgb (fun o q => H (ix3 (i 0 : Fin 1024) o q)) (fun t co ci => W2 (ix3 t co ci)) (fun t q p => S (ix3 t q p))
    (fun co => B2 (ix2 co (0 : Fin 1))) (fun r cc => Wr (ix2 r cc)) (fun r => Br (ix2 r (0 : Fin 1))) (i 1 : Fin 3) (i 2 : Fin 16)

/-- `G1` at an index whose sample is `n`, channel `r`, pixel `p`. -/
theorem G1_apply_of (H : S1024x512x16.Idx → EReal) (W2 : S9x512x512.Idx → EReal) (B2 : S512x1.Idx → EReal) (S : S9x16x16.Idx → EReal)
    (Wr : S3x512.Idx → EReal) (Br : S3x1.Idx → EReal) (i : S1024x3x16.Idx) (n : Fin 1024) (r : Fin 3) (p : Fin 16)
    (h0 : (i 0).val = n.val) (h1 : (i 1).val = r.val) (h2 : (i 2).val = p.val) :
    G1 H W2 B2 S Wr Br i = rgb (fun o q => H (ix3 n o q)) (fun t co ci => W2 (ix3 t co ci)) (fun t q p => S (ix3 t q p))
      (fun co => B2 (ix2 co (0 : Fin 1))) (fun r cc => Wr (ix2 r cc)) (fun r => Br (ix2 r (0 : Fin 1))) r p := by
  have e0 : (i 0 : Fin 1024) = n := Fin.ext h0
  have e1 : (i 1 : Fin 3) = r := Fin.ext h1
  have e2 : (i 2 : Fin 16) = p := Fin.ext h2
  unfold G1
  rw [e0, e1, e2]

/-- Equal arguments give equal results. -/
theorem rgb_congr {f f' : Fin 512 → Fin 16 → EReal} {w w' : Fin 9 → Fin 512 → Fin 512 → EReal} {s s' : Fin 9 → Fin 16 → Fin 16 → EReal}
    {b b' : Fin 512 → EReal} {wr wr' : Fin 3 → Fin 512 → EReal} {br br' : Fin 3 → EReal}
    (hf : f = f') (hw : w = w') (hs : s = s') (hb : b = b') (hwr : wr = wr') (hbr : br = br') (r : Fin 3) (p : Fin 16) :
    rgb f w s b wr br r p = rgb f' w' s' b' wr' br' r p := by
  subst hf hw hs hb hwr hbr; rfl

/-- The printed index maps over the grid: the activation window and the result move with the point along the samples,
    the five other windows are whole arrays. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = t.val ∧ win1_6.index t (1 : Fin 3) = 0 ∧ win1_6.index t (2 : Fin 3) = 0 :=
  (by decide +kernel : ∀ t : Fin grid1.N, _)

/-- The activation window's block at point `t` is sample `t` of its array. -/
theorem blk1_0 (t : Fin cfg1.N) (o : Fin 512) (q : Fin 16) (n : Fin 1024) (hn : n.val = t.val) :
    (iblk1 V c 0 t : S1x512x16.Idx → EReal) (ix3 0 o q) = H1 V c (ix3 n o q) := by
  obtain ⟨e0, e1, e2, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 3) * 1 + 1 * 0 = n.val; omega
  | ⟨1, _⟩ => show win1_0.index t (1 : Fin 3) * 512 + 1 * o.val = o.val; omega
  | ⟨2, _⟩ => show win1_0.index t (2 : Fin 3) * 16 + 1 * q.val = q.val; omega

/-- The channel matrices' window is its whole array at every point. -/
theorem blk1_1 (t : Fin cfg1.N) (k : Fin 9) (co ci : Fin 512) :
    (iblk1 V c 1 t : S9x512x512.Idx → EReal) (ix3 k co ci) = W21 V c (ix3 k co ci) := by
  obtain ⟨-, -, -, e0, e1, e2, -⟩ := idx_facts1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 3) * 9 + 1 * k.val = k.val; omega
  | ⟨1, _⟩ => show win1_1.index t (1 : Fin 3) * 512 + 1 * co.val = co.val; omega
  | ⟨2, _⟩ => show win1_1.index t (2 : Fin 3) * 512 + 1 * ci.val = ci.val; omega

/-- The bias column's window is its whole array at every point. -/
theorem blk1_2 (t : Fin cfg1.N) (co : Fin 512) :
    (iblk1 V c 2 t : S512x1.Idx → EReal) (ix2 co (0 : Fin 1)) = B21 V c (ix2 co (0 : Fin 1)) := by
  obtain ⟨-, -, -, -, -, -, e0, e1, -⟩ := idx_facts1 t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 512 + 1 * co.val = co.val; omega
  | ⟨1, _⟩ => show win1_2.index t (1 : Fin 2) * 1 + 1 * 0 = 0; omega

/-- The pixel matrices' window is its whole array at every point. -/
theorem blk1_3 (t : Fin cfg1.N) (k : Fin 9) (q p : Fin 16) :
    (iblk1 V c 3 t : S9x16x16.Idx → EReal) (ix3 k q p) = S1 V c (ix3 k q p) := by
  obtain ⟨-, -, -, -, -, -, -, -, e0, e1, e2, -⟩ := idx_facts1 t
  unfold iblk1
  rw [View.read_apply]
  show V c (Pipeline.arrRef spec1 3) _ = V c (Pipeline.arrRef spec1 3) _
  congr 1
  funext a
  apply Fin.ext
  match a with
  | ⟨0, _⟩ => show win1_3.index t (0 : Fin 3) * 9 + 1 * k.val = k.val; omega
  | ⟨1, _⟩ => show win1_3.index t (1 : Fin 3) * 16 + 1 * q.val = q.val; omega
  | ⟨2, _⟩ => show win1_3.index t (2 : Fin 3) * 16 + 1 * p.val = p.val; omega

/-- The output mix's window is its whole array at every point. -/
theorem blk1_4 (t : Fin cfg1.N) (r : Fin 3) (cc : Fin 512) :
    (iblk1 V c 4 t : S3x512.Idx → EReal) (ix2 r cc) = Wr1 V c (ix2 r cc) := by
  obtain ⟨-, -, -, -, -, -, -, -, -, -, -, e0, e1, -⟩ := idx_facts1 t
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 3 + 1 * r.val = r.val; omega
  | ⟨1, _⟩ => show win1_4.index t (1 : Fin 2) * 512 + 1 * cc.val = cc.val; omega

/-- The output bias's window is its whole array at every point. -/
theorem blk1_5 (t : Fin cfg1.N) (r : Fin 3) :
    (iblk1 V c 5 t : S3x1.Idx → EReal) (ix2 r (0 : Fin 1)) = Br1 V c (ix2 r (0 : Fin 1)) := by
  obtain ⟨-, -, -, -, -, -, -, -, -, -, -, -, -, e0, e1, -⟩ := idx_facts1 t
  unfold iblk1
  rw [View.read_apply]
  show V c (Pipeline.arrRef spec1 5) _ = V c (Pipeline.arrRef spec1 5) _
  congr 1
  funext a
  apply Fin.ext
  match a with
  | ⟨0, _⟩ => show win1_5.index t (0 : Fin 2) * 3 + 1 * r.val = r.val; omega
  | ⟨1, _⟩ => show win1_5.index t (1 : Fin 2) * 1 + 1 * 0 = 0; omega

/-- What point `t` writes back is block `t` of `G1` of the arrays as the region finds them. -/
theorem flushed1_eq (t : Fin cfg1.N) :
    (dat1 V c).flushed 6 t = ((cfg1.win 6).blk t).view.read (Elt Ideal)
      (G1 (H1 V c) (W21 V c) (B21 V c) (S1 V c) (Wr1 V c) (Br1 V c)) := by
  show (cfg1.win 6).cut (grid1.coords t) ((dat1 V c).after 6 t) = _
  rw [after1_6]
  obtain ⟨-, -, -, -, -, -, -, -, -, -, -, -, -, -, -, e60, e61, e62⟩ := idx_facts1 t
  funext j
  obtain ⟨a, r, p, rfl⟩ : ∃ (a : Fin 1) (r : Fin 3) (p : Fin 16), j = ix3 a r p := ⟨j 0, j 1, j 2, eq_ix3 j⟩
  obtain rfl : a = 0 := Subsingleton.elim _ _
  refine (out1_apply _ _ _ _ _ _ r p).trans ?_
  rw [View.read_apply]
  refine Eq.trans ?_ (G1_apply_of _ _ _ _ _ _ _ (Fin.cast N_1 t) r p ?_ ?_ ?_).symm
  · exact rgb_congr
      (funext fun o => funext fun q => blk1_0 V c t o q (Fin.cast N_1 t) rfl)
      (funext fun k => funext fun co => funext fun ci => blk1_1 V c t k co ci)
      (funext fun k => funext fun q => funext fun p => blk1_3 V c t k q p)
      (funext fun co => blk1_2 V c t co)
      (funext fun r => funext fun cc => blk1_4 V c t r cc)
      (funext fun r => blk1_5 V c t r) r p
  · show win1_6.index t (0 : Fin 3) * 1 + 1 * 0 = t.val; omega
  · show win1_6.index t (1 : Fin 3) * 3 + 1 * r.val = r.val; omega
  · show win1_6.index t (2 : Fin 3) * 16 + 1 * p.val = p.val; omega

/-- An index of the result array is in point `t`'s block iff each coordinate is in the block's range on its axis. -/
theorem mem_blk1 (t : Fin cfg1.N) (i : S1024x3x16.Idx) :
    i ∈ ((cfg1.win 6).blk t).view.set ↔ ∀ a : Fin 3, win1_6.index t a * S1x3x16.size a ≤ (i a).val
      ∧ (i a).val < win1_6.index t a * S1x3x16.size a + S1x3x16.size a := by
  show i ∈ ((View.whole main_call0_v21).slice (win1_6.rect t)).set ↔ _
  rw [View.set_slice_whole, Rect.mem_set_unit]
  exact Iff.rfl

/-- The result array after region 1: `G1` of the six arrays; point `n` covers sample `n`. -/
theorem arr1_eq : (dat1 V c).arrAt 6 cfg1.N = G1 (H1 V c) (W21 V c) (B21 V c) (S1 V c) (Wr1 V c) (Br1 V c) :=
  (dat1 V c).arrAt_eq_of_cover 6 _ (fun t _ => flushed1_eq V c t) fun i => by
    have h0 : (i 0).val < 1024 := (i 0).isLt
    have h1 : (i 1).val < 3 := (i 1).isLt
    have h2 : (i 2).val < 16 := (i 2).isLt
    refine ⟨Fin.cast N_1.symm ⟨(i 0).val, h0⟩, flush1_6 _, ?_⟩
    obtain ⟨-, -, -, -, -, -, -, -, -, -, -, -, -, -, -, e60, e61, e62⟩ := idx_facts1 (Fin.cast N_1.symm ⟨(i 0).val, h0⟩)
    rw [mem_blk1]
    intro a
    match a with
    | ⟨0, _⟩ => show win1_6.index _ (0 : Fin 3) * 1 ≤ (i 0).val ∧ (i 0).val < win1_6.index _ (0 : Fin 3) * 1 + 1
                rw [e60]; show (i 0).val * 1 ≤ (i 0).val ∧ (i 0).val < (i 0).val * 1 + 1; omega
    | ⟨1, _⟩ => show win1_6.index _ (1 : Fin 3) * 3 ≤ (i 1).val ∧ (i 1).val < win1_6.index _ (1 : Fin 3) * 3 + 3
                rw [e61]; omega
    | ⟨2, _⟩ => show win1_6.index _ (2 : Fin 3) * 16 ≤ (i 2).val ∧ (i 2).val < win1_6.index _ (2 : Fin 3) * 16 + 16
                rw [e62]; omega

/-- The region's arithmetic is the head in the reference's arrangement: the same sums, the image given pixel first. -/
theorem rgb_eq_headG (f : Fin 512 → Fin 16 → EReal) (w : Fin 9 → Fin 512 → Fin 512 → EReal) (s : Fin 9 → Fin 16 → Fin 16 → EReal)
    (b : Fin 512 → EReal) (wr : Fin 3 → Fin 512 → EReal) (br : Fin 3 → EReal) (r : Fin 3) (p : Fin 16) :
    rgb f w s b wr br r p = Cert.RefSpec.headG s (fun q o => f o q) w b wr br p r := rfl

/-- REGION 1 AT AN INDEX: sample `n`, output channel `r`, pixel `p` of the result array after the region. -/
theorem region1_apply (n : Fin 1024) (r : Fin 3) (p : Fin 16) :
    ((dat1 V c).arrAt 6 cfg1.N : S1024x3x16.Idx → EReal) (ix3 n r p)
      = Cert.RefSpec.headG (fun t q p => (V c (Pipeline.arrRef spec1 3) : S9x16x16.Idx → EReal) (ix3 t q p))
          (fun q o => (V c (Pipeline.arrRef spec1 0) : S1024x512x16.Idx → EReal) (ix3 n o q))
          (fun t co ci => (V c (Pipeline.arrRef spec1 1) : S9x512x512.Idx → EReal) (ix3 t co ci))
          (fun co => (V c (Pipeline.arrRef spec1 2) : S512x1.Idx → EReal) (ix2 co 0))
          (fun r cc => (V c (Pipeline.arrRef spec1 4) : S3x512.Idx → EReal) (ix2 r cc))
          (fun r => (V c (Pipeline.arrRef spec1 5) : S3x1.Idx → EReal) (ix2 r 0)) p r := by
  rw [arr1_eq]
  refine (G1_apply_of _ _ _ _ _ _ (ix3 n r p) n r p rfl rfl rfl).trans ?_
  exact rgb_eq_headG _ _ _ _ _ _ r p

end Region1

end Cert.ReferenceIdeal.Bodies

end
-- ==== Proof.RFinal.lean ====
/-
  The reference's result is the specification's array.

  The result array is region 1's output re-laid; region 1's output at (n, r, p) is the head in the reference's arrangement
  over the arrays region 1 finds; of those, the weights, biases and shift matrices are what the host stretch before region 0
  made of the arguments, and the activation is region 0's output re-laid, which at (n, o, q) is stage one of latent row n at
  pixel q and channel o. The reference's arrangement of the head is the specification's.
-/
import proofs.«156209_g2000106920163945_pallasbulk_552_2_alg».proof.Proof.RHost
import proofs.«156209_g2000106920163945_pallasbulk_552_2_alg».proof.Proof.RRun
import proofs.«156209_g2000106920163945_pallasbulk_552_2_alg».proof.Proof.SpecArgs
import proofs.«156209_g2000106920163945_pallasbulk_552_2_alg».proof.Proof.RefBridge
import proofs.«156209_g2000106920163945_pallasbulk_552_2_alg».proof.Proof.RefSpecG
import proofs.«156209_g2000106920163945_pallasbulk_552_2_alg».proof.Proof.RBody0
import proofs.«156209_g2000106920163945_pallasbulk_552_2_alg».proof.Proof.RBody1

set_option maxRecDepth 16384

noncomputable section

open scoped BigOperators

namespace Cert.ReferenceIdeal.Final

open Idealize.ShloMosaic Idealize.ShloMosaic.TcCoe Idealize.SL.Sem
open Idealize.ShloMosaic.ValueIdx
open Cert.ReferenceIdeal Cert.ReferenceIdeal.Gen Cert.ReferenceIdeal.HostSide
open Cert.Spec Cert.RefSpec

variable (m : (ℓ : Loc nD τ sig) → Buf (Elt Ideal) ℓ) (ρ : Dev nD → PrngReg) (c : Dev nD)

/-! ## What region 1 finds -/

/-- The two spellings of the rectifier agree. -/
theorem lk_eq (v : EReal) : Cert.ReferenceIdeal.Bodies.lk v = Cert.Spec.lk v := rfl

/-- The activation region 1 finds: stage one of latent row `n` at pixel `q`, channel `o`. -/
theorem h1_at (n : Fin 1024) (o : Fin 512) (q : Fin 16) :
    (V3 m ρ c main_call0_v20 : S1024x512x16.Idx → EReal) (ix3 n o q)
      = stage (xA (A0 m c) n) (w1A (A1 m c)) (b1A (A2 m c)) q o := by
  refine (v20_at m ρ c n o q).trans ?_
  refine (Cert.ReferenceIdeal.Bodies.region0_apply (V1 m ρ) c n ⟨o.val * 16 + q.val, by omega⟩).trans ?_
  rw [lk_eq]
  exact congrArg Cert.Spec.lk (congrArg₂ (· + ·)
    (Finset.sum_congr rfl fun ci _ => congrArg₂ (· * ·) (v18_at m ρ c n ci) (v5_at m ρ c ci o q))
    (v8_at m ρ c o q))

/-- The shift matrices region 1 finds. -/
theorem S_at (t : Fin 9) (q p : Fin 16) :
    (V3 m ρ c main_call0_cst : S9x16x16.Idx → EReal) (ix3 t q p) = sm t q p := by
  refine (congrFun (V3_cst m ρ c) _).trans ((cst_at m ρ c t q p).trans ?_)
  unfold sm
  by_cases h : hit t q p
  · exact (if_pos h).trans (if_pos h).symm
  · exact (if_neg h).trans (if_neg h).symm

/-! ## The result -/

theorem ref_result_of
    (hC2 : ∀ (V : (c : Dev nD) → (b : Ref sig .tc) → Buf (Elt Ideal) ((c : Thread nD τ).loc b)) (c : Dev nD)
      (n : Fin 1024) (r : Fin 3) (p : Fin 16),
      ((dat1 V c).arrAt 6 cfg1.N : S1024x3x16.Idx → EReal) (ix3 n r p)
        = headG (fun t q p => (V c (Pipeline.arrRef spec1 3) : S9x16x16.Idx → EReal) (ix3 t q p))
            (fun q o => (V c (Pipeline.arrRef spec1 0) : S1024x512x16.Idx → EReal) (ix3 n o q))
            (fun t co ci => (V c (Pipeline.arrRef spec1 1) : S9x512x512.Idx → EReal) (ix3 t co ci))
            (fun co => (V c (Pipeline.arrRef spec1 2) : S512x1.Idx → EReal) (ix2 co 0))
            (fun r cc => (V c (Pipeline.arrRef spec1 4) : S3x512.Idx → EReal) (ix2 r cc))
            (fun r => (V c (Pipeline.arrRef spec1 5) : S3x1.Idx → EReal) (ix2 r 0)) p r) :
    (W5 m ρ c (Proc.devRef .tc main_v0) : S1024x3x4x4.Idx → EReal)
      = specArr (A0 m c) (A1 m c) (A2 m c) (A3 m c) (A4 m c) (A5 m c) (A6 m c) := by
  funext idx
  obtain ⟨n, r, i, j, rfl⟩ : ∃ (n : Fin 1024) (r : Fin 3) (i j : Fin 4), idx = ix4 n r i j :=
    ⟨idx 0, idx 1, idx 2, idx 3, eq_ix4 idx⟩
  refine (result_at m ρ c n r i j).trans ?_
  refine (hC2 (V3 m ρ) c n r ⟨i.val * 4 + j.val, by omega⟩).trans ?_
  refine (headG_congr (S' := sm)
    (h1' := fun q o => stage (xA (A0 m c) n) (w1A (A1 m c)) (b1A (A2 m c)) q o)
    (w2r' := fun t co ci => w2A (A3 m c) t ci co) (b2' := b2A (A4 m c))
    (wrr' := fun r cc => wrA (A5 m c) cc r) (br' := brA (A6 m c))
    (funext fun t => funext fun q => funext fun p => S_at m ρ c t q p)
    (funext fun q => funext fun o => h1_at m ρ c n o q)
    (funext fun t => funext fun co => funext fun ci => (congrFun (V3_v12 m ρ c) _).trans (v12_at m ρ c t co ci))
    (funext fun co => (congrFun (V3_v13 m ρ c) _).trans (v13_at m ρ c co))
    (funext fun r => funext fun cc => (congrFun (V3_v16 m ρ c) _).trans (v16_at m ρ c r cc))
    (funext fun r => (congrFun (V3_v17 m ρ c) _).trans (v17_at m ρ c r)) _ _).trans ?_
  refine (headG_sm _ _ _ _ _ _ _).trans ?_
  exact (headR_eq _ _ _ _ _ _ _).trans rfl

/-- The reference's run: every weakly fair execution terminates, nothing faulting, the result buffer holding the
    specification's array and the arguments as launched. -/
theorem ref_run_of
    (hC2 : ∀ (V : (c : Dev nD) → (b : Ref sig .tc) → Buf (Elt Ideal) ((c : Thread nD τ).loc b)) (c : Dev nD)
      (n : Fin 1024) (r : Fin 3) (p : Fin 16),
      ((dat1 V c).arrAt 6 cfg1.N : S1024x3x16.Idx → EReal) (ix3 n r p)
        = headG (fun t q p => (V c (Pipeline.arrRef spec1 3) : S9x16x16.Idx → EReal) (ix3 t q p))
            (fun q o => (V c (Pipeline.arrRef spec1 0) : S1024x512x16.Idx → EReal) (ix3 n o q))
            (fun t co ci => (V c (Pipeline.arrRef spec1 1) : S9x512x512.Idx → EReal) (ix3 t co ci))
            (fun co => (V c (Pipeline.arrRef spec1 2) : S512x1.Idx → EReal) (ix2 co 0))
            (fun r cc => (V c (Pipeline.arrRef spec1 4) : S3x512.Idx → EReal) (ix2 r cc))
            (fun r => (V c (Pipeline.arrRef spec1 5) : S3x1.Idx → EReal) (ix2 r 0)) p r) : θ_run defs (onTc (τ := τ) (main (F := Ideal))) ⟨m, fun _ => 0, ρ⟩ (fun r => ∀ c : Dev nD,
      (r.2.mem ((c.tc : Thread nD τ).loc main_v0) : S1024x3x4x4.Idx → EReal)
        = specArr (A0 m c) (A1 m c) (A2 m c) (A3 m c) (A4 m c) (A5 m c) (A6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h c).1).trans (ref_result_of m ρ c hC2), (h c).2⟩) (run_value (F := Ideal) m ρ)

/-- The reference's result array is the specification's. -/
theorem ref_result :
    (W5 m ρ c (Proc.devRef .tc main_v0) : S1024x3x4x4.Idx → EReal)
      = specArr (A0 m c) (A1 m c) (A2 m c) (A3 m c) (A4 m c) (A5 m c) (A6 m c) :=
  ref_result_of m ρ c fun V c n r p => Cert.ReferenceIdeal.Bodies.region1_apply V c n r p

/-- The reference's run: every weakly fair execution terminates, nothing faulting, the result buffer holding the
    specification's array and the arguments as launched. -/
theorem ref_run : θ_run defs (onTc (τ := τ) (main (F := Ideal))) ⟨m, fun _ => 0, ρ⟩ (fun r => ∀ c : Dev nD,
      (r.2.mem ((c.tc : Thread nD τ).loc main_v0) : S1024x3x4x4.Idx → EReal)
        = specArr (A0 m c) (A1 m c) (A2 m c) (A3 m c) (A4 m c) (A5 m c) (A6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h c).1).trans (ref_result m ρ c), (h c).2⟩) (run_value (F := Ideal) m ρ)

end Cert.ReferenceIdeal.Final

end
-- ==== Proof.lean ====
/-
  A generator head — latent vector → 4 × 4 transposed convolution, leaky rectifier, channel normalisation, 3 × 3 convolution,
  rectifier, normalisation, 1 × 1 colour map — computed two ways, equal entry by entry on the extended reals.

  The fused program handles 256 latent rows at a time and keeps activations as (pixel, row, channel): every output pixel
  adds, over the taps that stay inside the image, the product of a neighbour's activations with that tap's weight matrix.
  The reference handles one row at a time, keeps activations as (channel, pixel), moves them with nine constant 0/1 shift
  matrices and multiplies by the tap weights from the left. Both are the one function `Cert.Spec.specArr` of the seven
  arguments: a 0/1 column selects one neighbour or none (x · 1 = x and x · 0 = 0 for every extended real), the taps outside
  the image contribute 0, and products and sums commute. No finiteness of the inputs is used.
-/
import proofs.«156209_g2000106920163945_pallasbulk_552_2_alg».proof.Defs
import proofs.«156209_g2000106920163945_pallasbulk_552_2_alg».proof.Proof.Gen.Kernel.Frame
import proofs.«156209_g2000106920163945_pallasbulk_552_2_alg».proof.Proof.Gen.KernelIdeal.Frame
import proofs.«156209_g2000106920163945_pallasbulk_552_2_alg».proof.Proof.Gen.ReferenceIdeal.Frame
import proofs.«156209_g2000106920163945_pallasbulk_552_2_alg».proof.Proof.Gen.Pre_finite_inputs
import proofs.«156209_g2000106920163945_pallasbulk_552_2_alg».proof.Proof.KFinal
import proofs.«156209_g2000106920163945_pallasbulk_552_2_alg».proof.Proof.RFinal

noncomputable section

namespace Cert.Proof

open Idealize.ShloMosaic Idealize.SL.Sem

/-- The two idealised programs, from memories that agree on the arguments, end with the same result array: each ends
    at the specification of its own arguments, and the arguments agree. -/
theorem algebraic : Cert.algebraic_KernelIdeal_ReferenceIdeal := by
  intro m ρ m' ρ' _ hagree
  refine ⟨fun c => Cert.Spec.specArr (Cert.KernelIdeal.HostSide.arg0 m c) (Cert.KernelIdeal.HostSide.arg1 m c)
      (Cert.KernelIdeal.HostSide.arg2 m c) (Cert.KernelIdeal.HostSide.arg3 m c) (Cert.KernelIdeal.HostSide.arg4 m c)
      (Cert.KernelIdeal.HostSide.arg5 m c) (Cert.KernelIdeal.HostSide.arg6 m c),
    Cert.KernelIdeal.Final.runK m ρ, ?_⟩
  refine (θ_run Cert.ReferenceIdeal.defs _ _).mono (fun _ h c => ⟨(h c).1.trans ?_, (h c).2⟩)
    (Cert.ReferenceIdeal.Final.ref_run m' ρ')
  obtain ⟨e0, e1, e2, e3, e4, e5, e6⟩ := hagree c
  have h0 : Cert.ReferenceIdeal.HostSide.A0 m' c = Cert.KernelIdeal.HostSide.arg0 m c := e0
  have h1 : Cert.ReferenceIdeal.HostSide.A1 m' c = Cert.KernelIdeal.HostSide.arg1 m c := e1
  have h2 : Cert.ReferenceIdeal.HostSide.A2 m' c = Cert.KernelIdeal.HostSide.arg2 m c := e2
  have h3 : Cert.ReferenceIdeal.HostSide.A3 m' c = Cert.KernelIdeal.HostSide.arg3 m c := e3
  have h4 : Cert.ReferenceIdeal.HostSide.A4 m' c = Cert.KernelIdeal.HostSide.arg4 m c := e4
  have h5 : Cert.ReferenceIdeal.HostSide.A5 m' c = Cert.KernelIdeal.HostSide.arg5 m c := e5
  have h6 : Cert.ReferenceIdeal.HostSide.A6 m' c = Cert.KernelIdeal.HostSide.arg6 m c := e6
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
